-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x128 : Shape := ⟨3, ![256, 1024, 128]⟩
abbrev S8x8x128 : Shape := ⟨3, ![8, 8, 128]⟩
abbrev S2048 : Shape := ⟨1, ![2048]⟩
abbrev S_ : Shape := ⟨0, ![]⟩

class Facts : Prop where
  bcast_S_S256x1024x128 : S_.BroadcastsInDim S256x1024x128 (![] : Fin 0 → Fin S256x1024x128.rank)
  reducesTo_S256x1024x128_S_d0_1_2 : S256x1024x128.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S256x1024x128 .f32) (main_arg1 : FVec F S256x1024x128 .f32) (main_arg2 : FVec F S256x1024x128 .f32) (main_arg3 : IVec S8x8x128 32) (main_arg4 : FVec F S2048 .f32) : IVec S_ 1 :=
  let main_v0 : FVec F S256x1024x128 .f32 := Host.absf main_arg0
  let main_cst : FVec F S_ .f32 := constant S_ .f32 0x7F800000#32
  let main_v1 : FVec F S256x1024x128 .f32 := broadcastInDim S256x1024x128 ![] bcast_S_S256x1024x128 main_cst
  let main_v2 : IVec S256x1024x128 1 := cmpf .olt main_v0 main_v1
  let main_c : IVec S_ 1 := constantI S_ 1 1#1
  let main_v3 : IVec S_ 1 := (fun x v => Host.reduce IntOp.andi x v reducesTo_S256x1024x128_S_d0_1_2 h_S_) main_v2 main_c
  let main_v4 : FVec F S256x1024x128 .f32 := Host.absf main_arg1
  let main_cst_0 : FVec F S_ .f32 := constant S_ .f32 0x7F800000#32
  let main_v5 : FVec F S256x1024x128 .f32 := broadcastInDim S256x1024x128 ![] bcast_S_S256x1024x128 main_cst_0
  let main_v6 : IVec S256x1024x128 1 := cmpf .olt main_v4 main_v5
  let main_c_1 : IVec S_ 1 := constantI S_ 1 1#1
  let main_v7 : IVec S_ 1 := (fun x v => Host.reduce IntOp.andi x v reducesTo_S256x1024x128_S_d0_1_2 h_S_) main_v6 main_c_1
  let main_v8 : IVec S_ 1 := andi main_v3 main_v7
  let main_v9 : FVec F S256x1024x128 .f32 := Host.absf main_arg2
  let main_cst_2 : FVec F S_ .f32 := constant S_ .f32 0x7F800000#32
  let main_v10 : FVec F S256x1024x128 .f32 := broadcastInDim S256x1024x128 ![] bcast_S_S256x1024x128 main_cst_2
  let main_v11 : IVec S256x1024x128 1 := cmpf .olt main_v9 main_v10
  let main_c_3 : IVec S_ 1 := constantI S_ 1 1#1
  let main_v12 : IVec S_ 1 := (fun x v => Host.reduce IntOp.andi x v reducesTo_S256x1024x128_S_d0_1_2 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S256x1024x128 : Shape := ⟨3, ![256, 1024, 128]⟩
abbrev S8x8x128 : Shape := ⟨3, ![8, 8, 128]⟩
abbrev S2048 : Shape := ⟨1, ![2048]⟩
abbrev S8x1024 : Shape := ⟨2, ![8, 1024]⟩
abbrev S256x128x128 : Shape := ⟨3, ![256, 128, 128]⟩
abbrev S8x128 : Shape := ⟨2, ![8, 128]⟩
abbrev S32x128x128 : Shape := ⟨3, ![32, 128, 128]⟩
abbrev S128x128 : Shape := ⟨2, ![128, 128]⟩
abbrev S128 : Shape := ⟨1, ![128]⟩
abbrev S1x128 : Shape := ⟨2, ![1, 128]⟩
abbrev S8 : Shape := ⟨1, ![8]⟩
abbrev S1x8x1 : Shape := ⟨3, ![1, 8, 1]⟩
abbrev S_ : Shape := ⟨0, ![]⟩
abbrev S8192 : Shape := ⟨1, ![8192]⟩
abbrev S8192x1 : Shape := ⟨2, ![8192, 1]⟩
abbrev S8x256 : Shape := ⟨2, ![8, 256]⟩
abbrev S8x8x128x1 : Shape := ⟨4, ![8, 8, 128, 1]⟩
abbrev S8x8x128x2 : Shape := ⟨4, ![8, 8, 128, 2]⟩
abbrev S8x1x1024 : Shape := ⟨3, ![8, 1, 1024]⟩
abbrev S1x1x128 : Shape := ⟨3, ![1, 1, 128]⟩
abbrev S1x128x1 : Shape := ⟨3, ![1, 128, 1]⟩

abbrev nBuf : Space → Nat
  | .hbm => 61
  | .vmem => 18
  | .smem => 0
  | _ => 0

abbrev bufTy : (tb : Table) → Fin (tcTables nBuf tb) → BufTy
  | .hbm, ⟨0, _⟩ => ⟨S256x1024x128, .f32⟩
  | .hbm, ⟨1, _⟩ => ⟨S256x1024x128, .f32⟩
  | .hbm, ⟨2, _⟩ => ⟨S256x1024x128, .f32⟩
  | .hbm, ⟨3, _⟩ => ⟨S8x8x128, .i32⟩
  | .hbm, ⟨4, _⟩ => ⟨S2048, .f32⟩
  | .hbm, ⟨5, _⟩ => ⟨S8x1024, .f32⟩
  | .hbm, ⟨6, _⟩ => ⟨S8x8x128, .f32⟩
  | .hbm, ⟨7, _⟩ => ⟨S8, .i32⟩
  | .hbm, ⟨8, _⟩ => ⟨S1x8x1, .i32⟩
  | .hbm, ⟨9, _⟩ => ⟨S_, .i32⟩
  | .hbm, ⟨10, _⟩ => ⟨S1x8x1, .i32⟩
  | .hbm, ⟨11, _⟩ => ⟨S1x8x1, .i32⟩
  | .hbm, ⟨12, _⟩ => ⟨S8x8x128, .i32⟩
  | .hbm, ⟨13, _⟩ => ⟨S8x8x128, .i32⟩
  | .hbm, ⟨14, _⟩ => ⟨S8192, .i32⟩
  | .hbm, ⟨15, _⟩ => ⟨S8192, .f32⟩
  | .hbm, ⟨16, _⟩ => ⟨S_, .f32⟩
  | .hbm, ⟨17, _⟩ => ⟨S2048, .f32⟩
  | .hbm, ⟨18, _⟩ => ⟨S8192x1, .i32⟩
  | .hbm, ⟨19, _⟩ => ⟨S2048, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S2048, .f32⟩
  | .hbm, ⟨24, _⟩ => ⟨S8192x1, .i32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S8x256, .f32⟩
  | .hbm, ⟨35, _⟩ => ⟨S8, .i32⟩
  | .hbm, ⟨36, _⟩ => ⟨S1x8x1, .i32⟩
  | .hbm, ⟨37, _⟩ => ⟨S_, .i32⟩
  | .hbm, ⟨38, _⟩ => ⟨S1x8x1, .i32⟩
  | .hbm, ⟨39, _⟩ => ⟨S1x8x1, .i1⟩
  | .hbm, ⟨40, _⟩ => ⟨S_, .i32⟩
  | .hbm, ⟨41, _⟩ => ⟨S1x8x1, .i32⟩
  | .hbm, ⟨42, _⟩ => ⟨S1x8x1, .i32⟩
  | .hbm, ⟨43, _⟩ => ⟨S1x8x1, .i32⟩
  | .hbm, ⟨44, _⟩ => ⟨S_, .i32⟩
  | .hbm, ⟨45, _⟩ => ⟨S8x8x128, .i32⟩
  | .hbm, ⟨46, _⟩ => ⟨S8x8x128, .i1⟩
  | .hbm, ⟨47, _⟩ => ⟨S_, .i32⟩
  | .hbm, ⟨48, _⟩ => ⟨S8x8x128, .i32⟩
  | .hbm, ⟨49, _⟩ => ⟨S8x8x128, .i32⟩
  | .hbm, ⟨50, _⟩ => ⟨S8x8x128, .i32⟩
  | .hbm, ⟨51, _⟩ => ⟨S8x8x128, .i32⟩
  | .hbm, ⟨52, _⟩ => ⟨S8x8x128x1, .i32⟩
  | .hbm, ⟨53, _⟩ => ⟨S8x8x128x1, .i32⟩
  | .hbm, ⟨54, _⟩ => ⟨S8x8x128x2, .i32⟩
  | .hbm, ⟨55, _⟩ => ⟨S8x8x128, .f32⟩
  | .hbm, ⟨56, _⟩ => ⟨S8x1024, .f32⟩
  | .hbm, ⟨57, _⟩ => ⟨S8x1x1024, .f32⟩
  | .hbm, ⟨58, _⟩ => ⟨S256x1024x128, .f32⟩
  | .hbm, ⟨59, _⟩ => ⟨S256x1024x128, .f32⟩
  | .hbm, ⟨60, _⟩ => ⟨S256x1024x128, .f32⟩
  | .local _ .vmem, ⟨0, _⟩ => ⟨S256x128x128, .f32⟩
  | .local _ .vmem, ⟨1, _⟩ => ⟨S256x128x128, .f32⟩
  | .local _ .vmem, ⟨2, _⟩ => ⟨S8x128, .f32⟩
  | .local _ .vmem, ⟨3, _⟩ => ⟨S8x128, .f32⟩
  | .local _ .vmem, ⟨4, _⟩ => ⟨S32x128x128, .f32⟩
  | .local _ .vmem, ⟨5, _⟩ => ⟨S32x128x128, .f32⟩
  | .local _ .vmem, ⟨6, _⟩ => ⟨S32x128x128, .f32⟩
  | .local _ .vmem, ⟨7, _⟩ => ⟨S32x128x128, .f32⟩
  | .local _ .vmem, ⟨8, _⟩ => ⟨S32x128x128, .f32⟩
  | .local _ .vmem, ⟨9, _⟩ => ⟨S32x128x128, .f32⟩
  | .local _ .vmem, ⟨10, _⟩ => ⟨S1x1x128, .f32⟩
  | .local _ .vmem, ⟨11, _⟩ => ⟨S1x1x128, .f32⟩
  | .local _ .vmem, ⟨12, _⟩ => ⟨S32x128x128, .f32⟩
  | .local _ .vmem, ⟨13, _⟩ => ⟨S32x128x128, .f32⟩
  | .local _ .vmem, ⟨14, _⟩ => ⟨S32x128x128, .f32⟩
  | .local _ .vmem, ⟨15, _⟩ => ⟨S32x128x128, .f32⟩
  | .local _ .vmem, ⟨16, _⟩ => ⟨S32x128x128, .f32⟩
  | .local _ .vmem, ⟨17, _⟩ => ⟨S32x128x128, .f32⟩
  | _, _ => ⟨S256x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S32x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S32x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S256x128x128_S32x128x128_0_0_0 : ∀ a, (![0, 0, 0] : Fin 3 → Nat) a + S32x128x128.size a ≤ S256x128x128.size a
  h_S32x128x128 : 0 < S32x128x128.numel
  reduces_S32x128x128_S128x128 : S32x128x128.Reduces [0] S128x128
  reduces_S128x128_S128 : S128x128.Reduces [1] S128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  inb_S256x128x128_S32x128x128_32_0_0 : ∀ a, (![32, 0, 0] : Fin 3 → Nat) a + S32x128x128.size a ≤ S256x128x128.size a
  inb_S8x128_S1x128_1_0 : ∀ a, (![1, 0] : Fin 2 → Nat) a + S1x128.size a ≤ S8x128.size a
  inb_S256x128x128_S32x128x128_64_0_0 : ∀ a, (![64, 0, 0] : Fin 3 → Nat) a + S32x128x128.size a ≤ S256x128x128.size a
  inb_S8x128_S1x128_2_0 : ∀ a, (![2, 0] : Fin 2 → Nat) a + S1x128.size a ≤ S8x128.size a
  inb_S256x128x128_S32x128x128_96_0_0 : ∀ a, (![96, 0, 0] : Fin 3 → Nat) a + S32x128x128.size a ≤ S256x128x128.size a
  inb_S8x128_S1x128_3_0 : ∀ a, (![3, 0] : Fin 2 → Nat) a + S1x128.size a ≤ S8x128.size a
  inb_S256x128x128_S32x128x128_128_0_0 : ∀ a, (![128, 0, 0] : Fin 3 → Nat) a + S32x128x128.size a ≤ S256x128x128.size a
  inb_S8x128_S1x128_4_0 : ∀ a, (![4, 0] : Fin 2 → Nat) a + S1x128.size a ≤ S8x128.size a
  inb_S256x128x128_S32x128x128_160_0_0 : ∀ a, (![160, 0, 0] : Fin 3 → Nat) a + S32x128x128.size a ≤ S256x128x128.size a
  inb_S8x128_S1x128_5_0 : ∀ a, (![5, 0] : Fin 2 → Nat) a + S1x128.size a ≤ S8x128.size a
  inb_S256x128x128_S32x128x128_192_0_0 : ∀ a, (![192, 0, 0] : Fin 3 → Nat) a + S32x128x128.size a ≤ S256x128x128.size a
  inb_S8x128_S1x128_6_0 : ∀ a, (![6, 0] : Fin 2 → Nat) a + S1x128.size a ≤ S8x128.size a
  inb_S256x128x128_S32x128x128_224_0_0 : ∀ a, (![224, 0, 0] : Fin 3 → Nat) a + S32x128x128.size a ≤ S256x128x128.size a
  inb_S8x128_S1x128_7_0 : ∀ a, (![7, 0] : Fin 2 → Nat) a + S1x128.size a ≤ S8x128.size a
  shapeCasts_S8x1024_S8x8x128 : S8x1024.ShapeCasts S8x8x128
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S1x8x1_S8x8x128_0_1_2 : S1x8x1.BroadcastsInDim S8x8x128 (![0, 1, 2] : Fin 3 → Fin S8x8x128.rank)
  shapeCasts_S8x8x128_S8192 : S8x8x128.ShapeCasts S8192
  bcast_S_S2048 : S_.BroadcastsInDim S2048 (![] : Fin 0 → Fin S2048.rank)
  bcast_S8192_S8192x1_0 : S8192.BroadcastsInDim S8192x1 (![0] : Fin 1 → Fin S8192x1.rank)
  bcast_S_S8192 : S_.BroadcastsInDim S8192 (![] : Fin 0 → Fin S8192.rank)
  shapeCasts_S2048_S8x256 : S2048.ShapeCasts S8x256
  bcast_S_S8x8x128 : S_.BroadcastsInDim S8x8x128 (![] : Fin 0 → Fin S8x8x128.rank)
  bcast_S8x8x128_S8x8x128x1_0_1_2 : S8x8x128.BroadcastsInDim S8x8x128x1 (![0, 1, 2] : Fin 3 → Fin S8x8x128x1.rank)
  concatenates_S8x8x128x1_S8x8x128x1_S8x8x128x2_d3 : Shape.Concatenates [S8x8x128x1, S8x8x128x1] S8x8x128x2 3
  shapeCasts_S8x8x128_S8x1024 : S8x8x128.ShapeCasts S8x1024
  shapeCasts_S8x1024_S8x1x1024 : S8x1024.ShapeCasts S8x1x1024
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S1x128x1 : S1x1x128.ShapeCasts S1x128x1
  shapeCasts_S1x128x1_S1x128x1 : S1x128x1.ShapeCasts S1x128x1
  broadcasts_S1x128x1_S32x128x128 : S1x128x1.Broadcasts S32x128x128
  inb_S32x128x128_S32x128x128_0_0_0 : ∀ a, (![0, 0, 0] : Fin 3 → Nat) a + S32x128x128.size a ≤ S32x128x128.size a
  scatter_S2048_S8192x1_S8192_n_0_0_1_wf : ScatterDims.WF S2048 S8192x1 S8192 [] [0] [0] 1
  gather_S8x256_S8x8x128x2_S8x8x128_n_01_n_n_01_3_11_wf : GatherDims.WF S8x256 S8x8x128x2 S8x8x128 [] [0, 1] [] [0, 1] [] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x128.size a ≤ S256x1024x128.size a
  hwx0_0 : ∀ i : grid0.Coords, EltTy.bits .f32 = 32 ∨ (Rect.block (s := S256x1024x128) S256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x1024.size a
  hwx0_1 : ∀ i : grid0.Coords, EltTy.bits .f32 = 32 ∨ (Rect.block (s := S8x1024) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x128.size a ≤ S256x1024x128.size a
  hwx1_0 : ∀ i : grid1.Coords, EltTy.bits .f32 = 32 ∨ (Rect.block (s := S256x1024x128) S32x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x128.size a ≤ S256x1024x128.size a
  hwx1_1 : ∀ i : grid1.Coords, EltTy.bits .f32 = 32 ∨ (Rect.block (s := S256x1024x128) S32x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x128.size a ≤ S256x1024x128.size a
  hwx1_2 : ∀ i : grid1.Coords, EltTy.bits .f32 = 32 ∨ (Rect.block (s := S256x1024x128) S32x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S8x1x1024.size a
  hwx1_3 : ∀ i : grid1.Coords, EltTy.bits .f32 = 32 ∨ (Rect.block (s := S8x1x1024) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128x128.size a ≤ S256x1024x128.size a
  hwx1_4 : ∀ i : grid1.Coords, EltTy.bits .f32 = 32 ∨ (Rect.block (s := S256x1024x128) S32x128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x128x128.size a ≤ S256x1024x128.size a
  hwx1_5 : ∀ i : grid1.Coords, EltTy.bits .f32 = 32 ∨ (Rect.block (s := S256x1024x128) S32x128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x128x128.size a ≤ S256x1024x128.size a
  hwx1_6 : ∀ i : grid1.Coords, EltTy.bits .f32 = 32 ∨ (Rect.block (s := S256x1024x128) S32x128x128.size (cc1_transform_6 i) (hinb1_6 i)).WholeWords (EltTy.packing .f32)

variable [Facts₀]

def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def gather_S8x256_S8x8x128x2_S8x8x128_n_01_n_n_01_3_11 : GatherDims S8x256 S8x8x128x2 S8x8x128 where
  offsetDims := []
  collapsedSliceDims := [0, 1]
  operandBatchingDims := []
  startIndicesBatchingDims := []
  startIndexMap := [0, 1]
  indexVectorDim := 3
  sliceSizes := ![1, 1]
  wf := gather_S8x256_S8x8x128x2_S8x8x128_n_01_n_n_01_3_11_wf

abbrev win0_0 : Pipeline.Window sig grid0 :=
  Pipeline.Window.ofSpec (Memref.whole main_arg0) S256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S32x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S32x128x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S32x128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S32x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x1024x128 : Shape := ⟨3, ![256, 1024, 128]⟩
abbrev S8x8x128 : Shape := ⟨3, ![8, 8, 128]⟩
abbrev S2048 : Shape := ⟨1, ![2048]⟩
abbrev S8x32x8x128x128 : Shape := ⟨5, ![8, 32, 8, 128, 128]⟩
abbrev S_ : Shape := ⟨0, ![]⟩
abbrev S8 : Shape := ⟨1, ![8]⟩
abbrev S1x8x1 : Shape := ⟨3, ![1, 8, 1]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S256x8x128 : Shape := ⟨3, ![256, 8, 128]⟩
abbrev S8x256 : Shape := ⟨2, ![8, 256]⟩
abbrev S256x8x128x1 : Shape := ⟨4, ![256, 8, 128, 1]⟩
abbrev S256x8x128x2 : Shape := ⟨4, ![256, 8, 128, 2]⟩
abbrev S256x1024 : Shape := ⟨2, ![256, 1024]⟩
abbrev S256x1024x1 : Shape := ⟨3, ![256, 1024, 1]⟩

abbrev nBuf : Space → Nat
  | .hbm => 93
  | .vmem => 0
  | .smem => 0
  | _ => 0

abbrev bufTy : (tb : Table) → Fin (tcTables nBuf tb) → BufTy
  | .hbm, ⟨0, _⟩ => ⟨S256x1024x128, .f32⟩
  | .hbm, ⟨1, _⟩ => ⟨S256x1024x128, .f32⟩
  | .hbm, ⟨2, _⟩ => ⟨S256x1024x128, .f32⟩
  | .hbm, ⟨3, _⟩ => ⟨S8x8x128, .i32⟩
  | .hbm, ⟨4, _⟩ => ⟨S2048, .f32⟩
  | .hbm, ⟨5, _⟩ => ⟨S8x32x8x128x128, .f32⟩
  | .hbm, ⟨6, _⟩ => ⟨S_, .f32⟩
  | .hbm, ⟨7, _⟩ => ⟨S8x8x128, .f32⟩
  | .hbm, ⟨8, _⟩ => ⟨S8, .i32⟩
  | .hbm, ⟨9, _⟩ => ⟨S1x8x1, .i32⟩
  | .hbm, ⟨10, _⟩ => ⟨S_, .i32⟩
  | .hbm, ⟨11, _⟩ => ⟨S1x8x1, .i32⟩
  | .hbm, ⟨12, _⟩ => ⟨S1x8x1, .i32⟩
  | .hbm, ⟨13, _⟩ => ⟨S8x8x128, .i32⟩
  | .hbm, ⟨14, _⟩ => ⟨S8x8x128, .i32⟩
  | .hbm, ⟨15, _⟩ => ⟨S8192, .i32⟩
  | .hbm, ⟨16, _⟩ => ⟨S8192, .f32⟩
  | .hbm, ⟨17, _⟩ => ⟨S_, .f32⟩
  | .hbm, ⟨18, _⟩ => ⟨S2048, .f32⟩
  | .hbm, ⟨19, _⟩ => ⟨S8192x1, .i32⟩
  | .hbm, ⟨20, _⟩ => ⟨S2048, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S2048, .f32⟩
  | .hbm, ⟨25, _⟩ => ⟨S8192x1, .i32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S256, .i32⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256x8x128, .i32⟩
  | .hbm, ⟨63, _⟩ => ⟨S8x256, .f32⟩
  | .hbm, ⟨64, _⟩ => ⟨S8, .i32⟩
  | .hbm, ⟨65, _⟩ => ⟨S1x8x1, .i32⟩
  | .hbm, ⟨66, _⟩ => ⟨S_, .i32⟩
  | .hbm, ⟨67, _⟩ => ⟨S1x8x1, .i32⟩
  | .hbm, ⟨68, _⟩ => ⟨S1x8x1, .i1⟩
  | .hbm, ⟨69, _⟩ => ⟨S_, .i32⟩
  | .hbm, ⟨70, _⟩ => ⟨S1x8x1, .i32⟩
  | .hbm, ⟨71, _⟩ => ⟨S1x8x1, .i32⟩
  | .hbm, ⟨72, _⟩ => ⟨S1x8x1, .i32⟩
  | .hbm, ⟨73, _⟩ => ⟨S_, .i32⟩
  | .hbm, ⟨74, _⟩ => ⟨S256x8x128, .i32⟩
  | .hbm, ⟨75, _⟩ => ⟨S256x8x128, .i1⟩
  | .hbm, ⟨76, _⟩ => ⟨S_, .i32⟩
  | .hbm, ⟨77, _⟩ => ⟨S256x8x128, .i32⟩
  | .hbm, ⟨78, _⟩ => ⟨S256x8x128, .i32⟩
  | .hbm, ⟨79, _⟩ => ⟨S256x8x128, .i32⟩
  | .hbm, ⟨80, _⟩ => ⟨S256x8x128, .i32⟩
  | .hbm, ⟨81, _⟩ => ⟨S256x8x128x1, .i32⟩
  | .hbm, ⟨82, _⟩ => ⟨S256x8x128x1, .i32⟩
  | .hbm, ⟨83, _⟩ => ⟨S256x8x128x2, .i32⟩
  | .hbm, ⟨84, _⟩ => ⟨S256x8x128, .f32⟩
  | .hbm, ⟨85, _⟩ => ⟨S256x1024, .f32⟩
  | .hbm, ⟨86, _⟩ => ⟨S256x1024x1, .f32⟩
  | .hbm, ⟨87, _⟩ => ⟨S256x1024x128, .f32⟩
  | .hbm, ⟨88, _⟩ => ⟨S256x1024x128, .f32⟩
  | .hbm, ⟨89, _⟩ => ⟨S256x1024x128, .f32⟩
  | .hbm, ⟨90, _⟩ => ⟨S256x1024x128, .f32⟩
  | .hbm, ⟨91, _⟩ => ⟨S256x1024x128, .f32⟩
  | .hbm, ⟨92, _⟩ => ⟨S256x1024x128, .f32⟩
  | _, _ => ⟨S256x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_10 : Ref sig .tc := ⟨.hbm, 73, rfl⟩
abbrev main_v40 : Ref sig .tc := ⟨.hbm, 74, rfl⟩
abbrev main_v41 : Ref sig .tc := ⟨.hbm, 75, rfl⟩
abbrev main_c_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩

abbrev nD : Nat := 1
abbrev τ : Topo := Topo.v7x

variable {F : FTy → Type} [FloatOps F]

class Facts₀ : Prop where
  shapeCasts_S256x1024x128_S8x32x8x128x128 : S256x1024x128.ShapeCasts S8x32x8x128x128
  reducesTo_S8x32x8x128x128_S8x8x128_d1_4 : S8x32x8x128x128.ReducesTo [1, 4] S8x8x128
  h_S_ : 0 < S_.numel
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S1x8x1_S8x8x128_0_1_2 : S1x8x1.BroadcastsInDim S8x8x128 (![0, 1, 2] : Fin 3 → Fin S8x8x128.rank)
  shapeCasts_S8x8x128_S8192 : S8x8x128.ShapeCasts S8192
  bcast_S_S2048 : S_.BroadcastsInDim S2048 (![] : Fin 0 → Fin S2048.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S256 : S_.BroadcastsInDim S256 (![] : Fin 0 → Fin S256.rank)
  bcast_S256_S256x1_0 : S256.BroadcastsInDim S256x1 (![0] : Fin 1 → Fin S256x1.rank)
  shapeCasts_S2048_S8x256 : S2048.ShapeCasts S8x256
  bcast_S_S256x8x128 : S_.BroadcastsInDim S256x8x128 (![] : Fin 0 → Fin S256x8x128.rank)
  bcast_S1x8x1_S256x8x128_0_1_2 : S1x8x1.BroadcastsInDim S256x8x128 (![0, 1, 2] : Fin 3 → Fin S256x8x128.rank)
  bcast_S256x8x128_S256x8x128x1_0_1_2 : S256x8x128.BroadcastsInDim S256x8x128x1 (![0, 1, 2] : Fin 3 → Fin S256x8x128x1.rank)
  concatenates_S256x8x128x1_S256x8x128x1_S256x8x128x2_d3 : Shape.Concatenates [S256x8x128x1, S256x8x128x1] S256x8x128x2 3
  shapeCasts_S256x8x128_S256x1024 : S256x8x128.ShapeCasts S256x1024
  bcast_S256x1024_S256x1024x1_0_1 : S256x1024.BroadcastsInDim S256x1024x1 (![0, 1] : Fin 2 → Fin S256x1024x1.rank)
  bcast_S256x1024x1_S256x1024x128_0_1_2 : S256x1024x1.BroadcastsInDim S256x1024x128 (![0, 1, 2] : Fin 3 → Fin S256x1024x128.rank)
  scatter_S2048_S8192x1_S8192_n_0_0_1_wf : ScatterDims.WF S2048 S8192x1 S8192 [] [0] [0] 1
  gather_S8x8x128_S256x1_S256x8x128_12_0_n_n_0_1_18128_wf : GatherDims.WF S8x8x128 S256x1 S256x8x128 [1, 2] [0] [] [0] [] 1 ![1, 8, 128]
  gather_S8x256_S256x8x128x2_S256x8x128_n_01_n_n_01_3_11_wf : GatherDims.WF S8x256 S256x8x128x2 S256x8x128 [] [0, 1] [] [0, 1] [] 3 ![1, 1]

variable [Facts₀]

def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def gather_S8x8x128_S256x1_S256x8x128_12_0_n_n_0_1_18128 : GatherDims S8x8x128 S256x1 S256x8x128 where
  offsetDims := [1, 2]
  collapsedSliceDims := [0]
  operandBatchingDims := []
  startIndicesBatchingDims := []
  startIndexMap := [0]
  indexVectorDim := 1
  sliceSizes := ![1, 8, 128]
  wf := gather_S8x8x128_S256x1_S256x8x128_12_0_n_n_0_1_18128_wf
def gather_S8x256_S256x8x128x2_S256x8x128_n_01_n_n_01_3_11 : GatherDims S8x256 S256x8x128x2 S256x8x128 where
  offsetDims := []
  collapsedSliceDims := [0, 1]
  operandBatchingDims := []
  startIndicesBatchingDims := []
  startIndexMap := [0, 1]
  indexVectorDim := 3
  sliceSizes := ![1, 1]
  wf := gather_S8x256_S256x8x128x2_S256x8x128_n_01_n_n_01_3_11_wf

class Facts : Prop extends Facts₀ where

variable [Facts]
-- ==== Proof.Spec.lean ====
/-
  The specification both programs meet, as functions on arrays of extended reals.

  The input x has shape [256, 1024, 128]: 8 sub-batches of 32 samples, 8 groups of 128 channels, 128 features.
  `value x (s, g, c)` is the sum of x over the 32 samples of sub-batch s and the 128 features, at channel 128·g + c.
  A table T of shape [8, 256] (one row per group) is then read, for sample b and channel 128·g + c, at row g and at the
  column the index word idx (b / 32, g, c) names; a negative word is first raised by the axis length, and the position
  is clamped into the table, as a gather does. The result subtracts that table entry from every feature of the sample's
  channel.
-/
import Idealize.ShloMosaic.Lib.ValueIdx
import Idealize.ShloMosaic.PureOps.Ideal

open scoped BigOperators

noncomputable section

namespace Cert.Spec

open Idealize.ShloMosaic Idealize.ShloMosaic.ValueIdx

/-- The sum over one sub-batch's 32 samples and over the 128 features, at sub-batch `s`, group `g`, channel `c`. -/
def valueAt (x : (⟨3, ![256, 1024, 128]⟩ : Shape).Idx → EReal) (s g : Fin 8) (c : Fin 128) : EReal :=
  ∑ k : Fin 32, ∑ l : Fin 128, x (ix3 (⟨32 * s.val + k.val, by omega⟩ : Fin 256) (⟨128 * g.val + c.val, by omega⟩ : Fin 1024) l)

/-- The sums as an [8, 8, 128] array. -/
def value (x : (⟨3, ![256, 1024, 128]⟩ : Shape).Idx → EReal) : (⟨3, ![8, 8, 128]⟩ : Shape).Idx → EReal :=
  fun i => valueAt x (i 0) (i 1) (i 2)

/-- A signed index word with a negative value raised by the axis length `N` (what indexing with a negative index means). -/
def normW (N w : BitVec 32) : BitVec 32 := Scalar.select (IntOp.cmpi .slt w 0#32) (IntOp.addi w N) w

/-- The table row group `g` reads: its own number, normalised and clamped into the 8 rows. -/
def rowPos (g : Fin 8) : Fin 8 := ⟨min (normW 8#32 (BitVec.ofNat 32 g.val)).toInt.toNat 7, by omega⟩

/-- The table column an index word names: normalised and clamped into the 256 columns. -/
def colPos (w : BitVec 32) : Fin 256 := ⟨min (normW 256#32 w).toInt.toNat 255, by omega⟩

/-- The table entry subtracted at sample `b`, channel `128·g + c`. -/
def shift (T : (⟨2, ![8, 256]⟩ : Shape).Idx → EReal) (idx : (⟨3, ![8, 8, 128]⟩ : Shape).Idx → BitVec 32)
    (s g : Fin 8) (c : Fin 128) : EReal :=
  T (ix2 (rowPos g) (colPos (idx (ix3 s g c))))

/-- The result: every feature of sample `b`, channel `q`, lowered by the table entry of sub-batch `b / 32`, group
    `q / 128`, channel `q % 128`. -/
def out (y : (⟨3, ![256, 1024, 128]⟩ : Shape).Idx → EReal) (T : (⟨2, ![8, 256]⟩ : Shape).Idx → EReal)
    (idx : (⟨3, ![8, 8, 128]⟩ : Shape).Idx → BitVec 32) (b : Fin 256) (q : Fin 1024) (l : Fin 128) : EReal :=
  y (ix3 b q l) - shift T idx (⟨b.val / 32, by omega⟩ : Fin 8) (⟨q.val / 128, by omega⟩ : Fin 8) (⟨q.val % 128, Nat.mod_lt _ (by norm_num)⟩ : Fin 128)

end Cert.Spec

end
-- ==== Proof.KRun.lean ====
/-
  The idealized kernel program's run with its three result arrays named.

  The program is two pipelined regions with a stretch of host operations between them. The buffer contents at the four
  boundaries are a fold from the launch memory: after the first region its output array holds what the region's
  write-backs leave; the host stretch is applied to that; after the second region its three output arrays hold what its
  write-backs leave. The run below states, beside the argument arrays ending as launched, that each result array ends
  at the last boundary's contents, which `result_eq` reads as the second region's folded write-backs.
-/
import proofs.«157841_j54580444397811_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result array ends at the last
    boundary's contents and each argument array as launched. -/
theorem run_values : θ_run defs (onTc (τ := τ) (main (F := F))) ⟨m, fun _ => 0, ρ⟩ (fun r => ∀ c : Dev nD,
      (r.2.mem ((c.tc : Thread nD τ).loc main_v43_0) = W3 m ρ c (Proc.devRef .tc main_v43_0)
      ∧ r.2.mem ((c.tc : Thread nD τ).loc main_v43_1) = W3 m ρ c (Proc.devRef .tc main_v43_1)
      ∧ r.2.mem ((c.tc : Thread nD τ).loc main_v43_2) = W3 m ρ c (Proc.devRef .tc main_v43_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨⟨h c _ (mem_uc main_v43_0 (by decide)), h c _ (mem_uc main_v43_1 (by decide)), h c _ (mem_uc main_v43_2 (by decide))⟩,
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The last boundary's contents of the three result arrays are the second region's folded write-backs. -/
theorem result0_eq (c : Dev nD) : W3 m ρ c (Proc.devRef .tc main_v43_0) = (dat1 (V2 m ρ) c).arrAt 4 cfg1.N := W3_arr m ρ c 4
theorem result1_eq (c : Dev nD) : W3 m ρ c (Proc.devRef .tc main_v43_1) = (dat1 (V2 m ρ) c).arrAt 5 cfg1.N := W3_arr m ρ c 5
theorem result2_eq (c : Dev nD) : W3 m ρ c (Proc.devRef .tc main_v43_2) = (dat1 (V2 m ρ) c).arrAt 6 cfg1.N := W3_arr m ρ c 6

end Cert.KernelIdeal.KRun

end
-- ==== Proof.LibSublaneSpread.lean ====
/-
  A lane vector turned into a sublane column and spread over a block, read at one index, for any extents and entry
  type: a [1, 1, c] array viewed as [1, c, 1] reads, at (u, r, u'), the operand's entry r; and a [1, b, 1] column spread
  over [a, b, c] reads, at (p, q, r), the column's entry q.
-/
import Idealize.ShloMosaic.Lib.ValueIdx
import Idealize.ShloMosaic.Lib.Pipeline.Value

namespace Cert.LibSublaneSpread

open Idealize.ShloMosaic Idealize.ShloMosaic.ValueIdx

variable {α : Type}

/-- A `[1, 1, c]` array viewed as `[1, c, 1]` reads, at `(u, r, u')`, the operand at `(0, 0, r)`. -/
theorem cast_11c_1c1 {c : ℕ} (x : (⟨3, ![1, 1, c]⟩ : Shape).Idx → α)
    (h : (⟨3, ![1, 1, c]⟩ : Shape).ShapeCasts ⟨3, ![1, c, 1]⟩) (u : Fin 1) (r : Fin c) (u' : Fin 1) :
    shapeCast ⟨3, ![1, c, 1]⟩ x h (ix3 u r u') = x (ix3 (0 : Fin 1) (0 : Fin 1) r) :=
  shapeCast_apply x h _ _ (by
    have hu : u.val = 0 := by omega
    have hu' : u'.val = 0 := by omega
    rw [Shape.rowMajor_val_three, Shape.rowMajor_val_three]
    show ((0 : Fin 1).val * 1 + (0 : Fin 1).val) * c + r.val = (u.val * c + r.val) * 1 + u'.val
    rw [hu, hu']
    simp)

/-- A `[1, b, 1]` column spread over `[a, b, c]` reads, at `(p, q, r)`, the column's entry `q`. -/
theorem spread_1b1_abc {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Cert.LibSublaneSpread
-- ==== Proof.KSub.lean ====
/-
  The second region's three output arrays after the run, each as one function of the region's input arrays.

  Grid point (i, j) takes the blocks of 32 samples 32·i …, 128 channels 128·j …, all 128 features of the three
  inputs, and the 128 lane entries (i, 0, 128·j …) of the [8, 1, 1024] table of shifts; it turns those lane entries
  into a sublane column, spreads the column over the block, and stores each input block lowered by it. The 64 points'
  blocks tile the [256, 1024, 128] arrays, so each output array ends holding, at (b, q, l), the input at (b, q, l)
  lowered by the table entry (b / 32, 0, q).
-/
import proofs.«157841_j54580444397811_2_alg».proof.Proof.Gen.KernelIdeal.Frame
import proofs.«157841_j54580444397811_2_alg».proof.Proof.LibSublaneSpread
import Idealize.ShloMosaic.Lib.ValueIdx
import Idealize.ShloMosaic.Lib.Pipeline.Value

set_option maxRecDepth 16384

noncomputable section

namespace Cert.KernelIdeal.KSub

open Idealize.ShloMosaic Idealize.ShloMosaic.TcCoe Idealize.ShloMosaic.ValueIdx Idealize.ShloMosaic.Pipeline Idealize.SL.Sem
open Cert.KernelIdeal Cert.KernelIdeal.Gen

theorem hz3 : (![0, 0, 0] : Fin 3 → Nat) = fun _ => 0 := funext fun a => by fin_cases a <;> rfl

/-- The spread column at an index of the block: the lane entry of the block's channel. -/
theorem col_apply (x3 : FVec Ideal S1x1x128 .f32) (b : Fin 32) (q : Fin 128) (l : Fin 128) :
    k1_pay1 (F := Ideal) x3 (ix3 b q l) = x3 (ix3 (0 : Fin 1) (0 : Fin 1) q) := by
  unfold k1_pay1
  refine (LibSublaneSpread.spread_1b1_abc _ _ b q l).trans ?_
  rw [shapeCast_self, shapeCast_self]
  exact LibSublaneSpread.cast_11c_1c1 _ _ (0 : Fin 1) q (0 : Fin 1)

/-- A block lowered by the spread column, at an index. -/
theorem sub_apply (x3 : FVec Ideal S1x1x128 .f32) (y : FVec Ideal S32x128x128 .f32) (b : Fin 32) (q : Fin 128) (l : Fin 128) :
    subf y (k1_pay1 x3) (ix3 b q l) = y (ix3 b q l) - x3 (ix3 (0 : Fin 1) (0 : Fin 1) q) :=
  congrArg (y (ix3 b q l) - ·) (col_apply x3 b q l)

/-- An input array lowered, at sample b and channel q, by the table entry (b / 32, 0, q). -/
def shiftAt (Y : S256x1024x128.Idx → EReal) (M : S8x1x1024.Idx → EReal) (b : Fin 256) (q : Fin 1024) (l : Fin 128) : EReal :=
  Y (ix3 b q l) - M (ix3 (⟨b.val / 32, by omega⟩ : Fin 8) (0 : Fin 1) q)

def shiftArr (Y : S256x1024x128.Idx → EReal) (M : S8x1x1024.Idx → EReal) : S256x1024x128.Idx → EReal :=
  fun i => shiftAt Y M (i 0) (i 1) (i 2)

/-- The index maps over the grid: the three inputs' and three outputs' blocks of point (i, j) are sample tile i,
    channel tile j, all features; the table's block is row i, the unit axis, lane tile j. -/
theorem idx_facts1 : ∀ t : Fin cfg1.N,
    (win1_0.index t (0 : Fin 3) = win1_4.index t (0 : Fin 3) ∧ win1_0.index t (1 : Fin 3) = win1_4.index t (1 : Fin 3) ∧ win1_0.index t (2 : Fin 3) = 0)
    ∧ (win1_1.index t (0 : Fin 3) = win1_4.index t (0 : Fin 3) ∧ win1_1.index t (1 : Fin 3) = win1_4.index t (1 : Fin 3) ∧ win1_1.index t (2 : Fin 3) = 0)
    ∧ (win1_2.index t (0 : Fin 3) = win1_4.index t (0 : Fin 3) ∧ win1_2.index t (1 : Fin 3) = win1_4.index t (1 : Fin 3) ∧ win1_2.index t (2 : Fin 3) = 0)
    ∧ (win1_3.index t (0 : Fin 3) = win1_4.index t (0 : Fin 3) ∧ win1_3.index t (1 : Fin 3) = 0 ∧ win1_3.index t (2 : Fin 3) = win1_4.index t (1 : Fin 3))
    ∧ (win1_5.index t = win1_4.index t ∧ win1_6.index t = win1_4.index t)
    ∧ (win1_4.index t (0 : Fin 3) ≤ 7 ∧ win1_4.index t (1 : Fin 3) ≤ 7 ∧ win1_4.index t (2 : Fin 3) = 0) :=
  (by decide +kernel : ∀ t : Fin grid1.N, _)

/-- Every (sample tile, channel tile) pair is some point's. -/
theorem idx_onto1 : ∀ (p q : Fin 8), ∃ t : Fin cfg1.N, win1_4.index t = ![p.val, q.val, 0] :=
  (by decide +kernel : ∀ (p q : Fin 8), ∃ t : Fin grid1.N, win1_4.index t = ![p.val, q.val, 0])

section Array

variable (V : (c : Dev nD) → (b : Ref sig .tc) → Buf (Elt Ideal) ((c : Thread nD τ).loc b))

/-! ### Output window 4 (input window 0) -/

/-- What point t writes back is block t of the lowered input array. -/
theorem flushed1_4_eq (c : Dev nD) (t : Fin cfg1.N) :
    (dat1 V c).flushed 4 t = ((cfg1.win 4).blk t).view.read (Elt Ideal) (shiftArr (V c main_arg0) (V c main_v42)) := by
  show (cfg1.win 4).cut (grid1.coords t) ((dat1 V c).after 4 t) = _
  rw [after1_4]
  unfold out1_4
  rw [View.canon_unit_zero hz3]
  simp only [View.ld_unit_zero (S := S32x128x128) hz3, View.ld_unit_zero (S := S1x1x128) hz3]
  obtain ⟨⟨a00, a01, a02⟩, ⟨a10, a11, a12⟩, ⟨a20, a21, a22⟩, ⟨a30, a31, a32⟩, ⟨a5, a6⟩, ⟨b0, b1, b2⟩⟩ := idx_facts1 t
  funext j
  obtain ⟨b, q, l, rfl⟩ : ∃ (b : Fin 32) (q : Fin 128) (l : Fin 128), j = ix3 b q l := ⟨j 0, j 1, j 2, eq_ix3 j⟩
  unfold k1_pay2
  have key : ∀ (Y : S256x1024x128.Idx → EReal) (M : S8x1x1024.Idx → EReal),
      Y (((cfg1.win 0).blk t).view.emb (ix3 b q l)) - M (((cfg1.win 3).blk t).view.emb (ix3 (0 : Fin 1) (0 : Fin 1) q))
        = shiftArr Y M (((cfg1.win 4).blk t).view.emb (ix3 b q l)) := by
    intro Y M
    unfold shiftArr shiftAt
    have hb : b.val < 32 := b.isLt
    have hq : q.val < 128 := q.isLt
    have e1 : ((cfg1.win 0).blk t).view.emb (ix3 b q l) = ix3 ((((cfg1.win 4).blk t).view.emb (ix3 b q l)) 0) ((((cfg1.win 4).blk t).view.emb (ix3 b q l)) 1) ((((cfg1.win 4).blk t).view.emb (ix3 b q l)) 2) := by
      funext a; apply Fin.ext
      match a with
      | ⟨0, _⟩ => show win1_0.index t (0 : Fin 3) * 32 + 1 * b.val = win1_4.index t (0 : Fin 3) * 32 + 1 * b.val; omega
      | ⟨1, _⟩ => show win1_0.index t (1 : Fin 3) * 128 + 1 * q.val = win1_4.index t (1 : Fin 3) * 128 + 1 * q.val; omega
      | ⟨2, _⟩ => show win1_0.index t (2 : Fin 3) * 128 + 1 * l.val = win1_4.index t (2 : Fin 3) * 128 + 1 * l.val; omega
    have e2 : ((cfg1.win 3).blk t).view.emb (ix3 (0 : Fin 1) (0 : Fin 1) q)
        = ix3 (⟨((((cfg1.win 4).blk t).view.emb (ix3 b q l)) 0).val / 32, by
            show (win1_4.index t (0 : Fin 3) * 32 + 1 * b.val) / 32 < 8; omega⟩ : Fin 8) (0 : Fin 1) ((((cfg1.win 4).blk t).view.emb (ix3 b q l)) 1) := by
      funext a; apply Fin.ext
      match a with
      | ⟨0, _⟩ => show win1_3.index t (0 : Fin 3) * 1 + 1 * 0 = (win1_4.index t (0 : Fin 3) * 32 + 1 * b.val) / 32; omega
      | ⟨1, _⟩ => show win1_3.index t (1 : Fin 3) * 1 + 1 * 0 = 0; omega
      | ⟨2, _⟩ => show win1_3.index t (2 : Fin 3) * 128 + 1 * q.val = win1_4.index t (1 : Fin 3) * 128 + 1 * q.val; omega
    rw [e1, e2]
    rfl

  refine (sub_apply (iblk1 V c 3 t) (iblk1 V c 0 t) b q l).trans ?_
  exact key (V c main_arg0) (V c main_v42)

/-- An index of the array is in point t's block iff each coordinate is in the block's range on its axis. -/
theorem mem_blk1_4 (t : Fin cfg1.N) (i : S256x1024x128.Idx) :
    i ∈ ((cfg1.win 4).blk t).view.set ↔ ∀ a : Fin 3, win1_4.index t a * S32x128x128.size a ≤ (i a).val ∧ (i a).val < win1_4.index t a * S32x128x128.size a + S32x128x128.size a := by
  show i ∈ ((View.whole main_v43_0).slice (win1_4.rect t)).set ↔ _
  rw [View.set_slice_whole, Rect.mem_set_unit]
  exact Iff.rfl

/-- The 64 points' blocks cover the array. -/
theorem cover1_4' (i : S256x1024x128.Idx) : ∃ t : Fin cfg1.N, (cfg1.win 4).flush t = true ∧ i ∈ ((cfg1.win 4).blk t).view.set := by
  have hi0 : (i 0).val < 256 := (i 0).isLt
  have hi1 : (i 1).val < 1024 := (i 1).isLt
  have hi2 : (i 2).val < 128 := (i 2).isLt
  obtain ⟨t, ht⟩ := idx_onto1 ⟨(i 0).val / 32, by omega⟩ ⟨(i 1).val / 128, by omega⟩
  obtain ⟨-, -, -, -, ⟨a5, a6⟩, -⟩ := idx_facts1 t
  have q0 : win1_4.index t (0 : Fin 3) = (i 0).val / 32 := by exact congrFun ht 0
  have q1 : win1_4.index t (1 : Fin 3) = (i 1).val / 128 := by exact congrFun ht 1
  have q2 : win1_4.index t (2 : Fin 3) = 0 := by exact congrFun ht 2
  refine ⟨t, flush1_4 t, ?_⟩
  rw [mem_blk1_4]
  intro a
  match a with
  | ⟨0, _⟩ => show win1_4.index t (0 : Fin 3) * 32 ≤ (i 0).val ∧ (i 0).val < win1_4.index t (0 : Fin 3) * 32 + 32; omega
  | ⟨1, _⟩ => show win1_4.index t (1 : Fin 3) * 128 ≤ (i 1).val ∧ (i 1).val < win1_4.index t (1 : Fin 3) * 128 + 128; omega
  | ⟨2, _⟩ => show win1_4.index t (2 : Fin 3) * 128 ≤ (i 2).val ∧ (i 2).val < win1_4.index t (2 : Fin 3) * 128 + 128; omega

/-- The output array after the run is the lowered input array. -/
theorem final1_4 (c : Dev nD) : (dat1 V c).arrAt 4 cfg1.N = shiftArr (V c main_arg0) (V c main_v42) :=
  (dat1 V c).arrAt_eq_of_cover 4 (shiftArr (V c main_arg0) (V c main_v42)) (fun t _ => flushed1_4_eq V c t) cover1_4'

/-! ### Output window 5 (input window 1) -/

/-- What point t writes back is block t of the lowered input array. -/
theorem flushed1_5_eq (c : Dev nD) (t : Fin cfg1.N) :
    (dat1 V c).flushed 5 t = ((cfg1.win 5).blk t).view.read (Elt Ideal) (shiftArr (V c main_arg1) (V c main_v42)) := by
  show (cfg1.win 5).cut (grid1.coords t) ((dat1 V c).after 5 t) = _
  rw [after1_5]
  unfold out1_5
  rw [View.canon_unit_zero hz3]
  simp only [View.ld_unit_zero (S := S32x128x128) hz3, View.ld_unit_zero (S := S1x1x128) hz3]
  obtain ⟨⟨a00, a01, a02⟩, ⟨a10, a11, a12⟩, ⟨a20, a21, a22⟩, ⟨a30, a31, a32⟩, ⟨a5, a6⟩, ⟨b0, b1, b2⟩⟩ := idx_facts1 t
  funext j
  obtain ⟨b, q, l, rfl⟩ : ∃ (b : Fin 32) (q : Fin 128) (l : Fin 128), j = ix3 b q l := ⟨j 0, j 1, j 2, eq_ix3 j⟩
  unfold k1_pay3
  have key : ∀ (Y : S256x1024x128.Idx → EReal) (M : S8x1x1024.Idx → EReal),
      Y (((cfg1.win 1).blk t).view.emb (ix3 b q l)) - M (((cfg1.win 3).blk t).view.emb (ix3 (0 : Fin 1) (0 : Fin 1) q))
        = shiftArr Y M (((cfg1.win 5).blk t).view.emb (ix3 b q l)) := by
    intro Y M
    unfold shiftArr shiftAt
    have hb : b.val < 32 := b.isLt
    have hq : q.val < 128 := q.isLt
    have e1 : ((cfg1.win 1).blk t).view.emb (ix3 b q l) = ix3 ((((cfg1.win 5).blk t).view.emb (ix3 b q l)) 0) ((((cfg1.win 5).blk t).view.emb (ix3 b q l)) 1) ((((cfg1.win 5).blk t).view.emb (ix3 b q l)) 2) := by
      funext a; apply Fin.ext
      match a with
      | ⟨0, _⟩ => show win1_1.index t (0 : Fin 3) * 32 + 1 * b.val = win1_5.index t (0 : Fin 3) * 32 + 1 * b.val; rw [a5]; omega
      | ⟨1, _⟩ => show win1_1.index t (1 : Fin 3) * 128 + 1 * q.val = win1_5.index t (1 : Fin 3) * 128 + 1 * q.val; rw [a5]; omega
      | ⟨2, _⟩ => show win1_1.index t (2 : Fin 3) * 128 + 1 * l.val = win1_5.index t (2 : Fin 3) * 128 + 1 * l.val; rw [a5]; omega
    have e2 : ((cfg1.win 3).blk t).view.emb (ix3 (0 : Fin 1) (0 : Fin 1) q)
        = ix3 (⟨((((cfg1.win 5).blk t).view.emb (ix3 b q l)) 0).val / 32, by
            show (win1_5.index t (0 : Fin 3) * 32 + 1 * b.val) / 32 < 8; rw [a5]; omega⟩ : Fin 8) (0 : Fin 1) ((((cfg1.win 5).blk t).view.emb (ix3 b q l)) 1) := by
      funext a; apply Fin.ext
      match a with
      | ⟨0, _⟩ => show win1_3.index t (0 : Fin 3) * 1 + 1 * 0 = (win1_5.index t (0 : Fin 3) * 32 + 1 * b.val) / 32; rw [a5]; omega
      | ⟨1, _⟩ => show win1_3.index t (1 : Fin 3) * 1 + 1 * 0 = 0; omega
      | ⟨2, _⟩ => show win1_3.index t (2 : Fin 3) * 128 + 1 * q.val = win1_5.index t (1 : Fin 3) * 128 + 1 * q.val; rw [a5]; omega
    rw [e1, e2]
    rfl

  refine (sub_apply (iblk1 V c 3 t) (iblk1 V c 1 t) b q l).trans ?_
  exact key (V c main_arg1) (V c main_v42)

/-- An index of the array is in point t's block iff each coordinate is in the block's range on its axis. -/
theorem mem_blk1_5 (t : Fin cfg1.N) (i : S256x1024x128.Idx) :
    i ∈ ((cfg1.win 5).blk t).view.set ↔ ∀ a : Fin 3, win1_5.index t a * S32x128x128.size a ≤ (i a).val ∧ (i a).val < win1_5.index t a * S32x128x128.size a + S32x128x128.size a := by
  show i ∈ ((View.whole main_v43_1).slice (win1_5.rect t)).set ↔ _
  rw [View.set_slice_whole, Rect.mem_set_unit]
  exact Iff.rfl

/-- The 64 points' blocks cover the array. -/
theorem cover1_5' (i : S256x1024x128.Idx) : ∃ t : Fin cfg1.N, (cfg1.win 5).flush t = true ∧ i ∈ ((cfg1.win 5).blk t).view.set := by
  have hi0 : (i 0).val < 256 := (i 0).isLt
  have hi1 : (i 1).val < 1024 := (i 1).isLt
  have hi2 : (i 2).val < 128 := (i 2).isLt
  obtain ⟨t, ht⟩ := idx_onto1 ⟨(i 0).val / 32, by omega⟩ ⟨(i 1).val / 128, by omega⟩
  obtain ⟨-, -, -, -, ⟨a5, a6⟩, -⟩ := idx_facts1 t
  have q0 : win1_5.index t (0 : Fin 3) = (i 0).val / 32 := by rw [a5]; exact congrFun ht 0
  have q1 : win1_5.index t (1 : Fin 3) = (i 1).val / 128 := by rw [a5]; exact congrFun ht 1
  have q2 : win1_5.index t (2 : Fin 3) = 0 := by rw [a5]; exact congrFun ht 2
  refine ⟨t, flush1_5 t, ?_⟩
  rw [mem_blk1_5]
  intro a
  match a with
  | ⟨0, _⟩ => show win1_5.index t (0 : Fin 3) * 32 ≤ (i 0).val ∧ (i 0).val < win1_5.index t (0 : Fin 3) * 32 + 32; omega
  | ⟨1, _⟩ => show win1_5.index t (1 : Fin 3) * 128 ≤ (i 1).val ∧ (i 1).val < win1_5.index t (1 : Fin 3) * 128 + 128; omega
  | ⟨2, _⟩ => show win1_5.index t (2 : Fin 3) * 128 ≤ (i 2).val ∧ (i 2).val < win1_5.index t (2 : Fin 3) * 128 + 128; omega

/-- The output array after the run is the lowered input array. -/
theorem final1_5 (c : Dev nD) : (dat1 V c).arrAt 5 cfg1.N = shiftArr (V c main_arg1) (V c main_v42) :=
  (dat1 V c).arrAt_eq_of_cover 5 (shiftArr (V c main_arg1) (V c main_v42)) (fun t _ => flushed1_5_eq V c t) cover1_5'

/-! ### Output window 6 (input window 2) -/

/-- What point t writes back is block t of the lowered input array. -/
theorem flushed1_6_eq (c : Dev nD) (t : Fin cfg1.N) :
    (dat1 V c).flushed 6 t = ((cfg1.win 6).blk t).view.read (Elt Ideal) (shiftArr (V c main_arg2) (V c main_v42)) := by
  show (cfg1.win 6).cut (grid1.coords t) ((dat1 V c).after 6 t) = _
  rw [after1_6]
  unfold out1_6
  rw [View.canon_unit_zero hz3]
  simp only [View.ld_unit_zero (S := S32x128x128) hz3, View.ld_unit_zero (S := S1x1x128) hz3]
  obtain ⟨⟨a00, a01, a02⟩, ⟨a10, a11, a12⟩, ⟨a20, a21, a22⟩, ⟨a30, a31, a32⟩, ⟨a5, a6⟩, ⟨b0, b1, b2⟩⟩ := idx_facts1 t
  funext j
  obtain ⟨b, q, l, rfl⟩ : ∃ (b : Fin 32) (q : Fin 128) (l : Fin 128), j = ix3 b q l := ⟨j 0, j 1, j 2, eq_ix3 j⟩
  unfold k1_pay4
  have key : ∀ (Y : S256x1024x128.Idx → EReal) (M : S8x1x1024.Idx → EReal),
      Y (((cfg1.win 2).blk t).view.emb (ix3 b q l)) - M (((cfg1.win 3).blk t).view.emb (ix3 (0 : Fin 1) (0 : Fin 1) q))
        = shiftArr Y M (((cfg1.win 6).blk t).view.emb (ix3 b q l)) := by
    intro Y M
    unfold shiftArr shiftAt
    have hb : b.val < 32 := b.isLt
    have hq : q.val < 128 := q.isLt
    have e1 : ((cfg1.win 2).blk t).view.emb (ix3 b q l) = ix3 ((((cfg1.win 6).blk t).view.emb (ix3 b q l)) 0) ((((cfg1.win 6).blk t).view.emb (ix3 b q l)) 1) ((((cfg1.win 6).blk t).view.emb (ix3 b q l)) 2) := by
      funext a; apply Fin.ext
      match a with
      | ⟨0, _⟩ => show win1_2.index t (0 : Fin 3) * 32 + 1 * b.val = win1_6.index t (0 : Fin 3) * 32 + 1 * b.val; rw [a6]; omega
      | ⟨1, _⟩ => show win1_2.index t (1 : Fin 3) * 128 + 1 * q.val = win1_6.index t (1 : Fin 3) * 128 + 1 * q.val; rw [a6]; omega
      | ⟨2, _⟩ => show win1_2.index t (2 : Fin 3) * 128 + 1 * l.val = win1_6.index t (2 : Fin 3) * 128 + 1 * l.val; rw [a6]; omega
    have e2 : ((cfg1.win 3).blk t).view.emb (ix3 (0 : Fin 1) (0 : Fin 1) q)
        = ix3 (⟨((((cfg1.win 6).blk t).view.emb (ix3 b q l)) 0).val / 32, by
            show (win1_6.index t (0 : Fin 3) * 32 + 1 * b.val) / 32 < 8; rw [a6]; omega⟩ : Fin 8) (0 : Fin 1) ((((cfg1.win 6).blk t).view.emb (ix3 b q l)) 1) := by
      funext a; apply Fin.ext
      match a with
      | ⟨0, _⟩ => show win1_3.index t (0 : Fin 3) * 1 + 1 * 0 = (win1_6.index t (0 : Fin 3) * 32 + 1 * b.val) / 32; rw [a6]; omega
      | ⟨1, _⟩ => show win1_3.index t (1 : Fin 3) * 1 + 1 * 0 = 0; omega
      | ⟨2, _⟩ => show win1_3.index t (2 : Fin 3) * 128 + 1 * q.val = win1_6.index t (1 : Fin 3) * 128 + 1 * q.val; rw [a6]; omega
    rw [e1, e2]
    rfl

  refine (sub_apply (iblk1 V c 3 t) (iblk1 V c 2 t) b q l).trans ?_
  exact key (V c main_arg2) (V c main_v42)

/-- An index of the array is in point t's block iff each coordinate is in the block's range on its axis. -/
theorem mem_blk1_6 (t : Fin cfg1.N) (i : S256x1024x128.Idx) :
    i ∈ ((cfg1.win 6).blk t).view.set ↔ ∀ a : Fin 3, win1_6.index t a * S32x128x128.size a ≤ (i a).val ∧ (i a).val < win1_6.index t a * S32x128x128.size a + S32x128x128.size a := by
  show i ∈ ((View.whole main_v43_2).slice (win1_6.rect t)).set ↔ _
  rw [View.set_slice_whole, Rect.mem_set_unit]
  exact Iff.rfl

/-- The 64 points' blocks cover the array. -/
theorem cover1_6' (i : S256x1024x128.Idx) : ∃ t : Fin cfg1.N, (cfg1.win 6).flush t = true ∧ i ∈ ((cfg1.win 6).blk t).view.set := by
  have hi0 : (i 0).val < 256 := (i 0).isLt
  have hi1 : (i 1).val < 1024 := (i 1).isLt
  have hi2 : (i 2).val < 128 := (i 2).isLt
  obtain ⟨t, ht⟩ := idx_onto1 ⟨(i 0).val / 32, by omega⟩ ⟨(i 1).val / 128, by omega⟩
  obtain ⟨-, -, -, -, ⟨a5, a6⟩, -⟩ := idx_facts1 t
  have q0 : win1_6.index t (0 : Fin 3) = (i 0).val / 32 := by rw [a6]; exact congrFun ht 0
  have q1 : win1_6.index t (1 : Fin 3) = (i 1).val / 128 := by rw [a6]; exact congrFun ht 1
  have q2 : win1_6.index t (2 : Fin 3) = 0 := by rw [a6]; exact congrFun ht 2
  refine ⟨t, flush1_6 t, ?_⟩
  rw [mem_blk1_6]
  intro a
  match a with
  | ⟨0, _⟩ => show win1_6.index t (0 : Fin 3) * 32 ≤ (i 0).val ∧ (i 0).val < win1_6.index t (0 : Fin 3) * 32 + 32; omega
  | ⟨1, _⟩ => show win1_6.index t (1 : Fin 3) * 128 ≤ (i 1).val ∧ (i 1).val < win1_6.index t (1 : Fin 3) * 128 + 128; omega
  | ⟨2, _⟩ => show win1_6.index t (2 : Fin 3) * 128 ≤ (i 2).val ∧ (i 2).val < win1_6.index t (2 : Fin 3) * 128 + 128; omega

/-- The output array after the run is the lowered input array. -/
theorem final1_6 (c : Dev nD) : (dat1 V c).arrAt 6 cfg1.N = shiftArr (V c main_arg2) (V c main_v42) :=
  (dat1 V c).arrAt_eq_of_cover 6 (shiftArr (V c main_arg2) (V c main_v42)) (fun t _ => flushed1_6_eq V c t) cover1_6'

end Array

end Cert.KernelIdeal.KSub

end
-- ==== Proof.KStages.lean ====
/- The idealized kernel program's host operations between its two regions, as pure functions at the ideal float
   values: one definition per value, each spelt with the operation the printed program applies, so that the term the
   host stretch leaves in a buffer unfolds to these definitions. The first region's output array is `v2`, the index
   argument `idx`, the bias argument `bias`. -/
import proofs.«157841_j54580444397811_2_alg».proof.KernelIdeal
import Idealize.ShloMosaic.PureOps.Ideal

noncomputable section

namespace Cert.KernelIdeal.KStages

open Idealize.ShloMosaic Idealize.SL.Sem
open Cert.KernelIdeal

variable [Facts]
open Facts₀ Facts

/-- The first region's [8, 1024] array of sums read as [8, 8, 128]. -/
def value3 (v2 : FVec Ideal S8x1024 .f32) : FVec Ideal S8x8x128 .f32 := shapeCast S8x8x128 v2 shapeCasts_S8x1024_S8x8x128

/-! ## The flat segment index: the flat segment index -/

/-- 0, 1, …, 7. -/
def rowIota : IVec S8 32 := iotaInDim S8 32 0
/-- the same along the middle axis of 1 x 8 x 1. -/
def rowIotaB : IVec S1x8x1 32 := broadcastInDim S1x8x1 ![1] bcast_S8_S1x8x1_1 rowIota
/-- 256 everywhere. -/
def c256B : IVec S1x8x1 32 := broadcastInDim S1x8x1 ![] bcast_S_S1x8x1 (constantI S_ 32 256#32)
/-- 256 times the row number. -/
def rowOff : IVec S1x8x1 32 := muli rowIotaB c256B
/-- %5 over 8 x 8 x 128. -/
def rowOffB : IVec S8x8x128 32 := broadcastInDim S8x8x128 ![0, 1, 2] bcast_S1x8x1_S8x8x128_0_1_2 rowOff
/-- the index argument plus 256 times its row number. -/
def segIdx (idx : IVec S8x8x128 32) : IVec S8x8x128 32 := addi rowOffB idx
/-- %7 flattened. -/
def flatIdx (idx : IVec S8x8x128 32) : IVec S8192 32 := shapeCast S8192 (segIdx idx) shapeCasts_S8x8x128_S8192

/-! ## The per-segment mean, less the bias: the per-segment mean, less the bias -/

/-- the block sums flattened. -/
def valFlat (v : FVec Ideal S8x8x128 .f32) : FVec Ideal S8192 .f32 := shapeCast S8192 v shapeCasts_S8x8x128_S8192
/-- 2048 zeros. -/
def zeros2048 : FVec Ideal S2048 .f32 :=
  broadcastInDim S2048 ![] bcast_S_S2048 (constant (F := Ideal) S_ .f32 0x00000000#32)
/-- the flat index as a column of index vectors. -/
def scatIdx (idx : IVec S8x8x128 32) : IVec S8192x1 32 :=
  broadcastInDim S8192x1 ![0] bcast_S8192_S8192x1_0 (flatIdx idx)
/-- the block sums added into their segments. -/
def segSum (v : FVec Ideal S8x8x128 .f32) (idx : IVec S8x8x128 32) : FVec Ideal S2048 .f32 :=
  Host.scatterAdd (F := Ideal) scatter_S2048_S8192x1_S8192_n_0_0_1 zeros2048 (scatIdx idx) (valFlat v)
/-- 32 everywhere. -/
def c32F : FVec Ideal S8192 .f32 :=
  broadcastInDim S8192 ![] bcast_S_S8192 (constant (F := Ideal) S_ .f32 0x42000000#32)
/-- 32 added into each segment once per block of it. -/
def segCnt (idx : IVec S8x8x128 32) : FVec Ideal S2048 .f32 :=
  Host.scatterAdd (F := Ideal) scatter_S2048_S8192x1_S8192_n_0_0_1 zeros2048 (scatIdx idx) c32F
/-- 1e-10 everywhere. -/
def epsB : FVec Ideal S2048 .f32 :=
  broadcastInDim S2048 ![] bcast_S_S2048 (constant (F := Ideal) S_ .f32 0x2EDBE6FF#32)
/-- (an intermediate value) -/
def cntEps (idx : IVec S8x8x128 32) : FVec Ideal S2048 .f32 := addf (segCnt idx) epsB
/-- 128 everywhere. -/
def c128B : FVec Ideal S2048 .f32 :=
  broadcastInDim S2048 ![] bcast_S_S2048 (constant (F := Ideal) S_ .f32 0x43000000#32)
/-- the divisor. -/
def denom (idx : IVec S8x8x128 32) : FVec Ideal S2048 .f32 := mulf (cntEps idx) c128B
/-- the per-segment mean. -/
def segMean (v : FVec Ideal S8x8x128 .f32) (idx : IVec S8x8x128 32) : FVec Ideal S2048 .f32 :=
  Host.divf (F := Ideal) (segSum v idx) (denom idx)
/-- the mean less the bias. -/
def meanVec (v : FVec Ideal S8x8x128 .f32) (idx : IVec S8x8x128 32) (bias : FVec Ideal S2048 .f32) :
    FVec Ideal S2048 .f32 := subf (segMean v idx) bias

/-- The means as an 8 x 256 table. -/
def meanTab (v : FVec Ideal S8x8x128 .f32) (idx : IVec S8x8x128 32) (bias : FVec Ideal S2048 .f32) : FVec Ideal S8x256 .f32 :=
  shapeCast S8x256 (meanVec v idx bias) shapeCasts_S2048_S8x256

/-! ## The row coordinate of the gather -/

/-- (an intermediate value) -/
def zero1x8x1 : IVec S1x8x1 32 := broadcastInDim S1x8x1 ![] bcast_S_S1x8x1 (constantI S_ 32 0#32)
/-- (an intermediate value) -/
def rowNeg : IVec S1x8x1 1 := cmpi .slt rowIotaB zero1x8x1
/-- (an intermediate value) -/
def eight1x8x1 : IVec S1x8x1 32 := broadcastInDim S1x8x1 ![] bcast_S_S1x8x1 (constantI S_ 32 8#32)
/-- (an intermediate value) -/
def rowPlus8 : IVec S1x8x1 32 := addi rowIotaB eight1x8x1
/-- the row number, a negative one counted from the end. -/
def rowSel : IVec S1x8x1 32 := select rowNeg rowPlus8 rowIotaB

/-! ## The column coordinate of the gather -/

def zero8x8x128 : IVec S8x8x128 32 := broadcastInDim S8x8x128 ![] bcast_S_S8x8x128 (constantI S_ 32 0#32)
def colNeg (idx : IVec S8x8x128 32) : IVec S8x8x128 1 := cmpi .slt idx zero8x8x128
def c256x8x128 : IVec S8x8x128 32 := broadcastInDim S8x8x128 ![] bcast_S_S8x8x128 (constantI S_ 32 256#32)
def colPlus (idx : IVec S8x8x128 32) : IVec S8x8x128 32 := addi idx c256x8x128
/-- The index, a negative one counted from the end. -/
def colSel (idx : IVec S8x8x128 32) : IVec S8x8x128 32 := select (colNeg idx) (colPlus idx) idx

/-! ## The index vectors of the gather, the gather, and its two reshapes -/

def rowSelB : IVec S8x8x128 32 := broadcastInDim S8x8x128 ![0, 1, 2] bcast_S1x8x1_S8x8x128_0_1_2 rowSel
def rowSelC : IVec S8x8x128x1 32 := broadcastInDim S8x8x128x1 ![0, 1, 2] bcast_S8x8x128_S8x8x128x1_0_1_2 rowSelB
def colSelC (idx : IVec S8x8x128 32) : IVec S8x8x128x1 32 :=
  broadcastInDim S8x8x128x1 ![0, 1, 2] bcast_S8x8x128_S8x8x128x1_0_1_2 (colSel idx)
/-- The pairs (row, column). -/
def startIdx (idx : IVec S8x8x128 32) : IVec S8x8x128x2 32 :=
  concatenate S8x8x128x2 3 [⟨S8x8x128x1, rowSelC⟩, ⟨S8x8x128x1, colSelC idx⟩] concatenates_S8x8x128x1_S8x8x128x1_S8x8x128x2_d3
/-- The table read at the pairs: one shift per sub-batch, group and channel. -/
def meanSub (v : FVec Ideal S8x8x128 .f32) (idx : IVec S8x8x128 32) (bias : FVec Ideal S2048 .f32) : FVec Ideal S8x8x128 .f32 :=
  Host.gather gather_S8x256_S8x8x128x2_S8x8x128_n_01_n_n_01_3_11 (meanTab v idx bias) (startIdx idx)
def meanFlat (v : FVec Ideal S8x8x128 .f32) (idx : IVec S8x8x128 32) (bias : FVec Ideal S2048 .f32) : FVec Ideal S8x1024 .f32 :=
  shapeCast S8x1024 (meanSub v idx bias) shapeCasts_S8x8x128_S8x1024
/-- The second region's table operand, [8, 1, 1024]. -/
def meanRow (v2 : FVec Ideal S8x1024 .f32) (idx : IVec S8x8x128 32) (bias : FVec Ideal S2048 .f32) : FVec Ideal S8x1x1024 .f32 :=
  shapeCast S8x1x1024 (meanFlat (value3 v2) idx bias) shapeCasts_S8x1024_S8x1x1024

end Cert.KernelIdeal.KStages

end
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.LibLeadSum3.lean ====
/-
  A sum over the leading coordinate of a rank-three array read at one index, over the extended reals: summing an
  [a, b, c] array along its FIRST coordinate gives, at (q, l), the sum over the a entries (k, q, l) — for any extents
  and any float format. The inserted index that the one-axis reduction law speaks of is, at literal rank three, the
  triple (k, q, l).
-/
import Idealize.ShloMosaic.Lib.ValueIdx
import Idealize.ShloMosaic.PureOps.Ideal.Laws

open scoped BigOperators

namespace Cert.LibLeadSum3

open Idealize.ShloMosaic Idealize.ShloMosaic.ValueIdx

/-- The `add` reduction of an `[a, b, c]` array over its first coordinate reads, at `(q, l)`, the sum of the `a`
    entries `(k, q, l)` (the accumulator is the sum's neutral element, so it contributes nothing). -/
theorem leadSum3_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (l : Fin c) :
    multiReduction .add [0] ⟨2, ![b, c]⟩ src acc h hφ hacc (ix2 q l) = ∑ k : Fin a, src (ix3 k q l) := by
  refine (Ideal.multiReduction_add_single src acc h hφ hacc (ix2 q l)).trans ?_
  show ∑ k : Fin a, src (h.lift (ix2 q l) k) = _
  refine Finset.sum_congr rfl fun k _ => congrArg src ?_
  funext d; apply Fin.ext
  match d with
  | ⟨0, _⟩ => rfl
  | ⟨1, _⟩ => rfl
  | ⟨2, _⟩ => rfl

end Cert.LibLeadSum3
-- ==== Proof.LibLdUnit.lean ====
/-
  A load through a unit-stride rectangle read at one index, for any shape, offsets and entries: the piece a load cuts
  out of a buffer whose contents read `X` holds, at the local index `x`, the entry of `X` whose every coordinate is the
  rectangle's offset on that axis plus `x`'s coordinate. The caller names that entry's index and owes the coordinate
  equations, one linear fact per axis.
-/
import Idealize.ShloMosaic.Lib.Pipeline.FrameBody

namespace Cert.LibLdUnit

open Idealize.ShloMosaic

/-- A load through `Rect.unit off size` reads, at `x`, the contents at the index `k` with `k a = off a + x a`. -/
theorem ld_unit_apply {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  show X ((Rect.unit off size inb).idx x) = X k
  refine congrArg X (funext fun a => Fin.ext ?_)
  rw [hk a]
  show off a + 1 * (x a).val = off a + (x a).val
  rw [Nat.one_mul]

end Cert.LibLdUnit
-- ==== Proof.KReduce.lean ====
/-
  The first region's output array after the run, as one function of the region's input array.

  Every grid point j takes the block of all 256 samples, channels 128·j … 128·j + 127, all 128 features, and stores,
  for each of the 8 sub-batches s, one row of 128 channel sums: the sum over the sub-batch's 32 samples and then over
  the 128 features. The 8 row stores tile the point's [8, 128] output block, and the 8 points' blocks tile the
  [8, 1024] array, so the array ends holding, at (s, q), the sum over l < 128 and k < 32 of the input at
  (32·s + k, q, l).
-/
import proofs.«157841_j54580444397811_2_alg».proof.Proof.Gen.KernelIdeal.Frame
import proofs.«157841_j54580444397811_2_alg».proof.Proof.LibRowSum
import proofs.«157841_j54580444397811_2_alg».proof.Proof.LibLeadSum3
import proofs.«157841_j54580444397811_2_alg».proof.Proof.LibLdUnit
import Idealize.ShloMosaic.Lib.ValueIdx
import Idealize.ShloMosaic.Lib.ValueLayout
import Idealize.ShloMosaic.Lib.Pipeline.Value

set_option maxRecDepth 16384

open scoped BigOperators

noncomputable section

namespace Cert.KernelIdeal.KReduce

open Idealize.ShloMosaic Idealize.ShloMosaic.TcCoe Idealize.ShloMosaic.ValueIdx Idealize.ShloMosaic.Pipeline Idealize.SL.Sem
open Cert.KernelIdeal Cert.KernelIdeal.Gen

/-- One sub-batch's channel sums at the lanes of a [32, 128, 128] piece: sum over the 32 samples, then the features. -/
theorem pay_core (v : FVec Ideal S32x128x128 .f32) (u : Fin 1) (q : Fin 128) :
    shapeCast S1x128 (multiReduction .add [1] S128 (multiReduction .add [0] S128x128 v 0x00000000#32 reduces_S32x128x128_S128x128 (.inl rfl) rfl)
        0x00000000#32 reduces_S128x128_S128 (.inl rfl) rfl) shapeCasts_S128_S1x128 (ix2 u q)
      = ∑ l : Fin 128, ∑ k : Fin 32, v (ix3 k q l) := by
  refine (shapeCast_a_1a_apply _ _ u q).trans ?_
  refine (LibRowSum.rowSum_apply _ _ _ _ _ q).trans ?_
  exact Finset.sum_congr rfl fun l _ => LibLeadSum3.leadSum3_apply _ _ _ _ _ q l

/-- The channel sums of sub-batch `s` over a block of all 256 samples. -/
def rowSumAt (x0 : S256x128x128.Idx → EReal) (s : Fin 8) (q : Fin 128) : EReal :=
  ∑ l : Fin 128, ∑ k : Fin 32, x0 (ix3 (⟨32 * s.val + k.val, by omega⟩ : Fin 256) q l)

/-- The point's output block as one function of its input block. -/
def rowSums (x0 : S256x128x128.Idx → EReal) : S8x128.Idx → EReal := fun y => rowSumAt x0 (y 0) (y 1)

/-- A store's piece is the row of `rowSums` its rectangle names: the piece of sub-batch `s` is loaded at sample offset
    `32·s` and stored at row `s`. -/
theorem piece_eq (x0 : Vec Ideal S256x128x128 .f32) (s : Nat) (hs : s < 8)
    (inbL : ∀ a, (![32 * s, 0, 0] : Fin 3 → Nat) a + S32x128x128.size a ≤ S256x128x128.size a)
    (inbS : ∀ a, (![s, 0] : Fin 2 → Nat) a + S1x128.size a ≤ S8x128.size a)
    (x : (Rect.unit (s := S8x128) ![s, 0] S1x128.size inbS).shape.Idx) :
    (shapeCast S1x128 (multiReduction (F := Ideal) .add [1] S128 (multiReduction (F := Ideal) .add [0] S128x128
        (View.ld x0 (Rect.unit (s := S256x128x128) ![32 * s, 0, 0] S32x128x128.size inbL) : FVec Ideal S32x128x128 .f32) 0x00000000#32 reduces_S32x128x128_S128x128 (.inl rfl) rfl)
        0x00000000#32 reduces_S128x128_S128 (.inl rfl) rfl) shapeCasts_S128_S1x128 : FVec Ideal S1x128 .f32) x
      = rowSums x0 ((Rect.unit (s := S8x128) ![s, 0] S1x128.size inbS).emb x) := by
  obtain ⟨u, q, rfl⟩ : ∃ (u : Fin 1) (q : Fin 128), x = ix2 u q := ⟨x 0, x 1, eq_ix2 x⟩
  refine (pay_core _ u q).trans ?_
  have hu : u.val = 0 := by omega
  have e0 : ((Rect.unit (s := S8x128) ![s, 0] S1x128.size inbS).emb (ix2 u q)) 0 = (⟨s, hs⟩ : Fin 8) :=
    Fin.ext (by show s + 1 * u.val = s; omega)
  have e1 : ((Rect.unit (s := S8x128) ![s, 0] S1x128.size inbS).emb (ix2 u q)) 1 = q :=
    Fin.ext (by show 0 + 1 * q.val = q.val; omega)
  unfold rowSums rowSumAt
  rw [e0, e1]
  refine Finset.sum_congr rfl fun l _ => Finset.sum_congr rfl fun k _ => ?_
  exact LibLdUnit.ld_unit_apply x0 _ _ inbL (ix3 k q l) _ (fun a => by
    match a with
    | ⟨0, _⟩ => rfl
    | ⟨1, _⟩ => show q.val = 0 + q.val; omega
    | ⟨2, _⟩ => show l.val = 0 + l.val; omega)

/-- The point's [8, 128] output block after the body is `rowSums` of its input block: the eight stores are the eight rows. -/
theorem out0_1_eq (x0 : Vec Ideal S256x128x128 .f32) : out0_1 (F := Ideal) x0 = rowSums x0 := by
  funext y
  unfold out0_1
  refine View.canon_apply_of_pieces (Val := Elt Ideal) (rowSums x0) _ ?_ y (cover0_1 _ _ _ _ _ _ _ _ y)
  intro p hp
  simp only [List.mem_cons, List.mem_nil_iff, or_false] at hp
  rcases hp with rfl | rfl | rfl | rfl | rfl | rfl | rfl | rfl
  · exact fun x => piece_eq x0 7 (by norm_num) inb_S256x128x128_S32x128x128_224_0_0 inb_S8x128_S1x128_7_0 x
  · exact fun x => piece_eq x0 6 (by norm_num) inb_S256x128x128_S32x128x128_192_0_0 inb_S8x128_S1x128_6_0 x
  · exact fun x => piece_eq x0 5 (by norm_num) inb_S256x128x128_S32x128x128_160_0_0 inb_S8x128_S1x128_5_0 x
  · exact fun x => piece_eq x0 4 (by norm_num) inb_S256x128x128_S32x128x128_128_0_0 inb_S8x128_S1x128_4_0 x
  · exact fun x => piece_eq x0 3 (by norm_num) inb_S256x128x128_S32x128x128_96_0_0 inb_S8x128_S1x128_3_0 x
  · exact fun x => piece_eq x0 2 (by norm_num) inb_S256x128x128_S32x128x128_64_0_0 inb_S8x128_S1x128_2_0 x
  · exact fun x => piece_eq x0 1 (by norm_num) inb_S256x128x128_S32x128x128_32_0_0 inb_S8x128_S1x128_1_0 x
  · exact fun x => piece_eq x0 0 (by norm_num) inb_S256x128x128_S32x128x128_0_0_0 inb_S8x128_S1x128_0_0 x

/-! ## From the points' blocks to the array -/

/-- The whole [8, 1024] array of sums, as a function of the whole input array. -/
def valueArrAt (X : S256x1024x128.Idx → EReal) (s : Fin 8) (q : Fin 1024) : EReal :=
  ∑ l : Fin 128, ∑ k : Fin 32, X (ix3 (⟨32 * s.val + k.val, by omega⟩ : Fin 256) q l)

def valueArr (X : S256x1024x128.Idx → EReal) : S8x1024.Idx → EReal := fun i => valueArrAt X (i 0) (i 1)

/-- The index maps over the grid: the input block of point t is all samples, channel tile t, all features; the
    output block is all sub-batches, channel tile t. -/
theorem idx_facts0 : ∀ t : Fin cfg0.N, win0_0.index t (0 : Fin 3) = 0 ∧ win0_0.index t (1 : Fin 3) = win0_1.index t (1 : Fin 2)
    ∧ win0_0.index t (2 : Fin 3) = 0 ∧ win0_1.index t (0 : Fin 2) = 0 ∧ win0_1.index t (1 : Fin 2) ≤ 7 :=
  (by decide +kernel : ∀ t : Fin grid0.N, _)

/-- Every channel tile is some point's. -/
theorem idx_onto0 : ∀ q : Fin 8, ∃ t : Fin cfg0.N, win0_1.index t = ![0, q.val] :=
  (by decide +kernel : ∀ q : Fin 8, ∃ t : Fin grid0.N, win0_1.index t = ![0, q.val])

section Array

variable (V : (c : Dev nD) → (b : Ref sig .tc) → Buf (Elt Ideal) ((c : Thread nD τ).loc b))

/-- What point t writes back is block t of the array of sums of the input array as the region finds it. -/
theorem flushed0_eq (c : Dev nD) (t : Fin cfg0.N) :
    (dat0 V c).flushed 1 t = ((cfg0.win 1).blk t).view.read (Elt Ideal) (valueArr (V c main_arg0)) := by
  show (cfg0.win 1).cut (grid0.coords t) ((dat0 V c).after 1 t) = _
  rw [after0_1, out0_1_eq]
  obtain ⟨e0, e1, e2, e3, e4⟩ := idx_facts0 t
  funext j
  show rowSums (iblk0 V c 0 t) j = valueArr (V c main_arg0) (((cfg0.win 1).blk t).view.emb j)
  unfold rowSums rowSumAt valueArr valueArrAt
  refine Finset.sum_congr rfl fun l _ => Finset.sum_congr rfl fun k _ => ?_
  show V c main_arg0 (((cfg0.win 0).blk t).view.emb (ix3 (⟨32 * (j 0).val + k.val, _⟩ : Fin 256) (j 1) l)) = V c main_arg0 _
  refine congrArg (V c main_arg0) (funext fun a => Fin.ext ?_)
  have hj0 : (j 0).val < 8 := (j 0).isLt
  have hj1 : (j 1).val < 128 := (j 1).isLt
  match a with
  | ⟨0, _⟩ =>
    show win0_0.index t (0 : Fin 3) * 256 + 1 * (32 * (j 0).val + k.val) = 32 * (win0_1.index t (0 : Fin 2) * 8 + 1 * (j 0).val) + k.val
    omega
  | ⟨1, _⟩ =>
    show win0_0.index t (1 : Fin 3) * 128 + 1 * (j 1).val = win0_1.index t (1 : Fin 2) * 128 + 1 * (j 1).val
    omega
  | ⟨2, _⟩ =>
    show win0_0.index t (2 : Fin 3) * 128 + 1 * l.val = l.val
    omega

/-- An index of the array is in point t's block iff each coordinate is in the block's range on its axis. -/
theorem mem_blk0 (t : Fin cfg0.N) (i : S8x1024.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- The eight points' blocks cover the array: column q lies in channel tile q / 128. -/
theorem cover0 (i : S8x1024.Idx) : ∃ t : Fin cfg0.N, (cfg0.win 1).flush t = true ∧ i ∈ ((cfg0.win 1).blk t).view.set := by
  have hi0 : (i 0).val < 8 := (i 0).isLt
  have hi1 : (i 1).val < 1024 := (i 1).isLt
  obtain ⟨t, ht⟩ := idx_onto0 ⟨(i 1).val / 128, by omega⟩
  have q0 : win0_1.index t (0 : Fin 2) = 0 := congrFun ht 0
  have q1 : win0_1.index t (1 : Fin 2) = (i 1).val / 128 := congrFun ht 1
  refine ⟨t, flush0_1 t, ?_⟩
  rw [mem_blk0]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The region's output array after the run is the array of sums of its input array. -/
theorem final0 (c : Dev nD) : (dat0 V c).arrAt 1 cfg0.N = valueArr (V c main_arg0) :=
  (dat0 V c).arrAt_eq_of_cover 1 (valueArr (V c main_arg0)) (fun t _ => flushed0_eq V c t) cover0

end Array

end Cert.KernelIdeal.KReduce

end
-- ==== Proof.KHost.lean ====
/-
  The buffer contents where the second region is entered, read back to the launch memory: the three input arrays are
  as launched; the table operand is the host stretch's chain of operations applied to the first region's output array
  (the array of sums of the first argument), the index argument and the bias argument.
-/
import proofs.«157841_j54580444397811_2_alg».proof.Proof.Gen.KernelIdeal.Frame
import proofs.«157841_j54580444397811_2_alg».proof.Proof.KStages
import proofs.«157841_j54580444397811_2_alg».proof.Proof.KReduce
import Idealize.ShloMosaic.Lib.StableHlo.Run

set_option maxRecDepth 16384

noncomputable section

namespace Cert.KernelIdeal.KHost

open Idealize.ShloMosaic Idealize.ShloMosaic.TcCoe Idealize.ShloMosaic.Pipeline Idealize.SL.Sem
open Idealize.ShloMosaic.StableHlo
open Cert.KernelIdeal Cert.KernelIdeal.Gen

variable (m : (ℓ : Loc nD τ sig) → Buf (Elt Ideal) ℓ) (ρ : Dev nD → PrngReg)

/-- After the first region its output array holds the array of sums of the first argument. -/
theorem sums_eq (c : Dev nD) :
    W1 m ρ c (Proc.devRef .tc main_v0) = KReduce.valueArr (m ((c : Thread nD τ).loc main_arg0)) :=
  (W1_arr m ρ c 1).trans (KReduce.final0 (V0 m ρ) c)

/-- The first region leaves the index and bias arguments alone. -/
theorem idx_eq (c : Dev nD) : W1 m ρ c (Proc.devRef .tc main_arg3) = m ((c : Thread nD τ).loc main_arg3) :=
  W1_of_ne m ρ c main_arg3 (by decide)
theorem bias_eq (c : Dev nD) : W1 m ρ c (Proc.devRef .tc main_arg4) = m ((c : Thread nD τ).loc main_arg4) :=
  W1_of_ne m ρ c main_arg4 (by decide)

/-- The table operand where the second region is entered: the host stretch's chain of operations. -/
theorem table_raw (c : Dev nD) : V2 m ρ c main_v42
    = KStages.meanRow (W1 m ρ c (Proc.devRef .tc main_v0)) (W1 m ρ c (Proc.devRef .tc main_arg3)) (W1 m ρ c (Proc.devRef .tc main_arg4)) := by
  show StableHlo.after hostOps1 (W1 m ρ c) (Proc.devRef .tc main_v42) = _
  after_results_simp
  rfl

theorem table_eq (c : Dev nD) : V2 m ρ c main_v42
    = KStages.meanRow (KReduce.valueArr (m ((c : Thread nD τ).loc main_arg0))) (m ((c : Thread nD τ).loc main_arg3)) (m ((c : Thread nD τ).loc main_arg4)) := by
  rw [table_raw, sums_eq, idx_eq, bias_eq]

/-- The three input arrays where the second region is entered are the arguments as launched. -/
theorem arg0_eq (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem arg1_eq (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)
theorem arg2_eq (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)

end Cert.KernelIdeal.KHost

end
-- ==== Proof.LibGatherPoint4.lean ====
/-
  `stablehlo.gather` picking single entries of a matrix, read at one index, for any extents and ANY start indices (no
  range is assumed of the words): the start indices are an `[A, B, C, 2]` array, one (row, column) pair per result
  entry, both operand axes are collapsed and every slice is one entry (what `T[rows, cols]` with rank-3 index arrays
  lowers to). A gather clamps each start position into the operand: the word is read signed, a negative word names
  position 0 and a word past the end names the last position (`clampPos`). The result's entry at `(a, b, c)` is the
  operand's entry in the clamped row the pair's first word names and the clamped column its second word names. The
  dimension numbers are written out literally, so a program's own record of them unifies with the statement by
  unfolding.
-/
import Idealize.ShloMosaic.Lib.ValueIdx

noncomputable section

namespace Cert.LibGatherPoint4

open Idealize.ShloMosaic Idealize.ShloMosaic.ValueIdx

/-- The dimension numbers of a gather of entries of a matrix at a rank-4 table of pairs: operand `[N₀, N₁]`, start
    indices `[A, B, C, 2]`, result `[A, B, C]`; each slice is one entry. -/
abbrev gatherPoint4Dims (N₀ N₁ A B C : Nat)
    (wf : GatherDims.WF ⟨2, ![N₀, N₁]⟩ ⟨4, ![A, B, C, 2]⟩ ⟨3, ![A, B, C]⟩ [] [0, 1] [] [0, 1] [] 3 ![1, 1]) :
    GatherDims ⟨2, ![N₀, N₁]⟩ ⟨4, ![A, B, C, 2]⟩ ⟨3, ![A, B, C]⟩ where
  offsetDims := []
  collapsedSliceDims := [0, 1]
  operandBatchingDims := []
  startIndicesBatchingDims := []
  startIndexMap := [0, 1]
  indexVectorDim := 3
  sliceSizes := ![1, 1]
  wf := wf

/-- The position on an axis of length `N` a start word names once clamped: the word read signed, below zero position
    `0`, past the end position `N - 1`. -/
def clampPos {w : Nat} (N : Nat) (hN : 0 < N) (b : BitVec w) : Fin N :=
  ⟨min b.toInt.toNat (N - 1), by have := Nat.min_le_right b.toInt.toNat (N - 1); omega⟩

/-- The clamped position as a number. -/
theorem clampPos_val {w : Nat} (N : Nat) (hN : 0 < N) (b : BitVec w) :
    (clampPos N hN b).val = min b.toInt.toNat (N - 1) := rfl

/-- THE GATHER OF ENTRIES READ AT `(a, b, c)`, whatever the table holds: the operand's entry in the clamped row the
    pair's first word names and the clamped column its second word names. -/
theorem gather_point4_clamp_apply {α : Type} {N₀ N₁ A B C w : Nat} (h₀ : 0 < N₀) (h₁ : 0 < N₁)
    (wf : GatherDims.WF ⟨2, ![N₀, N₁]⟩ ⟨4, ![A, B, C, 2]⟩ ⟨3, ![A, B, C]⟩ [] [0, 1] [] [0, 1] [] 3 ![1, 1])
    (x : (⟨2, ![N₀, N₁]⟩ : Shape).Idx → α) (idx : IVec ⟨4, ![A, B, C, 2]⟩ w) (a : Fin A) (b : Fin B) (c : Fin C) :
    Host.gather (gatherPoint4Dims N₀ N₁ A B C wf) x idx (ix3 a b c)
      = x (ix2 (clampPos N₀ h₀ (idx (ix4 a b c (0 : Fin 2)))) (clampPos N₁ h₁ (idx (ix4 a b c (1 : Fin 2))))) := by
  unfold Host.gather
  congr 1
  funext e
  refine Fin.ext ?_
  show (gatherPoint4Dims N₀ N₁ A B C wf).start (ix3 a b c) idx e + (gatherPoint4Dims N₀ N₁ A B C wf).batchCoord (ix3 a b c) e
    + (gatherPoint4Dims N₀ N₁ A B C wf).offCoord (ix3 a b c) e = _
  rw [GatherDims.batchCoord_eq_zero _ _ _ List.not_mem_nil, Nat.add_zero]
  match e with
  | ⟨0, he⟩ =>
    rw [GatherDims.offCoord_eq_zero _ _ _ (fun h => ((GatherDims.mem_sKept _ _).mp h).1 List.mem_cons_self),
      Nat.add_zero]
    unfold GatherDims.start
    rw [dif_pos (show (⟨0, he⟩ : Fin 2) ∈ (gatherPoint4Dims N₀ N₁ A B C wf).startIndexMap from List.mem_cons_self)]
    have hsi : (gatherPoint4Dims N₀ N₁ A B C wf).siIdx (ix3 a b c)
        ⟨List.idxOf (⟨0, he⟩ : Fin 2) (gatherPoint4Dims N₀ N₁ A B C wf).startIndexMap,
          List.idxOf_lt_length_iff.2 List.mem_cons_self⟩ = ix4 a b c (0 : Fin 2) := by
      funext d; refine Fin.ext ?_
      match d with
      | ⟨0, _⟩ => rfl
      | ⟨1, _⟩ => rfl
      | ⟨2, _⟩ => rfl
      | ⟨3, _⟩ => rfl
    rw [hsi]
    rfl
  | ⟨1, he⟩ =>
    rw [GatherDims.offCoord_eq_zero _ _ _ (fun h => ((GatherDims.mem_sKept _ _).mp h).1
      (List.mem_cons_of_mem _ List.mem_cons_self)), Nat.add_zero]
    unfold GatherDims.start
    rw [dif_pos (show (⟨1, he⟩ : Fin 2) ∈ (gatherPoint4Dims N₀ N₁ A B C wf).startIndexMap from
      List.mem_cons_of_mem _ List.mem_cons_self)]
    have hsi : (gatherPoint4Dims N₀ N₁ A B C wf).siIdx (ix3 a b c)
        ⟨List.idxOf (⟨1, he⟩ : Fin 2) (gatherPoint4Dims N₀ N₁ A B C wf).startIndexMap,
          List.idxOf_lt_length_iff.2 (List.mem_cons_of_mem _ List.mem_cons_self)⟩ = ix4 a b c (1 : Fin 2) := by
      funext d; refine Fin.ext ?_
      match d with
      | ⟨0, _⟩ => rfl
      | ⟨1, _⟩ => rfl
      | ⟨2, _⟩ => rfl
      | ⟨3, _⟩ => rfl
    rw [hsi]
    rfl

end Cert.LibGatherPoint4

end
-- ==== Proof.LibStartPairs.lean ====
/-
  The start indices of a gather of single matrix entries, built from a row word per group and a column word per entry,
  read at one index — for any extents and any words — and the small index facts around them.

  A row-word array of shape [1, B, 1] is spread over [A, B, C], a column-word array has shape [A, B, C]; each gets a
  trailing unit axis and the two are joined along it into [A, B, C, 2]. The pair at (a, b, c) is (the row word of group
  b, the column word at (a, b, c)). A gather of entries of an [N₀, N₁] matrix at these pairs therefore reads, at
  (a, b, c), the matrix at the clamped row the group's word names and the clamped column the entry's word names.

  The usual treatment of a negative index — the word raised by the axis length when it is negative — is elementwise.
  An [A, B, C] array with its last two axes merged into one of B·C entries reads, at (a, b·C + c), the operand at
  (a, b, c).
-/
import Idealize.ShloMosaic.Lib.Pipeline.Value
import Idealize.ShloMosaic.Lib.ValueIdx
import proofs.«157841_j54580444397811_2_alg».proof.Proof.LibGatherPoint4

noncomputable section

namespace Cert.LibStartPairs

open Idealize.ShloMosaic Idealize.ShloMosaic.ValueIdx Cert.LibGatherPoint4

variable {α : Type}

/-! ## Broadcasts read at an index -/

/-- A `[1, B, 1]` array spread over `[A, B, C]` reads, at `(a, b, c)`, the operand at `(0, b, 0)`. -/
theorem spread_1B1_apply {A B C : ℕ} (v : (⟨3, ![1, B, 1]⟩ : Shape).Idx → α)
    (h : (⟨3, ![1, B, 1]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 (0 : Fin 1) b (0 : Fin 1)) := by
  refine broadcastInDim_apply ![0, 1, 2] h v (ix3 a b c) (ix3 (0 : Fin 1) b (0 : Fin 1)) fun ax => ?_
  match ax with
  | ⟨0, _⟩ => rfl
  | ⟨1, _⟩ =>
    show b.val = if B = 1 then 0 else b.val
    split
    · have := b.isLt; omega
    · rfl
  | ⟨2, _⟩ => rfl

/-- An `[A, B, C]` array given a trailing unit axis reads, at `(a, b, c, u)`, the operand at `(a, b, c)`. -/
theorem trail_apply {A B C : ℕ} (v : (⟨3, ![A, B, C]⟩ : Shape).Idx → α)
    (h : (⟨3, ![A, B, C]⟩ : Shape).BroadcastsInDim ⟨4, ![A, B, C, 1]⟩ ![0, 1, 2]) (a : Fin A) (b : Fin B) (c : Fin C)
    (u : Fin 1) : broadcastInDim ⟨4, ![A, B, C, 1]⟩ ![0, 1, 2] h v (ix4 a b c u) = v (ix3 a b c) := by
  refine broadcastInDim_apply ![0, 1, 2] h v (ix4 a b c u) (ix3 a b c) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl

/-- An `[A, B]` array given a trailing unit axis reads, at `(a, b, u)`, the operand at `(a, b)`. -/
theorem trail2_apply {A B : ℕ} (v : (⟨2, ![A, B]⟩ : Shape).Idx → α)
    (h : (⟨2, ![A, B]⟩ : Shape).BroadcastsInDim ⟨3, ![A, B, 1]⟩ ![0, 1]) (a : Fin A) (b : Fin B) (u : Fin 1) :
    broadcastInDim ⟨3, ![A, B, 1]⟩ ![0, 1] h v (ix3 a b u) = v (ix2 a b) := by
  refine broadcastInDim_apply ![0, 1] h v (ix3 a b u) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- An `[A, B, 1]` array spread over `C` entries of its last axis reads, at `(a, b, c)`, the operand at `(a, b, 0)`. -/
theorem spreadLast_apply {A B C : ℕ} (v : (⟨3, ![A, B, 1]⟩ : Shape).Idx → α)
    (h : (⟨3, ![A, B, 1]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 a b (0 : Fin 1)) := by
  refine broadcastInDim_apply ![0, 1, 2] h v (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- A vector `[A]` written as a one-column matrix reads, at `(a, u)`, the operand at `a`. -/
theorem colOfVec_apply {A : ℕ} (v : (⟨1, ![A]⟩ : Shape).Idx → α)
    (h : (⟨1, ![A]⟩ : Shape).BroadcastsInDim ⟨2, ![A, 1]⟩ ![0]) (a : Fin A) (u : Fin 1) :
    broadcastInDim ⟨2, ![A, 1]⟩ ![0] h v (ix2 a u) = v (ix1 a) := by
  refine broadcastInDim_apply ![0] h v (ix2 a u) (ix1 a) fun ax => ?_
  match ax with
  | ⟨0, _⟩ =>
    show a.val = if A = 1 then 0 else a.val
    split
    · have := a.isLt; omega
    · rfl

/-! ## The pairs -/

/-- The pairs (row word of the group, column word of the entry) as an `[A, B, C, 2]` array. -/
abbrev startPairs {A B C w : ℕ} (rowSel : IVec ⟨3, ![1, B, 1]⟩ w) (colSel : IVec ⟨3, ![A, B, C]⟩ w)
    (h0 : (⟨3, ![1, B, 1]⟩ : Shape).BroadcastsInDim ⟨3, ![A, B, C]⟩ ![0, 1, 2])
    (h1 h2 : (⟨3, ![A, B, C]⟩ : Shape).BroadcastsInDim ⟨4, ![A, B, C, 1]⟩ ![0, 1, 2])
    (hc : Shape.Concatenates [(⟨4, ![A, B, C, 1]⟩ : Shape), ⟨4, ![A, B, C, 1]⟩] ⟨4, ![A, B, C, 2]⟩ 3) :
    IVec ⟨4, ![A, B, C, 2]⟩ w :=
  concatenate ⟨4, ![A, B, C, 2]⟩ 3
    [⟨⟨4, ![A, B, C, 1]⟩, broadcastInDim ⟨4, ![A, B, C, 1]⟩ ![0, 1, 2] h1
        (broadcastInDim ⟨3, ![A, B, C]⟩ ![0, 1, 2] h0 rowSel)⟩,
     ⟨⟨4, ![A, B, C, 1]⟩, broadcastInDim ⟨4, ![A, B, C, 1]⟩ ![0, 1, 2] h2 colSel⟩] hc

/-- The pair's first word at `(a, b, c)`: the row word of group `b`. -/
theorem startPairs_fst {A B C w : ℕ} (rowSel : IVec ⟨3, ![1, B, 1]⟩ w) (colSel : IVec ⟨3, ![A, B, C]⟩ w)
    (h0 : (⟨3, ![1, B, 1]⟩ : Shape).BroadcastsInDim ⟨3, ![A, B, C]⟩ ![0, 1, 2])
    (h1 h2 : (⟨3, ![A, B, C]⟩ : Shape).BroadcastsInDim ⟨4, ![A, B, C, 1]⟩ ![0, 1, 2])
    (hc : Shape.Concatenates [(⟨4, ![A, B, C, 1]⟩ : Shape), ⟨4, ![A, B, C, 1]⟩] ⟨4, ![A, B, C, 2]⟩ 3)
    (a : Fin A) (b : Fin B) (c : Fin C) :
    startPairs rowSel colSel h0 h1 h2 hc (ix4 a b c (0 : Fin 2)) = rowSel (ix3 (0 : Fin 1) b (0 : Fin 1)) := by
  refine (concatenate_pair_apply_left 3 _ _ hc (ix4 a b c (0 : Fin 2)) rfl (ix4 a b c (0 : Fin 1)) fun ax => ?_).trans ?_
  · match ax with
    | ⟨0, _⟩ => rfl
    | ⟨1, _⟩ => rfl
    | ⟨2, _⟩ => rfl
    | ⟨3, _⟩ => rfl
  · exact (trail_apply _ h1 a b c 0).trans (spread_1B1_apply rowSel h0 a b c)

/-- The pair's second word at `(a, b, c)`: the column word there. -/
theorem startPairs_snd {A B C w : ℕ} (rowSel : IVec ⟨3, ![1, B, 1]⟩ w) (colSel : IVec ⟨3, ![A, B, C]⟩ w)
    (h0 : (⟨3, ![1, B, 1]⟩ : Shape).BroadcastsInDim ⟨3, ![A, B, C]⟩ ![0, 1, 2])
    (h1 h2 : (⟨3, ![A, B, C]⟩ : Shape).BroadcastsInDim ⟨4, ![A, B, C, 1]⟩ ![0, 1, 2])
    (hc : Shape.Concatenates [(⟨4, ![A, B, C, 1]⟩ : Shape), ⟨4, ![A, B, C, 1]⟩] ⟨4, ![A, B, C, 2]⟩ 3)
    (a : Fin A) (b : Fin B) (c : Fin C) :
    startPairs rowSel colSel h0 h1 h2 hc (ix4 a b c (1 : Fin 2)) = colSel (ix3 a b c) := by
  refine (concatenate_pair_apply_right 3 _ _ hc (ix4 a b c (1 : Fin 2)) rfl rfl (ix4 a b c (0 : Fin 1))
    (fun ax hax => ?_) rfl).trans ?_
  · match ax with
    | ⟨0, _⟩ => rfl
    | ⟨1, _⟩ => rfl
    | ⟨2, _⟩ => rfl
    | ⟨3, _⟩ => exact absurd rfl hax
  · exact trail_apply colSel h2 a b c 0

/-- THE GATHER OF MATRIX ENTRIES AT THE PAIRS, READ AT `(a, b, c)`: the matrix at the clamped row the group's word names
    and the clamped column the entry's word names. -/
theorem gather_startPairs_apply {N₀ N₁ A B C w : ℕ} (hN₀ : 0 < N₀) (hN₁ : 0 < N₁)
    (wf : GatherDims.WF ⟨2, ![N₀, N₁]⟩ ⟨4, ![A, B, C, 2]⟩ ⟨3, ![A, B, C]⟩ [] [0, 1] [] [0, 1] [] 3 ![1, 1])
    (T : (⟨2, ![N₀, N₁]⟩ : Shape).Idx → α)
    (rowSel : IVec ⟨3, ![1, B, 1]⟩ w) (colSel : IVec ⟨3, ![A, B, C]⟩ w)
    (h0 : (⟨3, ![1, B, 1]⟩ : Shape).BroadcastsInDim ⟨3, ![A, B, C]⟩ ![0, 1, 2])
    (h1 h2 : (⟨3, ![A, B, C]⟩ : Shape).BroadcastsInDim ⟨4, ![A, B, C, 1]⟩ ![0, 1, 2])
    (hc : Shape.Concatenates [(⟨4, ![A, B, C, 1]⟩ : Shape), ⟨4, ![A, B, C, 1]⟩] ⟨4, ![A, B, C, 2]⟩ 3)
    (a : Fin A) (b : Fin B) (c : Fin C) :
    Host.gather (gatherPoint4Dims N₀ N₁ A B C wf) T (startPairs rowSel colSel h0 h1 h2 hc) (ix3 a b c)
      = T (ix2 (clampPos N₀ hN₀ (rowSel (ix3 (0 : Fin 1) b (0 : Fin 1)))) (clampPos N₁ hN₁ (colSel (ix3 a b c)))) := by
  rw [gather_point4_clamp_apply hN₀ hN₁ wf T _ a b c, startPairs_fst, startPairs_snd]

/-! ## A negative index counted from the end, and the merge of two axes -/

/-- The word raised by `N` when it is negative, elementwise: the array a program builds with a comparison against a
    spread zero, an addition of a spread `N` and a select reads, at any index, that function of the operand's word. -/
theorem normSel_apply {S : Shape} (x : IVec S 32) (N : BitVec 32)
    (hz hN : (⟨0, ![]⟩ : Shape).BroadcastsInDim S ![]) (i : S.Idx) :
    select (cmpi .slt x (broadcastInDim S ![] hz (constantI ⟨0, ![]⟩ 32 0#32)))
        (addi x (broadcastInDim S ![] hN (constantI ⟨0, ![]⟩ 32 N))) x i
      = Scalar.select (IntOp.cmpi .slt (x i) 0#32) (IntOp.addi (x i) N) (x i) := rfl

/-- An `[A, B, C]` array with its last two axes merged into `Q = B·C` entries reads, at `(a, n)` with `n = b·C + c`, the
    operand at `(a, b, c)`. -/
theorem merge23_apply {A B C Q : ℕ} (x : (⟨3, ![A, B, C]⟩ : Shape).Idx → α)
    (h : (⟨3, ![A, B, C]⟩ : Shape).ShapeCasts ⟨2, ![A, Q]⟩) (hQ : Q = B * C)
    (a : Fin A) (b : Fin B) (c : Fin C) (n : Fin Q) (hn : n.val = b.val * C + c.val) :
    shapeCast ⟨2, ![A, Q]⟩ x h (ix2 a n) = x (ix3 a b c) :=
  shapeCast_apply x h _ _ (by
    rw [Shape.rowMajor_val_three, Shape.rowMajor_val_two]
    show (a.val * B + b.val) * C + c.val = a.val * Q + n.val
    rw [hn, hQ, Nat.add_mul, Nat.mul_assoc, Nat.add_assoc])

end Cert.LibStartPairs

end
-- ==== Proof.KTable.lean ====
/-
  The second region's table operand read at an index. The [8, 1, 1024] operand is the [8, 8, 128] gather result with
  its last two axes merged and a unit axis put in the middle, so its entry (s, 0, q) is the gather's entry
  (s, q / 128, q % 128); the gather reads the 8 x 256 table at the row the group's own number names and the column the
  index word names, each normalised and clamped: the specification's shift.
-/
import proofs.«157841_j54580444397811_2_alg».proof.Proof.Spec
import proofs.«157841_j54580444397811_2_alg».proof.Proof.KStages
import proofs.«157841_j54580444397811_2_alg».proof.Proof.LibStartPairs
import proofs.«157841_j54580444397811_2_alg».proof.Proof.LibGatherPoint4
import Idealize.ShloMosaic.Lib.ValueIdx
import Idealize.ShloMosaic.Lib.Pipeline.Value

noncomputable section

namespace Cert.KernelIdeal.KTable

open Idealize.ShloMosaic Idealize.ShloMosaic.ValueIdx
open Cert.KernelIdeal Cert.KernelIdeal.Facts₀ Cert.KernelIdeal.Facts

variable [Facts]

/-- The gather's entry (s, g, c) is the table at the clamped (row, column) pair. -/
theorem meanSub_apply (v : FVec Ideal S8x8x128 .f32) (idx : IVec S8x8x128 32) (bias : FVec Ideal S2048 .f32)
    (s g : Fin 8) (c : Fin 128) :
    KStages.meanSub v idx bias (ix3 s g c) = Cert.Spec.shift (KStages.meanTab v idx bias) idx s g c := by
  show Host.gather gather_S8x256_S8x8x128x2_S8x8x128_n_01_n_n_01_3_11 (KStages.meanTab v idx bias) (KStages.startIdx idx) (ix3 s g c) = _
  refine (Cert.LibStartPairs.gather_startPairs_apply (by norm_num) (by norm_num) gather_S8x256_S8x8x128x2_S8x8x128_n_01_n_n_01_3_11_wf
    (KStages.meanTab v idx bias) KStages.rowSel (KStages.colSel idx) bcast_S1x8x1_S8x8x128_0_1_2 bcast_S8x8x128_S8x8x128x1_0_1_2
    bcast_S8x8x128_S8x8x128x1_0_1_2 concatenates_S8x8x128x1_S8x8x128x1_S8x8x128x2_d3 s g c).trans ?_
  rfl

/-- The table operand's entry (s, 0, q). -/
theorem meanRow_apply (v2 : FVec Ideal S8x1024 .f32) (idx : IVec S8x8x128 32) (bias : FVec Ideal S2048 .f32)
    (s : Fin 8) (u : Fin 1) (q : Fin 1024) :
    KStages.meanRow v2 idx bias (ix3 s u q)
      = Cert.Spec.shift (KStages.meanTab (KStages.value3 v2) idx bias) idx s (⟨q.val / 128, by omega⟩ : Fin 8)
          (⟨q.val % 128, Nat.mod_lt _ (by norm_num)⟩ : Fin 128) := by
  unfold KStages.meanRow
  refine (shapeCast_apply _ _ (ix3 s u q) (ix2 s q) (by
    have hu : u.val = 0 := by omega
    rw [Shape.rowMajor_val_two, Shape.rowMajor_val_three]
    show s.val * 1024 + q.val = (s.val * 1 + u.val) * 1024 + q.val
    rw [hu, Nat.mul_one, Nat.add_zero])).trans ?_
  unfold KStages.meanFlat
  refine (Cert.LibStartPairs.merge23_apply _ _ (by norm_num) s (⟨q.val / 128, by omega⟩ : Fin 8)
    (⟨q.val % 128, Nat.mod_lt _ (by norm_num)⟩ : Fin 128) q (by show q.val = q.val / 128 * 128 + q.val % 128; omega)).trans ?_
  exact meanSub_apply _ idx bias s _ _

end Cert.KernelIdeal.KTable

end
-- ==== Proof.KSums.lean ====
/-
  The first region's array of sums, regrouped as [8, 8, 128], is the specification's array of sums: the regrouping
  reads column 128·g + c at (g, c), and the two sums (over the sub-batch's samples and over the features) commute.
-/
import proofs.«157841_j54580444397811_2_alg».proof.Proof.Spec
import proofs.«157841_j54580444397811_2_alg».proof.Proof.KStages
import proofs.«157841_j54580444397811_2_alg».proof.Proof.KReduce
import Idealize.ShloMosaic.Lib.ValueIdx
import Idealize.ShloMosaic.Lib.Pipeline.Value

open scoped BigOperators

noncomputable section

namespace Cert.KernelIdeal.KSums

open Idealize.ShloMosaic Idealize.ShloMosaic.ValueIdx
open Cert.KernelIdeal

theorem value3_eq (X : FVec Ideal S256x1024x128 .f32) :
    KStages.value3 (KReduce.valueArr X) = Cert.Spec.value X := by
  funext i
  obtain ⟨s, g, c, rfl⟩ : ∃ (s g : Fin 8) (c : Fin 128), i = ix3 s g c := ⟨i 0, i 1, i 2, eq_ix3 i⟩
  unfold KStages.value3
  refine (shapeCast_apply _ _ (ix3 s g c) (ix2 s (⟨128 * g.val + c.val, by omega⟩ : Fin 1024)) (by
    rw [Shape.rowMajor_val_two, Shape.rowMajor_val_three]
    show s.val * 1024 + (128 * g.val + c.val) = (s.val * 8 + g.val) * 128 + c.val
    omega)).trans ?_
  show KReduce.valueArrAt X s (⟨128 * g.val + c.val, _⟩ : Fin 1024) = Cert.Spec.valueAt X s g c
  unfold KReduce.valueArrAt Cert.Spec.valueAt
  exact Finset.sum_comm

end Cert.KernelIdeal.KSums

end
-- ==== Proof.KValue.lean ====
/-
  The idealized kernel program's run with its three result arrays as functions of the argument arrays.

  Each result is the corresponding input array lowered, at sample b and channel q, by the entry of the 8 x 256 table
  of per-segment means (computed from the array of sums of the first argument, the index argument and the bias) that
  sub-batch b / 32, group q / 128 and channel q % 128 select.
-/
import proofs.«157841_j54580444397811_2_alg».proof.Proof.Spec
import proofs.«157841_j54580444397811_2_alg».proof.Proof.KRun
import proofs.«157841_j54580444397811_2_alg».proof.Proof.KSub
import proofs.«157841_j54580444397811_2_alg».proof.Proof.KHost
import proofs.«157841_j54580444397811_2_alg».proof.Proof.KTable
import proofs.«157841_j54580444397811_2_alg».proof.Proof.KSums

set_option maxRecDepth 16384

noncomputable section

namespace Cert.KernelIdeal.KValue

open Idealize.ShloMosaic Idealize.ShloMosaic.TcCoe Idealize.ShloMosaic.ValueIdx Idealize.ShloMosaic.Pipeline Idealize.SL.Sem
open Cert.KernelIdeal Cert.KernelIdeal.Gen

/-- A result array as one function of the argument arrays: `Y` the input it lowers, `X` the first argument. -/
def G (Y X : FVec Ideal S256x1024x128 .f32) (idx : IVec S8x8x128 32) (bias : FVec Ideal S2048 .f32) : S256x1024x128.Idx → EReal :=
  fun i => Cert.Spec.out Y (KStages.meanTab (Cert.Spec.value X) idx bias) idx (i 0) (i 1) (i 2)

/-- The lowered array of the second region, with the table operand the host stretch computes, is `G`. -/
theorem shiftArr_eq (Y X : FVec Ideal S256x1024x128 .f32) (idx : IVec S8x8x128 32) (bias : FVec Ideal S2048 .f32) :
    KSub.shiftArr Y (KStages.meanRow (KReduce.valueArr X) idx bias) = G Y X idx bias := by
  funext i
  obtain ⟨b, q, l, rfl⟩ : ∃ (b : Fin 256) (q : Fin 1024) (l : Fin 128), i = ix3 b q l := ⟨i 0, i 1, i 2, eq_ix3 i⟩
  show Y (ix3 b q l) - KStages.meanRow (KReduce.valueArr X) idx bias (ix3 (⟨b.val / 32, by omega⟩ : Fin 8) (0 : Fin 1) q)
    = Cert.Spec.out Y (KStages.meanTab (Cert.Spec.value X) idx bias) idx b q l
  unfold Cert.Spec.out
  rw [KTable.meanRow_apply, KSums.value3_eq]

variable (m : (ℓ : Loc nD τ sig) → Buf (Elt Ideal) ℓ) (ρ : Dev nD → PrngReg)

theorem res0 (c : Dev nD) : W3 m ρ c (Proc.devRef .tc main_v43_0)
    = G (m ((c : Thread nD τ).loc main_arg0)) (m ((c : Thread nD τ).loc main_arg0)) (m ((c : Thread nD τ).loc main_arg3)) (m ((c : Thread nD τ).loc main_arg4)) := by
  rw [KRun.result0_eq, KSub.final1_4, KHost.arg0_eq, KHost.table_eq]
  exact shiftArr_eq _ _ _ _
theorem res1 (c : Dev nD) : W3 m ρ c (Proc.devRef .tc main_v43_1)
    = G (m ((c : Thread nD τ).loc main_arg1)) (m ((c : Thread nD τ).loc main_arg0)) (m ((c : Thread nD τ).loc main_arg3)) (m ((c : Thread nD τ).loc main_arg4)) := by
  rw [KRun.result1_eq, KSub.final1_5, KHost.arg1_eq, KHost.table_eq]
  exact shiftArr_eq _ _ _ _
theorem res2 (c : Dev nD) : W3 m ρ c (Proc.devRef .tc main_v43_2)
    = G (m ((c : Thread nD τ).loc main_arg2)) (m ((c : Thread nD τ).loc main_arg0)) (m ((c : Thread nD τ).loc main_arg3)) (m ((c : Thread nD τ).loc main_arg4)) := by
  rw [KRun.result2_eq, KSub.final1_6, KHost.arg2_eq, KHost.table_eq]
  exact shiftArr_eq _ _ _ _

/-- The run: every weakly fair execution terminates without a fault, the results at `G` of the arguments, the
    arguments as launched. -/
theorem run : θ_run defs (onTc (τ := τ) (main (F := Ideal))) ⟨m, fun _ => 0, ρ⟩ (fun r => ∀ c : Dev nD,
      (r.2.mem ((c.tc : Thread nD τ).loc main_v43_0) = G (m ((c : Thread nD τ).loc main_arg0)) (m ((c : Thread nD τ).loc main_arg0)) (m ((c : Thread nD τ).loc main_arg3)) (m ((c : Thread nD τ).loc main_arg4))
      ∧ r.2.mem ((c.tc : Thread nD τ).loc main_v43_1) = G (m ((c : Thread nD τ).loc main_arg1)) (m ((c : Thread nD τ).loc main_arg0)) (m ((c : Thread nD τ).loc main_arg3)) (m ((c : Thread nD τ).loc main_arg4))
      ∧ r.2.mem ((c.tc : Thread nD τ).loc main_v43_2) = G (m ((c : Thread nD τ).loc main_arg2)) (m ((c : Thread nD τ).loc main_arg0)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨⟨(h c).1.1.trans (res0 m ρ c), (h c).1.2.1.trans (res1 m ρ c), (h c).1.2.2.trans (res2 m ρ c)⟩, (h c).2⟩)
    (KRun.run_values m ρ)

end Cert.KernelIdeal.KValue

end
-- ==== Proof.RefStages.lean ====
/- The reference program's computation as pure functions of its arguments, at the ideal float values:
   one definition per value of the program, each spelt with the operation the printed program applies, so
   that the composed term which the program's run leaves in a result buffer unfolds to these definitions. -/
import proofs.«157841_j54580444397811_2_alg».proof.ReferenceIdeal
import Idealize.ShloMosaic.PureOps.Ideal

noncomputable section

namespace Cert.ReferenceIdeal.RefStages

open Idealize.ShloMosaic Idealize.SL.Sem
open Cert.ReferenceIdeal

variable [Facts]
open Facts₀ Facts

/-! ## %0, %cst, %1: the sums of the first argument over its blocks -/

/-- %0: the first argument read as an 8 x 32 x 8 x 128 x 128 array. -/
def xBlocks (x : FVec Ideal S256x1024x128 .f32) : FVec Ideal S8x32x8x128x128 .f32 :=
  shapeCast S8x32x8x128x128 x shapeCasts_S256x1024x128_S8x32x8x128x128

/-- %1: %0 summed over its axes 1 and 4, from zero. -/
def value (x : FVec Ideal S256x1024x128 .f32) : FVec Ideal S8x8x128 .f32 :=
  Host.reduceAdd (F := Ideal) (xBlocks x) (constant (F := Ideal) S_ .f32 0x00000000#32)
    reducesTo_S8x32x8x128x128_S8x8x128_d1_4 h_S_

/-! ## %2 … %8: the flat segment index -/

/-- %2 (and %33): 0, 1, …, 7. -/
def rowIota : IVec S8 32 := iotaInDim S8 32 0
/-- %3 (and %34): the same along the middle axis of 1 x 8 x 1. -/
def rowIotaB : IVec S1x8x1 32 := broadcastInDim S1x8x1 ![1] bcast_S8_S1x8x1_1 rowIota
/-- %4: 256 everywhere. -/
def c256B : IVec S1x8x1 32 := broadcastInDim S1x8x1 ![] bcast_S_S1x8x1 (constantI S_ 32 256#32)
/-- %5: 256 times the row number. -/
def rowOff : IVec S1x8x1 32 := muli rowIotaB c256B
/-- %6: %5 over 8 x 8 x 128. -/
def rowOffB : IVec S8x8x128 32 := broadcastInDim S8x8x128 ![0, 1, 2] bcast_S1x8x1_S8x8x128_0_1_2 rowOff
/-- %7: the index argument plus 256 times its row number. -/
def segIdx (idx : IVec S8x8x128 32) : IVec S8x8x128 32 := addi rowOffB idx
/-- %8: %7 flattened. -/
def flatIdx (idx : IVec S8x8x128 32) : IVec S8192 32 := shapeCast S8192 (segIdx idx) shapeCasts_S8x8x128_S8192

/-! ## %9 … %22: the per-segment mean, less the bias -/

/-- %9: the block sums flattened. -/
def valFlat (v : FVec Ideal S8x8x128 .f32) : FVec Ideal S8192 .f32 := shapeCast S8192 v shapeCasts_S8x8x128_S8192
/-- %10 (and %14): 2048 zeros. -/
def zeros2048 : FVec Ideal S2048 .f32 :=
  broadcastInDim S2048 ![] bcast_S_S2048 (constant (F := Ideal) S_ .f32 0x00000000#32)
/-- %11 (and %15): the flat index as a column of index vectors. -/
def scatIdx (idx : IVec S8x8x128 32) : IVec S8192x1 32 :=
  broadcastInDim S8192x1 ![0] bcast_S8192_S8192x1_0 (flatIdx idx)
/-- %12: the block sums added into their segments. -/
def segSum (v : FVec Ideal S8x8x128 .f32) (idx : IVec S8x8x128 32) : FVec Ideal S2048 .f32 :=
  Host.scatterAdd (F := Ideal) scatter_S2048_S8192x1_S8192_n_0_0_1 zeros2048 (scatIdx idx) (valFlat v)
/-- %13: 32 everywhere. -/
def c32F : FVec Ideal S8192 .f32 :=
  broadcastInDim S8192 ![] bcast_S_S8192 (constant (F := Ideal) S_ .f32 0x42000000#32)
/-- %16: 32 added into each segment once per block of it. -/
def segCnt (idx : IVec S8x8x128 32) : FVec Ideal S2048 .f32 :=
  Host.scatterAdd (F := Ideal) scatter_S2048_S8192x1_S8192_n_0_0_1 zeros2048 (scatIdx idx) c32F
/-- %17: 1e-10 everywhere. -/
def epsB : FVec Ideal S2048 .f32 :=
  broadcastInDim S2048 ![] bcast_S_S2048 (constant (F := Ideal) S_ .f32 0x2EDBE6FF#32)
/-- %18. -/
def cntEps (idx : IVec S8x8x128 32) : FVec Ideal S2048 .f32 := addf (segCnt idx) epsB
/-- %19: 128 everywhere. -/
def c128B : FVec Ideal S2048 .f32 :=
  broadcastInDim S2048 ![] bcast_S_S2048 (constant (F := Ideal) S_ .f32 0x43000000#32)
/-- %20: the divisor. -/
def denom (idx : IVec S8x8x128 32) : FVec Ideal S2048 .f32 := mulf (cntEps idx) c128B
/-- %21: the per-segment mean. -/
def segMean (v : FVec Ideal S8x8x128 .f32) (idx : IVec S8x8x128 32) : FVec Ideal S2048 .f32 :=
  Host.divf (F := Ideal) (segSum v idx) (denom idx)
/-- %22: the mean less the bias. -/
def meanVec (v : FVec Ideal S8x8x128 .f32) (idx : IVec S8x8x128 32) (bias : FVec Ideal S2048 .f32) :
    FVec Ideal S2048 .f32 := subf (segMean v idx) bias

/-! ## %23 … %29: the batch row of each of the 256 rows -/

/-- %23: 0, 1, …, 255. -/
def iota256 : IVec S256 32 := iotaInDim S256 32 0
/-- %c_5: 32. -/
def c32 : IVec S_ 32 := constantI S_ 32 32#32
/-- floor_divide's %0: its divisor. -/
def fd0 : IVec S_ 32 := id c32
/-- floor_divide's %1. -/
def fd1 : IVec S256 32 := broadcastInDim S256 ![] bcast_S_S256 fd0
/-- floor_divide's %2: the quotient rounded toward zero. -/
def fd2 : IVec S256 32 := Host.divsi iota256 fd1
/-- floor_divide's %3. -/
def fd3 : IVec S256 32 := signi iota256
/-- floor_divide's %4. -/
def fd4 : IVec S_ 32 := signi fd0
/-- floor_divide's %5. -/
def fd5 : IVec S256 32 := broadcastInDim S256 ![] bcast_S_S256 fd4
/-- floor_divide's %6: the signs differ. -/
def fd6 : IVec S256 1 := cmpi .ne fd3 fd5
/-- floor_divide's %7. -/
def fd7 : IVec S256 32 := broadcastInDim S256 ![] bcast_S_S256 fd0
/-- floor_divide's %8: the remainder. -/
def fd8 : IVec S256 32 := Host.remsi iota256 fd7
/-- floor_divide's %9. -/
def fd9 : IVec S256 32 := broadcastInDim S256 ![] bcast_S_S256 (constantI S_ 32 0#32)
/-- floor_divide's %10: the remainder is not zero. -/
def fd10 : IVec S256 1 := cmpi .ne fd8 fd9
/-- floor_divide's %11. -/
def fd11 : IVec S256 1 := andi fd6 fd10
/-- floor_divide's %12. -/
def fd12 : IVec S256 32 := broadcastInDim S256 ![] bcast_S_S256 (constantI S_ 32 1#32)
/-- floor_divide's %13. -/
def fd13 : IVec S256 32 := subi fd2 fd12
/-- %24: the row number divided by 32, rounded down. -/
def floorDiv : IVec S256 32 := select fd11 fd13 fd2
/-- %25. -/
def zero256 : IVec S256 32 := broadcastInDim S256 ![] bcast_S_S256 (constantI S_ 32 0#32)
/-- %26. -/
def neg256 : IVec S256 1 := cmpi .slt floorDiv zero256
/-- %27. -/
def eight256 : IVec S256 32 := broadcastInDim S256 ![] bcast_S_S256 (constantI S_ 32 8#32)
/-- %28. -/
def plus8 : IVec S256 32 := addi floorDiv eight256
/-- %29: the batch row, a negative one counted from the end. -/
def batchIdx : IVec S256 32 := select neg256 plus8 floorDiv

/-! ## %30, %31: each row's index table -/

/-- %30. -/
def batchIdxCol : IVec S256x1 32 := broadcastInDim S256x1 ![0] bcast_S256_S256x1_0 batchIdx
/-- %31: for each of the 256 rows, its batch row of the index argument. -/
def idxU (idx : IVec S8x8x128 32) : IVec S256x8x128 32 :=
  Host.gather gather_S8x8x128_S256x1_S256x8x128_12_0_n_n_0_1_18128 idx batchIdxCol

/-! ## %33 … %39: the row coordinate of the second gather -/

/-- %35. -/
def zero1x8x1 : IVec S1x8x1 32 := broadcastInDim S1x8x1 ![] bcast_S_S1x8x1 (constantI S_ 32 0#32)
/-- %36. -/
def rowNeg : IVec S1x8x1 1 := cmpi .slt rowIotaB zero1x8x1
/-- %37. -/
def eight1x8x1 : IVec S1x8x1 32 := broadcastInDim S1x8x1 ![] bcast_S_S1x8x1 (constantI S_ 32 8#32)
/-- %38. -/
def rowPlus8 : IVec S1x8x1 32 := addi rowIotaB eight1x8x1
/-- %39: the row number, a negative one counted from the end. -/
def rowSel : IVec S1x8x1 32 := select rowNeg rowPlus8 rowIotaB

/-! ## %40 … %44: the column coordinate of the second gather -/

/-- %40. -/
def zero256x8x128 : IVec S256x8x128 32 := broadcastInDim S256x8x128 ![] bcast_S_S256x8x128 (constantI S_ 32 0#32)
/-- %41. -/
def colNeg (idx : IVec S8x8x128 32) : IVec S256x8x128 1 := cmpi .slt (idxU idx) zero256x8x128
/-- %42. -/
def c256x8x128 : IVec S256x8x128 32 := broadcastInDim S256x8x128 ![] bcast_S_S256x8x128 (constantI S_ 32 256#32)
/-- %43. -/
def colPlus (idx : IVec S8x8x128 32) : IVec S256x8x128 32 := addi (idxU idx) c256x8x128
/-- %44: the index, a negative one counted from the end. -/
def colSel (idx : IVec S8x8x128 32) : IVec S256x8x128 32 := select (colNeg idx) (colPlus idx) (idxU idx)

/-! ## %45 … %48: the index vectors of the second gather -/

/-- %45. -/
def rowSelB : IVec S256x8x128 32 := broadcastInDim S256x8x128 ![0, 1, 2] bcast_S1x8x1_S256x8x128_0_1_2 rowSel
/-- %46. -/
def rowSelC : IVec S256x8x128x1 32 :=
  broadcastInDim S256x8x128x1 ![0, 1, 2] bcast_S256x8x128_S256x8x128x1_0_1_2 rowSelB
/-- %47. -/
def colSelC (idx : IVec S8x8x128 32) : IVec S256x8x128x1 32 :=
  broadcastInDim S256x8x128x1 ![0, 1, 2] bcast_S256x8x128_S256x8x128x1_0_1_2 (colSel idx)
/-- %48: the pairs (row, column). -/
def startIdx (idx : IVec S8x8x128 32) : IVec S256x8x128x2 32 :=
  concatenate S256x8x128x2 3 [⟨S256x8x128x1, rowSelC⟩, ⟨S256x8x128x1, colSelC idx⟩]
    concatenates_S256x8x128x1_S256x8x128x1_S256x8x128x2_d3

/-! ## %32, %49 … %52 and the results -/

/-- %32: the means as an 8 x 256 table. -/
def meanTab (x : FVec Ideal S256x1024x128 .f32) (idx : IVec S8x8x128 32) (bias : FVec Ideal S2048 .f32) :
    FVec Ideal S8x256 .f32 := shapeCast S8x256 (meanVec (value x) idx bias) shapeCasts_S2048_S8x256
/-- %49: the table read at the pairs. -/
def meanX (x : FVec Ideal S256x1024x128 .f32) (idx : IVec S8x8x128 32) (bias : FVec Ideal S2048 .f32) :
    FVec Ideal S256x8x128 .f32 :=
  Host.gather gather_S8x256_S256x8x128x2_S256x8x128_n_01_n_n_01_3_11 (meanTab x idx bias) (startIdx idx)
/-- %50. -/
def meanFlat (x : FVec Ideal S256x1024x128 .f32) (idx : IVec S8x8x128 32) (bias : FVec Ideal S2048 .f32) :
    FVec Ideal S256x1024 .f32 := shapeCast S256x1024 (meanX x idx bias) shapeCasts_S256x8x128_S256x1024
/-- %51. -/
def meanCol (x : FVec Ideal S256x1024x128 .f32) (idx : IVec S8x8x128 32) (bias : FVec Ideal S2048 .f32) :
    FVec Ideal S256x1024x1 .f32 :=
  broadcastInDim S256x1024x1 ![0, 1] bcast_S256x1024_S256x1024x1_0_1 (meanFlat x idx bias)
/-- %53, %55, %57 (at y the first, second, third argument): y less %51 along the last axis. -/
def out (y x : FVec Ideal S256x1024x128 .f32) (idx : IVec S8x8x128 32) (bias : FVec Ideal S2048 .f32) :
    FVec Ideal S256x1024x128 .f32 :=
  subf y (broadcastInDim S256x1024x128 ![0, 1, 2] bcast_S256x1024x1_S256x1024x128_0_1_2 (meanCol x idx bias))

end Cert.ReferenceIdeal.RefStages

end
-- ==== Proof.RefRun.lean ====
/- The reference program's @main as the list of its 88 host operations (the outlined floor_divide and the _where
   it calls written out at the call site, over the call's buffers), and its run read back: every weakly fair
   execution terminates with each result buffer at the pure function of the arguments that RefStages.out names,
   the arguments unchanged. -/
import proofs.«157841_j54580444397811_2_alg».proof.Proof.RefStages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-- @main's 88 operations, in order: the 59 of main_part0 with the 17 of floor_divide (its last the select of
    _where) where the call stands, then the 12 of main_part1. -/
abbrev ops : List (HloOp τ sig (Elt F)) :=
  [ reshape main_arg0 main_v0 rfl shapeCasts_S256x1024x128_S8x32x8x128x128,
    nullary main_cst (constant S_ .f32 0x00000000#32),
    binary main_v0 main_cst main_v1 ((fun x v => Host.reduceAdd x v reducesTo_S8x32x8x128x128_S8x8x128_d1_4 h_S_) : (⟨S8x32x8x128x128, .f32⟩ : BufTy).Contents (Elt F) → (⟨S_, .f32⟩ : BufTy).Contents (Elt F) → (⟨S8x8x128, .f32⟩ : BufTy).Contents (Elt F)),
    nullary main_v2 (iotaInDim S8 32 0),
    unary main_v2 main_v3 (broadcastInDim S1x8x1 ![1] bcast_S8_S1x8x1_1 : (⟨S8, .i32⟩ : BufTy).Contents (Elt F) → (⟨S1x8x1, .i32⟩ : BufTy).Contents (Elt F)),
    nullary main_c (constantI S_ 32 256#32),
    unary main_c main_v4 (broadcastInDim S1x8x1 ![] bcast_S_S1x8x1 : (⟨S_, .i32⟩ : BufTy).Contents (Elt F) → (⟨S1x8x1, .i32⟩ : BufTy).Contents (Elt F)),
    binary main_v3 main_v4 main_v5 (muli : (⟨S1x8x1, .i32⟩ : BufTy).Contents (Elt F) → (⟨S1x8x1, .i32⟩ : BufTy).Contents (Elt F) → (⟨S1x8x1, .i32⟩ : BufTy).Contents (Elt F)),
    unary main_v5 main_v6 (broadcastInDim S8x8x128 ![0, 1, 2] bcast_S1x8x1_S8x8x128_0_1_2 : (⟨S1x8x1, .i32⟩ : BufTy).Contents (Elt F) → (⟨S8x8x128, .i32⟩ : BufTy).Contents (Elt F)),
    binary main_v6 main_arg3 main_v7 (addi : (⟨S8x8x128, .i32⟩ : BufTy).Contents (Elt F) → (⟨S8x8x128, .i32⟩ : BufTy).Contents (Elt F) → (⟨S8x8x128, .i32⟩ : BufTy).Contents (Elt F)),
    reshape main_v7 main_v8 rfl shapeCasts_S8x8x128_S8192,
    reshape main_v1 main_v9 rfl shapeCasts_S8x8x128_S8192,
    nullary main_cst_0 (constant S_ .f32 0x00000000#32),
    unary main_cst_0 main_v10 (broadcastInDim S2048 ![] bcast_S_S2048 : (⟨S_, .f32⟩ : BufTy).Contents (Elt F) → (⟨S2048, .f32⟩ : BufTy).Contents (Elt F)),
    unary main_v8 main_v11 (broadcastInDim S8192x1 ![0] bcast_S8192_S8192x1_0 : (⟨S8192, .i32⟩ : BufTy).Contents (Elt F) → (⟨S8192x1, .i32⟩ : BufTy).Contents (Elt F)),
    ternary main_v10 main_v11 main_v9 main_v12 ((fun x i u => Host.scatterAdd scatter_S2048_S8192x1_S8192_n_0_0_1 x i u) : (⟨S2048, .f32⟩ : BufTy).Contents (Elt F) → (⟨S8192x1, .i32⟩ : BufTy).Contents (Elt F) → (⟨S8192, .f32⟩ : BufTy).Contents (Elt F) → (⟨S2048, .f32⟩ : BufTy).Contents (Elt F)),
    nullary main_cst_1 (constant S_ .f32 0x42000000#32),
    unary main_cst_1 main_v13 (broadcastInDim S8192 ![] bcast_S_S8192 : (⟨S_, .f32⟩ : BufTy).Contents (Elt F) → (⟨S8192, .f32⟩ : BufTy).Contents (Elt F)),
    nullary main_cst_2 (constant S_ .f32 0x00000000#32),
    unary main_cst_2 main_v14 (broadcastInDim S2048 ![] bcast_S_S2048 : (⟨S_, .f32⟩ : BufTy).Contents (Elt F) → (⟨S2048, .f32⟩ : BufTy).Contents (Elt F)),
    unary main_v8 main_v15 (broadcastInDim S8192x1 ![0] bcast_S8192_S8192x1_0 : (⟨S8192, .i32⟩ : BufTy).Contents (Elt F) → (⟨S8192x1, .i32⟩ : BufTy).Contents (Elt F)),
    ternary main_v14 main_v15 main_v13 main_v16 ((fun x i u => Host.scatterAdd scatter_S2048_S8192x1_S8192_n_0_0_1 x i u) : (⟨S2048, .f32⟩ : BufTy).Contents (Elt F) → (⟨S8192x1, .i32⟩ : BufTy).Contents (Elt F) → (⟨S8192, .f32⟩ : BufTy).Contents (Elt F) → (⟨S2048, .f32⟩ : BufTy).Contents (Elt F)),
    nullary main_cst_3 (constant S_ .f32 0x2EDBE6FF#32),
    unary main_cst_3 main_v17 (broadcastInDim S2048 ![] bcast_S_S2048 : (⟨S_, .f32⟩ : BufTy).Contents (Elt F) → (⟨S2048, .f32⟩ : BufTy).Contents (Elt F)),
    binary main_v16 main_v17 main_v18 (addf : (⟨S2048, .f32⟩ : BufTy).Contents (Elt F) → (⟨S2048, .f32⟩ : BufTy).Contents (Elt F) → (⟨S2048, .f32⟩ : BufTy).Contents (Elt F)),
    nullary main_cst_4 (constant S_ .f32 0x43000000#32),
    unary main_cst_4 main_v19 (broadcastInDim S2048 ![] bcast_S_S2048 : (⟨S_, .f32⟩ : BufTy).Contents (Elt F) → (⟨S2048, .f32⟩ : BufTy).Contents (Elt F)),
    binary main_v18 main_v19 main_v20 (mulf : (⟨S2048, .f32⟩ : BufTy).Contents (Elt F) → (⟨S2048, .f32⟩ : BufTy).Contents (Elt F) → (⟨S2048, .f32⟩ : BufTy).Contents (Elt F)),
    binary main_v12 main_v20 main_v21 (Host.divf : (⟨S2048, .f32⟩ : BufTy).Contents (Elt F) → (⟨S2048, .f32⟩ : BufTy).Contents (Elt F) → (⟨S2048, .f32⟩ : BufTy).Contents (Elt F)),
    binary main_v21 main_arg4 main_v22 (subf : (⟨S2048, .f32⟩ : BufTy).Contents (Elt F) → (⟨S2048, .f32⟩ : BufTy).Contents (Elt F) → (⟨S2048, .f32⟩ : BufTy).Contents (Elt F)),
    nullary main_v23 (iotaInDim S256 32 0),
    nullary main_c_5 (constantI S_ 32 32#32),
    TRef.unary (.of main_c_5 : TRef sig ⟨S_, .i32⟩) main_call0.v0 id,
    TRef.unary main_call0.v0 main_call0.v1 (broadcastInDim S256 ![] bcast_S_S256),
    TRef.binary (.of main_v23 : TRef sig ⟨S256, .i32⟩) main_call0.v1 main_call0.v2 Host.divsi,
    TRef.unary (.of main_v23 : TRef sig ⟨S256, .i32⟩) main_call0.v3 signi,
    TRef.unary main_call0.v0 main_call0.v4 signi,
    TRef.unary main_call0.v4 main_call0.v5 (broadcastInDim S256 ![] bcast_S_S256),
    TRef.binary main_call0.v3 main_call0.v5 main_call0.v6 (cmpi .ne),
    TRef.unary main_call0.v0 main_call0.v7 (broadcastInDim S256 ![] bcast_S_S256),
    TRef.binary (.of main_v23 : TRef sig ⟨S256, .i32⟩) main_call0.v7 main_call0.v8 Host.remsi,
    TRef.nullary main_call0.c (constantI S_ 32 0#32),
    TRef.unary main_call0.c main_call0.v9 (broadcastInDim S256 ![] bcast_S_S256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S256 ![] bcast_S_S256),
    TRef.binary main_call0.v2 main_call0.v12 main_call0.v13 subi,
    TRef.ternary main_call0.v11 main_call0.v13 main_call0.v2 main_call0.call0.v0 select,
    nullary main_c_6 (constantI S_ 32 0#32),
    unary main_c_6 main_v25 (broadcastInDim S256 ![] bcast_S_S256 : (⟨S_, .i32⟩ : BufTy).Contents (Elt F) → (⟨S256, .i32⟩ : BufTy).Contents (Elt F)),
    binary main_v24 main_v25 main_v26 (cmpi .slt : (⟨S256, .i32⟩ : BufTy).Contents (Elt F) → (⟨S256, .i32⟩ : BufTy).Contents (Elt F) → (⟨S256, .i1⟩ : BufTy).Contents (Elt F)),
    nullary main_c_7 (constantI S_ 32 8#32),
    unary main_c_7 main_v27 (broadcastInDim S256 ![] bcast_S_S256 : (⟨S_, .i32⟩ : BufTy).Contents (Elt F) → (⟨S256, .i32⟩ : BufTy).Contents (Elt F)),
    binary main_v24 main_v27 main_v28 (addi : (⟨S256, .i32⟩ : BufTy).Contents (Elt F) → (⟨S256, .i32⟩ : BufTy).Contents (Elt F) → (⟨S256, .i32⟩ : BufTy).Contents (Elt F)),
    ternary main_v26 main_v28 main_v24 main_v29 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v29 main_v30 (broadcastInDim S256x1 ![0] bcast_S256_S256x1_0 : (⟨S256, .i32⟩ : BufTy).Contents (Elt F) → (⟨S256x1, .i32⟩ : BufTy).Contents (Elt F)),
    binary main_arg3 main_v30 main_v31 ((fun x i => Host.gather gather_S8x8x128_S256x1_S256x8x128_12_0_n_n_0_1_18128 x i) : (⟨S8x8x128, .i32⟩ : BufTy).Contents (Elt F) → (⟨S256x1, .i32⟩ : BufTy).Contents (Elt F) → (⟨S256x8x128, .i32⟩ : BufTy).Contents (Elt F)),
    reshape main_v22 main_v32 rfl shapeCasts_S2048_S8x256,
    nullary main_v33 (iotaInDim S8 32 0),
    unary main_v33 main_v34 (broadcastInDim S1x8x1 ![1] bcast_S8_S1x8x1_1 : (⟨S8, .i32⟩ : BufTy).Contents (Elt F) → (⟨S1x8x1, .i32⟩ : BufTy).Contents (Elt F)),
    nullary main_c_8 (constantI S_ 32 0#32),
    unary main_c_8 main_v35 (broadcastInDim S1x8x1 ![] bcast_S_S1x8x1 : (⟨S_, .i32⟩ : BufTy).Contents (Elt F) → (⟨S1x8x1, .i32⟩ : BufTy).Contents (Elt F)),
    binary main_v34 main_v35 main_v36 (cmpi .slt : (⟨S1x8x1, .i32⟩ : BufTy).Contents (Elt F) → (⟨S1x8x1, .i32⟩ : BufTy).Contents (Elt F) → (⟨S1x8x1, .i1⟩ : BufTy).Contents (Elt F)),
    nullary main_c_9 (constantI S_ 32 8#32),
    unary main_c_9 main_v37 (broadcastInDim S1x8x1 ![] bcast_S_S1x8x1 : (⟨S_, .i32⟩ : BufTy).Contents (Elt F) → (⟨S1x8x1, .i32⟩ : BufTy).Contents (Elt F)),
    binary main_v34 main_v37 main_v38 (addi : (⟨S1x8x1, .i32⟩ : BufTy).Contents (Elt F) → (⟨S1x8x1, .i32⟩ : BufTy).Contents (Elt F) → (⟨S1x8x1, .i32⟩ : BufTy).Contents (Elt F)),
    ternary main_v36 main_v38 main_v34 main_v39 (select : (⟨S1x8x1, .i1⟩ : BufTy).Contents (Elt F) → (⟨S1x8x1, .i32⟩ : BufTy).Contents (Elt F) → (⟨S1x8x1, .i32⟩ : BufTy).Contents (Elt F) → (⟨S1x8x1, .i32⟩ : BufTy).Contents (Elt F)),
    nullary main_c_10 (constantI S_ 32 0#32),
    unary main_c_10 main_v40 (broadcastInDim S256x8x128 ![] bcast_S_S256x8x128 : (⟨S_, .i32⟩ : BufTy).Contents (Elt F) → (⟨S256x8x128, .i32⟩ : BufTy).Contents (Elt F)),
    binary main_v31 main_v40 main_v41 (cmpi .slt : (⟨S256x8x128, .i32⟩ : BufTy).Contents (Elt F) → (⟨S256x8x128, .i32⟩ : BufTy).Contents (Elt F) → (⟨S256x8x128, .i1⟩ : BufTy).Contents (Elt F)),
    nullary main_c_11 (constantI S_ 32 256#32),
    unary main_c_11 main_v42 (broadcastInDim S256x8x128 ![] bcast_S_S256x8x128 : (⟨S_, .i32⟩ : BufTy).Contents (Elt F) → (⟨S256x8x128, .i32⟩ : BufTy).Contents (Elt F)),
    binary main_v31 main_v42 main_v43 (addi : (⟨S256x8x128, .i32⟩ : BufTy).Contents (Elt F) → (⟨S256x8x128, .i32⟩ : BufTy).Contents (Elt F) → (⟨S256x8x128, .i32⟩ : BufTy).Contents (Elt F)),
    ternary main_v41 main_v43 main_v31 main_v44 (select : (⟨S256x8x128, .i1⟩ : BufTy).Contents (Elt F) → (⟨S256x8x128, .i32⟩ : BufTy).Contents (Elt F) → (⟨S256x8x128, .i32⟩ : BufTy).Contents (Elt F) → (⟨S256x8x128, .i32⟩ : BufTy).Contents (Elt F)),
    unary main_v39 main_v45 (broadcastInDim S256x8x128 ![0, 1, 2] bcast_S1x8x1_S256x8x128_0_1_2 : (⟨S1x8x1, .i32⟩ : BufTy).Contents (Elt F) → (⟨S256x8x128, .i32⟩ : BufTy).Contents (Elt F)),
    unary main_v45 main_v46 (broadcastInDim S256x8x128x1 ![0, 1, 2] bcast_S256x8x128_S256x8x128x1_0_1_2 : (⟨S256x8x128, .i32⟩ : BufTy).Contents (Elt F) → (⟨S256x8x128x1, .i32⟩ : BufTy).Contents (Elt F)),
    unary main_v44 main_v47 (broadcastInDim S256x8x128x1 ![0, 1, 2] bcast_S256x8x128_S256x8x128x1_0_1_2 : (⟨S256x8x128, .i32⟩ : BufTy).Contents (Elt F) → (⟨S256x8x128x1, .i32⟩ : BufTy).Contents (Elt F)),
    binary main_v46 main_v47 main_v48 ((fun a b => concatenate S256x8x128x2 3 [⟨S256x8x128x1, a⟩, ⟨S256x8x128x1, b⟩] concatenates_S256x8x128x1_S256x8x128x1_S256x8x128x2_d3) : (⟨S256x8x128x1, .i32⟩ : BufTy).Contents (Elt F) → (⟨S256x8x128x1, .i32⟩ : BufTy).Contents (Elt F) → (⟨S256x8x128x2, .i32⟩ : BufTy).Contents (Elt F)),
    binary main_v32 main_v48 main_v49 ((fun x i => Host.gather gather_S8x256_S256x8x128x2_S256x8x128_n_01_n_n_01_3_11 x i) : (⟨S8x256, .f32⟩ : BufTy).Contents (Elt F) → (⟨S256x8x128x2, .i32⟩ : BufTy).Contents (Elt F) → (⟨S256x8x128, .f32⟩ : BufTy).Contents (Elt F)),
    reshape main_v49 main_v50 rfl shapeCasts_S256x8x128_S256x1024,
    unary main_v50 main_v51 (broadcastInDim S256x1024x1 ![0, 1] bcast_S256x1024_S256x1024x1_0_1 : (⟨S256x1024, .f32⟩ : BufTy).Contents (Elt F) → (⟨S256x1024x1, .f32⟩ : BufTy).Contents (Elt F)),
    unary main_v51 main_v52 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg0 main_v52 main_v53 (subf : (⟨S256x1024x128, .f32⟩ : BufTy).Contents (Elt F) → (⟨S256x1024x128, .f32⟩ : BufTy).Contents (Elt F) → (⟨S256x1024x128, .f32⟩ : BufTy).Contents (Elt F)),
    unary main_v51 main_v54 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg1 main_v54 main_v55 (subf : (⟨S256x1024x128, .f32⟩ : BufTy).Contents (Elt F) → (⟨S256x1024x128, .f32⟩ : BufTy).Contents (Elt F) → (⟨S256x1024x128, .f32⟩ : BufTy).Contents (Elt F)),
    unary main_v51 main_v56 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg2 main_v56 main_v57 (subf : (⟨S256x1024x128, .f32⟩ : BufTy).Contents (Elt F) → (⟨S256x1024x128, .f32⟩ : BufTy).Contents (Elt F) → (⟨S256x1024x128, .f32⟩ : BufTy).Contents (Elt F)) ]

set_option maxRecDepth 8192 in
set_option maxHeartbeats 4000000 in
/-- @main is that straight line: main_part0 then main_part1, the functions' bodies where they are called. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨reshape_bufs_sub .., nullary_bufs_sub .., binary_bufs_sub .., nullary_bufs_sub .., unary_bufs_sub .., nullary_bufs_sub .., unary_bufs_sub .., binary_bufs_sub .., unary_bufs_sub .., binary_bufs_sub .., reshape_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., reshape_bufs_sub .., unary_bufs_sub .., unary_bufs_sub .., binary_bufs_sub .., unary_bufs_sub .., binary_bufs_sub .., unary_bufs_sub .., binary_bufs_sub ..⟩

/-! ## The operations in four windows, and what each leaves alone -/

/-- @main's operations 1 … 30 of 88. -/
abbrev wA : List (HloOp τ sig (Elt F)) :=
  [ reshape main_arg0 main_v0 rfl shapeCasts_S256x1024x128_S8x32x8x128x128,
    nullary main_cst (constant S_ .f32 0x00000000#32),
    binary main_v0 main_cst main_v1 ((fun x v => Host.reduceAdd x v reducesTo_S8x32x8x128x128_S8x8x128_d1_4 h_S_) : (⟨S8x32x8x128x128, .f32⟩ : BufTy).Contents (Elt F) → (⟨S_, .f32⟩ : BufTy).Contents (Elt F) → (⟨S8x8x128, .f32⟩ : BufTy).Contents (Elt F)),
    nullary main_v2 (iotaInDim S8 32 0),
    unary main_v2 main_v3 (broadcastInDim S1x8x1 ![1] bcast_S8_S1x8x1_1 : (⟨S8, .i32⟩ : BufTy).Contents (Elt F) → (⟨S1x8x1, .i32⟩ : BufTy).Contents (Elt F)),
    nullary main_c (constantI S_ 32 256#32),
    unary main_c main_v4 (broadcastInDim S1x8x1 ![] bcast_S_S1x8x1 : (⟨S_, .i32⟩ : BufTy).Contents (Elt F) → (⟨S1x8x1, .i32⟩ : BufTy).Contents (Elt F)),
    binary main_v3 main_v4 main_v5 (muli : (⟨S1x8x1, .i32⟩ : BufTy).Contents (Elt F) → (⟨S1x8x1, .i32⟩ : BufTy).Contents (Elt F) → (⟨S1x8x1, .i32⟩ : BufTy).Contents (Elt F)),
    unary main_v5 main_v6 (broadcastInDim S8x8x128 ![0, 1, 2] bcast_S1x8x1_S8x8x128_0_1_2 : (⟨S1x8x1, .i32⟩ : BufTy).Contents (Elt F) → (⟨S8x8x128, .i32⟩ : BufTy).Contents (Elt F)),
    binary main_v6 main_arg3 main_v7 (addi : (⟨S8x8x128, .i32⟩ : BufTy).Contents (Elt F) → (⟨S8x8x128, .i32⟩ : BufTy).Contents (Elt F) → (⟨S8x8x128, .i32⟩ : BufTy).Contents (Elt F)),
    reshape main_v7 main_v8 rfl shapeCasts_S8x8x128_S8192,
    reshape main_v1 main_v9 rfl shapeCasts_S8x8x128_S8192,
    nullary main_cst_0 (constant S_ .f32 0x00000000#32),
    unary main_cst_0 main_v10 (broadcastInDim S2048 ![] bcast_S_S2048 : (⟨S_, .f32⟩ : BufTy).Contents (Elt F) → (⟨S2048, .f32⟩ : BufTy).Contents (Elt F)),
    unary main_v8 main_v11 (broadcastInDim S8192x1 ![0] bcast_S8192_S8192x1_0 : (⟨S8192, .i32⟩ : BufTy).Contents (Elt F) → (⟨S8192x1, .i32⟩ : BufTy).Contents (Elt F)),
    ternary main_v10 main_v11 main_v9 main_v12 ((fun x i u => Host.scatterAdd scatter_S2048_S8192x1_S8192_n_0_0_1 x i u) : (⟨S2048, .f32⟩ : BufTy).Contents (Elt F) → (⟨S8192x1, .i32⟩ : BufTy).Contents (Elt F) → (⟨S8192, .f32⟩ : BufTy).Contents (Elt F) → (⟨S2048, .f32⟩ : BufTy).Contents (Elt F)),
    nullary main_cst_1 (constant S_ .f32 0x42000000#32),
    unary main_cst_1 main_v13 (broadcastInDim S8192 ![] bcast_S_S8192 : (⟨S_, .f32⟩ : BufTy).Contents (Elt F) → (⟨S8192, .f32⟩ : BufTy).Contents (Elt F)),
    nullary main_cst_2 (constant S_ .f32 0x00000000#32),
    unary main_cst_2 main_v14 (broadcastInDim S2048 ![] bcast_S_S2048 : (⟨S_, .f32⟩ : BufTy).Contents (Elt F) → (⟨S2048, .f32⟩ : BufTy).Contents (Elt F)),
    unary main_v8 main_v15 (broadcastInDim S8192x1 ![0] bcast_S8192_S8192x1_0 : (⟨S8192, .i32⟩ : BufTy).Contents (Elt F) → (⟨S8192x1, .i32⟩ : BufTy).Contents (Elt F)),
    ternary main_v14 main_v15 main_v13 main_v16 ((fun x i u => Host.scatterAdd scatter_S2048_S8192x1_S8192_n_0_0_1 x i u) : (⟨S2048, .f32⟩ : BufTy).Contents (Elt F) → (⟨S8192x1, .i32⟩ : BufTy).Contents (Elt F) → (⟨S8192, .f32⟩ : BufTy).Contents (Elt F) → (⟨S2048, .f32⟩ : BufTy).Contents (Elt F)),
    nullary main_cst_3 (constant S_ .f32 0x2EDBE6FF#32),
    unary main_cst_3 main_v17 (broadcastInDim S2048 ![] bcast_S_S2048 : (⟨S_, .f32⟩ : BufTy).Contents (Elt F) → (⟨S2048, .f32⟩ : BufTy).Contents (Elt F)),
    binary main_v16 main_v17 main_v18 (addf : (⟨S2048, .f32⟩ : BufTy).Contents (Elt F) → (⟨S2048, .f32⟩ : BufTy).Contents (Elt F) → (⟨S2048, .f32⟩ : BufTy).Contents (Elt F)),
    nullary main_cst_4 (constant S_ .f32 0x43000000#32),
    unary main_cst_4 main_v19 (broadcastInDim S2048 ![] bcast_S_S2048 : (⟨S_, .f32⟩ : BufTy).Contents (Elt F) → (⟨S2048, .f32⟩ : BufTy).Contents (Elt F)),
    binary main_v18 main_v19 main_v20 (mulf : (⟨S2048, .f32⟩ : BufTy).Contents (Elt F) → (⟨S2048, .f32⟩ : BufTy).Contents (Elt F) → (⟨S2048, .f32⟩ : BufTy).Contents (Elt F)),
    binary main_v12 main_v20 main_v21 (Host.divf : (⟨S2048, .f32⟩ : BufTy).Contents (Elt F) → (⟨S2048, .f32⟩ : BufTy).Contents (Elt F) → (⟨S2048, .f32⟩ : BufTy).Contents (Elt F)),
    binary main_v21 main_arg4 main_v22 (subf : (⟨S2048, .f32⟩ : BufTy).Contents (Elt F) → (⟨S2048, .f32⟩ : BufTy).Contents (Elt F) → (⟨S2048, .f32⟩ : BufTy).Contents (Elt F)) ]

/-- The buffers that those operations write. -/
abbrev wA_W : List (Ref sig .tc) := [main_v0, main_cst, main_v1, main_v2, main_v3, main_c, main_v4, main_v5, main_v6, main_v7, main_v8, main_v9, main_cst_0, main_v10, main_v11, main_v12, main_cst_1, main_v13, main_cst_2, main_v14, main_v15, main_v16, main_cst_3, main_v17, main_v18, main_cst_4, main_v19, main_v20, main_v21, main_v22]

set_option maxRecDepth 8192 in
theorem wA_writes : (wA : List (HloOp τ sig (Elt F))).Forall fun op => op.writes ⊆ (wA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that none of them writes keeps its contents through them. -/
theorem wA_keep (W : Valuation τ sig (Elt F)) (r : Ref sig .tc) (h : r ∉ wA_W) :
    after wA W (Proc.devRef .tc r) = W (Proc.devRef .tc r) :=
  after_of_writes_sub wA W wA_writes h

/-- @main's operations 31 … 58 of 88. -/
abbrev wB : List (HloOp τ sig (Elt F)) :=
  [ nullary main_v23 (iotaInDim S256 32 0),
    nullary main_c_5 (constantI S_ 32 32#32),
    TRef.unary (.of main_c_5 : TRef sig ⟨S_, .i32⟩) main_call0.v0 id,
    TRef.unary main_call0.v0 main_call0.v1 (broadcastInDim S256 ![] bcast_S_S256),
    TRef.binary (.of main_v23 : TRef sig ⟨S256, .i32⟩) main_call0.v1 main_call0.v2 Host.divsi,
    TRef.unary (.of main_v23 : TRef sig ⟨S256, .i32⟩) main_call0.v3 signi,
    TRef.unary main_call0.v0 main_call0.v4 signi,
    TRef.unary main_call0.v4 main_call0.v5 (broadcastInDim S256 ![] bcast_S_S256),
    TRef.binary main_call0.v3 main_call0.v5 main_call0.v6 (cmpi .ne),
    TRef.unary main_call0.v0 main_call0.v7 (broadcastInDim S256 ![] bcast_S_S256),
    TRef.binary (.of main_v23 : TRef sig ⟨S256, .i32⟩) main_call0.v7 main_call0.v8 Host.remsi,
    TRef.nullary main_call0.c (constantI S_ 32 0#32),
    TRef.unary main_call0.c main_call0.v9 (broadcastInDim S256 ![] bcast_S_S256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S256 ![] bcast_S_S256),
    TRef.binary main_call0.v2 main_call0.v12 main_call0.v13 subi,
    TRef.ternary main_call0.v11 main_call0.v13 main_call0.v2 main_call0.call0.v0 select,
    nullary main_c_6 (constantI S_ 32 0#32),
    unary main_c_6 main_v25 (broadcastInDim S256 ![] bcast_S_S256 : (⟨S_, .i32⟩ : BufTy).Contents (Elt F) → (⟨S256, .i32⟩ : BufTy).Contents (Elt F)),
    binary main_v24 main_v25 main_v26 (cmpi .slt : (⟨S256, .i32⟩ : BufTy).Contents (Elt F) → (⟨S256, .i32⟩ : BufTy).Contents (Elt F) → (⟨S256, .i1⟩ : BufTy).Contents (Elt F)),
    nullary main_c_7 (constantI S_ 32 8#32),
    unary main_c_7 main_v27 (broadcastInDim S256 ![] bcast_S_S256 : (⟨S_, .i32⟩ : BufTy).Contents (Elt F) → (⟨S256, .i32⟩ : BufTy).Contents (Elt F)),
    binary main_v24 main_v27 main_v28 (addi : (⟨S256, .i32⟩ : BufTy).Contents (Elt F) → (⟨S256, .i32⟩ : BufTy).Contents (Elt F) → (⟨S256, .i32⟩ : BufTy).Contents (Elt F)),
    ternary main_v26 main_v28 main_v24 main_v29 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v29 main_v30 (broadcastInDim S256x1 ![0] bcast_S256_S256x1_0 : (⟨S256, .i32⟩ : BufTy).Contents (Elt F) → (⟨S256x1, .i32⟩ : BufTy).Contents (Elt F)),
    binary main_arg3 main_v30 main_v31 ((fun x i => Host.gather gather_S8x8x128_S256x1_S256x8x128_12_0_n_n_0_1_18128 x i) : (⟨S8x8x128, .i32⟩ : BufTy).Contents (Elt F) → (⟨S256x1, .i32⟩ : BufTy).Contents (Elt F) → (⟨S256x8x128, .i32⟩ : BufTy).Contents (Elt F)) ]

/-- The buffers that those operations write. -/
abbrev wB_W : List (Ref sig .tc) := [main_v23, main_c_5, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_6, main_v25, main_v26, main_c_7, main_v27, main_v28, main_v29, main_v30, main_v31]

set_option maxRecDepth 8192 in
theorem wB_writes : (wB : List (HloOp τ sig (Elt F))).Forall fun op => op.writes ⊆ (wB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that none of them writes keeps its contents through them. -/
theorem wB_keep (W : Valuation τ sig (Elt F)) (r : Ref sig .tc) (h : r ∉ wB_W) :
    after wB W (Proc.devRef .tc r) = W (Proc.devRef .tc r) :=
  after_of_writes_sub wB W wB_writes h

/-- @main's operations 59 … 76 of 88. -/
abbrev wC : List (HloOp τ sig (Elt F)) :=
  [ reshape main_v22 main_v32 rfl shapeCasts_S2048_S8x256,
    nullary main_v33 (iotaInDim S8 32 0),
    unary main_v33 main_v34 (broadcastInDim S1x8x1 ![1] bcast_S8_S1x8x1_1 : (⟨S8, .i32⟩ : BufTy).Contents (Elt F) → (⟨S1x8x1, .i32⟩ : BufTy).Contents (Elt F)),
    nullary main_c_8 (constantI S_ 32 0#32),
    unary main_c_8 main_v35 (broadcastInDim S1x8x1 ![] bcast_S_S1x8x1 : (⟨S_, .i32⟩ : BufTy).Contents (Elt F) → (⟨S1x8x1, .i32⟩ : BufTy).Contents (Elt F)),
    binary main_v34 main_v35 main_v36 (cmpi .slt : (⟨S1x8x1, .i32⟩ : BufTy).Contents (Elt F) → (⟨S1x8x1, .i32⟩ : BufTy).Contents (Elt F) → (⟨S1x8x1, .i1⟩ : BufTy).Contents (Elt F)),
    nullary main_c_9 (constantI S_ 32 8#32),
    unary main_c_9 main_v37 (broadcastInDim S1x8x1 ![] bcast_S_S1x8x1 : (⟨S_, .i32⟩ : BufTy).Contents (Elt F) → (⟨S1x8x1, .i32⟩ : BufTy).Contents (Elt F)),
    binary main_v34 main_v37 main_v38 (addi : (⟨S1x8x1, .i32⟩ : BufTy).Contents (Elt F) → (⟨S1x8x1, .i32⟩ : BufTy).Contents (Elt F) → (⟨S1x8x1, .i32⟩ : BufTy).Contents (Elt F)),
    ternary main_v36 main_v38 main_v34 main_v39 (select : (⟨S1x8x1, .i1⟩ : BufTy).Contents (Elt F) → (⟨S1x8x1, .i32⟩ : BufTy).Contents (Elt F) → (⟨S1x8x1, .i32⟩ : BufTy).Contents (Elt F) → (⟨S1x8x1, .i32⟩ : BufTy).Contents (Elt F)),
    nullary main_c_10 (constantI S_ 32 0#32),
    unary main_c_10 main_v40 (broadcastInDim S256x8x128 ![] bcast_S_S256x8x128 : (⟨S_, .i32⟩ : BufTy).Contents (Elt F) → (⟨S256x8x128, .i32⟩ : BufTy).Contents (Elt F)),
    binary main_v31 main_v40 main_v41 (cmpi .slt : (⟨S256x8x128, .i32⟩ : BufTy).Contents (Elt F) → (⟨S256x8x128, .i32⟩ : BufTy).Contents (Elt F) → (⟨S256x8x128, .i1⟩ : BufTy).Contents (Elt F)),
    nullary main_c_11 (constantI S_ 32 256#32),
    unary main_c_11 main_v42 (broadcastInDim S256x8x128 ![] bcast_S_S256x8x128 : (⟨S_, .i32⟩ : BufTy).Contents (Elt F) → (⟨S256x8x128, .i32⟩ : BufTy).Contents (Elt F)),
    binary main_v31 main_v42 main_v43 (addi : (⟨S256x8x128, .i32⟩ : BufTy).Contents (Elt F) → (⟨S256x8x128, .i32⟩ : BufTy).Contents (Elt F) → (⟨S256x8x128, .i32⟩ : BufTy).Contents (Elt F)),
    ternary main_v41 main_v43 main_v31 main_v44 (select : (⟨S256x8x128, .i1⟩ : BufTy).Contents (Elt F) → (⟨S256x8x128, .i32⟩ : BufTy).Contents (Elt F) → (⟨S256x8x128, .i32⟩ : BufTy).Contents (Elt F) → (⟨S256x8x128, .i32⟩ : BufTy).Contents (Elt F)),
    unary main_v39 main_v45 (broadcastInDim S256x8x128 ![0, 1, 2] bcast_S1x8x1_S256x8x128_0_1_2 : (⟨S1x8x1, .i32⟩ : BufTy).Contents (Elt F) → (⟨S256x8x128, .i32⟩ : BufTy).Contents (Elt F)) ]

/-- The buffers that those operations write. -/
abbrev wC_W : List (Ref sig .tc) := [main_v32, main_v33, main_v34, main_c_8, main_v35, main_v36, main_c_9, main_v37, main_v38, main_v39, main_c_10, main_v40, main_v41, main_c_11, main_v42, main_v43, main_v44, main_v45]

set_option maxRecDepth 8192 in
theorem wC_writes : (wC : List (HloOp τ sig (Elt F))).Forall fun op => op.writes ⊆ (wC_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that none of them writes keeps its contents through them. -/
theorem wC_keep (W : Valuation τ sig (Elt F)) (r : Ref sig .tc) (h : r ∉ wC_W) :
    after wC W (Proc.devRef .tc r) = W (Proc.devRef .tc r) :=
  after_of_writes_sub wC W wC_writes h

/-- @main's operations 77 … 88 of 88. -/
abbrev wD : List (HloOp τ sig (Elt F)) :=
  [ unary main_v45 main_v46 (broadcastInDim S256x8x128x1 ![0, 1, 2] bcast_S256x8x128_S256x8x128x1_0_1_2 : (⟨S256x8x128, .i32⟩ : BufTy).Contents (Elt F) → (⟨S256x8x128x1, .i32⟩ : BufTy).Contents (Elt F)),
    unary main_v44 main_v47 (broadcastInDim S256x8x128x1 ![0, 1, 2] bcast_S256x8x128_S256x8x128x1_0_1_2 : (⟨S256x8x128, .i32⟩ : BufTy).Contents (Elt F) → (⟨S256x8x128x1, .i32⟩ : BufTy).Contents (Elt F)),
    binary main_v46 main_v47 main_v48 ((fun a b => concatenate S256x8x128x2 3 [⟨S256x8x128x1, a⟩, ⟨S256x8x128x1, b⟩] concatenates_S256x8x128x1_S256x8x128x1_S256x8x128x2_d3) : (⟨S256x8x128x1, .i32⟩ : BufTy).Contents (Elt F) → (⟨S256x8x128x1, .i32⟩ : BufTy).Contents (Elt F) → (⟨S256x8x128x2, .i32⟩ : BufTy).Contents (Elt F)),
    binary main_v32 main_v48 main_v49 ((fun x i => Host.gather gather_S8x256_S256x8x128x2_S256x8x128_n_01_n_n_01_3_11 x i) : (⟨S8x256, .f32⟩ : BufTy).Contents (Elt F) → (⟨S256x8x128x2, .i32⟩ : BufTy).Contents (Elt F) → (⟨S256x8x128, .f32⟩ : BufTy).Contents (Elt F)),
    reshape main_v49 main_v50 rfl shapeCasts_S256x8x128_S256x1024,
    unary main_v50 main_v51 (broadcastInDim S256x1024x1 ![0, 1] bcast_S256x1024_S256x1024x1_0_1 : (⟨S256x1024, .f32⟩ : BufTy).Contents (Elt F) → (⟨S256x1024x1, .f32⟩ : BufTy).Contents (Elt F)),
    unary main_v51 main_v52 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg0 main_v52 main_v53 (subf : (⟨S256x1024x128, .f32⟩ : BufTy).Contents (Elt F) → (⟨S256x1024x128, .f32⟩ : BufTy).Contents (Elt F) → (⟨S256x1024x128, .f32⟩ : BufTy).Contents (Elt F)),
    unary main_v51 main_v54 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg1 main_v54 main_v55 (subf : (⟨S256x1024x128, .f32⟩ : BufTy).Contents (Elt F) → (⟨S256x1024x128, .f32⟩ : BufTy).Contents (Elt F) → (⟨S256x1024x128, .f32⟩ : BufTy).Contents (Elt F)),
    unary main_v51 main_v56 (broadcastInDim S256x1024x128 ![0, 1, 2] bcast_S256x1024x1_S256x1024x128_0_1_2 : (⟨S256x1024x1, .f32⟩ : BufTy).Contents (Elt F) → (⟨S256x1024x128, .f32⟩ : BufTy).Contents (Elt F)),
    binary main_arg2 main_v56 main_v57 (subf : (⟨S256x1024x128, .f32⟩ : BufTy).Contents (Elt F) → (⟨S256x1024x128, .f32⟩ : BufTy).Contents (Elt F) → (⟨S256x1024x128, .f32⟩ : BufTy).Contents (Elt F)) ]

/-- The buffers that those operations write. -/
abbrev wD_W : List (Ref sig .tc) := [main_v46, main_v47, main_v48, main_v49, main_v50, main_v51, main_v52, main_v53, main_v54, main_v55, main_v56, main_v57]

set_option maxRecDepth 8192 in
theorem wD_writes : (wD : List (HloOp τ sig (Elt F))).Forall fun op => op.writes ⊆ (wD_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that none of them writes keeps its contents through them. -/
theorem wD_keep (W : Valuation τ sig (Elt F)) (r : Ref sig .tc) (h : r ∉ wD_W) :
    after wD W (Proc.devRef .tc r) = W (Proc.devRef .tc r) :=
  after_of_writes_sub wD W wD_writes h

/-! ## What each window computes, from any contents -/

/-- The fold over two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_split : (ops : List (HloOp τ sig (Elt F))) = wA ++ (wB ++ (wC ++ wD)) := rfl

/-- What the last twelve operations compute from a result's own argument `y`, the table of means `tab` and the
    two coordinate arrays: the table read at the pairs (row, column), spread along the last axis, taken from `y`. -/
def readBack (y : FVec Ideal S256x1024x128 .f32) (tab : FVec Ideal S8x256 .f32) (rs cs : IVec S256x8x128 32) :
    FVec Ideal S256x1024x128 .f32 :=
  subf y (broadcastInDim S256x1024x128 ![0, 1, 2] bcast_S256x1024x1_S256x1024x128_0_1_2
    (broadcastInDim S256x1024x1 ![0, 1] bcast_S256x1024_S256x1024x1_0_1
      (shapeCast S256x1024
        (Host.gather gather_S8x256_S256x8x128x2_S256x8x128_n_01_n_n_01_3_11 tab
          (concatenate S256x8x128x2 3
            [⟨S256x8x128x1, broadcastInDim S256x8x128x1 ![0, 1, 2] bcast_S256x8x128_S256x8x128x1_0_1_2 rs⟩,
             ⟨S256x8x128x1, broadcastInDim S256x8x128x1 ![0, 1, 2] bcast_S256x8x128_S256x8x128x1_0_1_2 cs⟩]
            concatenates_S256x8x128x1_S256x8x128x1_S256x8x128x2_d3))
        shapeCasts_S256x8x128_S256x1024)))

set_option maxRecDepth 8192 in
set_option maxHeartbeats 4000000 in
theorem wA_v22 (W : Valuation τ sig (Elt Ideal)) :
    after (wA (F := Ideal)) W (main_v22 : DevRef τ sig)
      = RefStages.meanVec (RefStages.value (W (main_arg0 : DevRef τ sig))) (W (main_arg3 : DevRef τ sig))
          (W (main_arg4 : DevRef τ sig)) := by
  after_results_simp
  rfl

set_option maxRecDepth 8192 in
set_option maxHeartbeats 4000000 in
theorem wB_v31 (W : Valuation τ sig (Elt Ideal)) :
    after (wB (F := Ideal)) W (main_v31 : DevRef τ sig) = RefStages.idxU (W (main_arg3 : DevRef τ sig)) := by
  after_results_simp
  rfl

set_option maxRecDepth 8192 in
set_option maxHeartbeats 4000000 in
theorem wC_v32 (W : Valuation τ sig (Elt Ideal)) :
    after (wC (F := Ideal)) W (main_v32 : DevRef τ sig)
      = shapeCast S8x256 (W (main_v22 : DevRef τ sig)) shapeCasts_S2048_S8x256 := by
  after_results_simp
  rfl

set_option maxRecDepth 8192 in
set_option maxHeartbeats 4000000 in
theorem wC_v44 (W : Valuation τ sig (Elt Ideal)) :
    after (wC (F := Ideal)) W (main_v44 : DevRef τ sig)
      = select (cmpi .slt (W (main_v31 : DevRef τ sig)) RefStages.zero256x8x128)
          (addi (W (main_v31 : DevRef τ sig)) RefStages.c256x8x128) (W (main_v31 : DevRef τ sig)) := by
  after_results_simp
  rfl

set_option maxRecDepth 8192 in
set_option maxHeartbeats 4000000 in
theorem wC_v45 (W : Valuation τ sig (Elt Ideal)) :
    after (wC (F := Ideal)) W (main_v45 : DevRef τ sig) = RefStages.rowSelB := by
  after_results_simp
  rfl

set_option maxRecDepth 8192 in
set_option maxHeartbeats 4000000 in
theorem wD_v53 (W : Valuation τ sig (Elt Ideal)) :
    after (wD (F := Ideal)) W (main_v53 : DevRef τ sig)
      = readBack (W (main_arg0 : DevRef τ sig)) (W (main_v32 : DevRef τ sig)) (W (main_v45 : DevRef τ sig))
          (W (main_v44 : DevRef τ sig)) := by
  after_results_simp
  rfl

set_option maxRecDepth 8192 in
set_option maxHeartbeats 4000000 in
theorem wD_v55 (W : Valuation τ sig (Elt Ideal)) :
    after (wD (F := Ideal)) W (main_v55 : DevRef τ sig)
      = readBack (W (main_arg1 : DevRef τ sig)) (W (main_v32 : DevRef τ sig)) (W (main_v45 : DevRef τ sig))
          (W (main_v44 : DevRef τ sig)) := by
  after_results_simp
  rfl

set_option maxRecDepth 8192 in
set_option maxHeartbeats 4000000 in
theorem wD_v57 (W : Valuation τ sig (Elt Ideal)) :
    after (wD (F := Ideal)) W (main_v57 : DevRef τ sig)
      = readBack (W (main_arg2 : DevRef τ sig)) (W (main_v32 : DevRef τ sig)) (W (main_v45 : DevRef τ sig))
          (W (main_v44 : DevRef τ sig)) := by
  after_results_simp
  rfl

/-! ## The windows joined -/

/-- The contents after all 88 operations, window by window. -/
theorem after_ops (V : Valuation τ sig (Elt F)) :
    after ops V = after wD (after wC (after wB (after wA V))) := by
  rw [ops_split, after_app, after_app, after_app]

/-- An argument, written by no operation, keeps its contents through all of them. -/
theorem after_arg (V : Valuation τ sig (Elt F)) (r : Ref sig .tc) (hA : r ∉ wA_W) (hB : r ∉ wB_W) (hC : r ∉ wC_W)
    (hD : r ∉ wD_W) : after ops V (Proc.devRef .tc r) = V (Proc.devRef .tc r) := by
  rw [after_ops, wD_keep _ r hD, wC_keep _ r hC, wB_keep _ r hB, wA_keep _ r hA]

/-- After the first three windows: the table of means, from the first window's %22 kept through the second. -/
theorem afterC_v32 (V : Valuation τ sig (Elt Ideal)) :
    after (wC (F := Ideal)) (after wB (after wA V)) (main_v32 : DevRef τ sig)
      = RefStages.meanTab (V (main_arg0 : DevRef τ sig)) (V (main_arg3 : DevRef τ sig)) (V (main_arg4 : DevRef τ sig)) := by
  rw [wC_v32, wB_keep _ main_v22 (by decide), wA_v22]
  rfl

/-- After the first three windows: the column coordinate, from the second window's %31. -/
theorem afterC_v44 (V : Valuation τ sig (Elt Ideal)) :
    after (wC (F := Ideal)) (after wB (after wA V)) (main_v44 : DevRef τ sig)
      = RefStages.colSel (V (main_arg3 : DevRef τ sig)) := by
  rw [wC_v44, wB_v31, wA_keep _ main_arg3 (by decide)]
  rfl

/-- The last window's term at the stages' values is the stages' `out`. -/
theorem readBack_eq (y x : FVec Ideal S256x1024x128 .f32) (idx : IVec S8x8x128 32) (bias : FVec Ideal S2048 .f32) :
    readBack y (RefStages.meanTab x idx bias) RefStages.rowSelB (RefStages.colSel idx) = RefStages.out y x idx bias := rfl

theorem after_v53 (V : Valuation τ sig (Elt Ideal)) :
    after (ops (F := Ideal)) V (main_v53 : DevRef τ sig)
      = RefStages.out (V (main_arg0 : DevRef τ sig)) (V (main_arg0 : DevRef τ sig)) (V (main_arg3 : DevRef τ sig))
          (V (main_arg4 : DevRef τ sig)) := by
  rw [after_ops, wD_v53, afterC_v32, afterC_v44, wC_v45, wC_keep _ main_arg0 (by decide), wB_keep _ main_arg0 (by decide),
    wA_keep _ main_arg0 (by decide)]
  rfl

theorem after_v55 (V : Valuation τ sig (Elt Ideal)) :
    after (ops (F := Ideal)) V (main_v55 : DevRef τ sig)
      = RefStages.out (V (main_arg1 : DevRef τ sig)) (V (main_arg0 : DevRef τ sig)) (V (main_arg3 : DevRef τ sig))
          (V (main_arg4 : DevRef τ sig)) := by
  rw [after_ops, wD_v55, afterC_v32, afterC_v44, wC_v45, wC_keep _ main_arg1 (by decide), wB_keep _ main_arg1 (by decide),
    wA_keep _ main_arg1 (by decide)]
  rfl

theorem after_v57 (V : Valuation τ sig (Elt Ideal)) :
    after (ops (F := Ideal)) V (main_v57 : DevRef τ sig)
      = RefStages.out (V (main_arg2 : DevRef τ sig)) (V (main_arg0 : DevRef τ sig)) (V (main_arg3 : DevRef τ sig))
          (V (main_arg4 : DevRef τ sig)) := by
  rw [after_ops, wD_v57, afterC_v32, afterC_v44, wC_v45, wC_keep _ main_arg2 (by decide), wB_keep _ main_arg2 (by decide),
    wA_keep _ main_arg2 (by decide)]
  rfl

/-! ## The run -/

/-- On every device, from any memory with zero counters: every weakly fair execution of @main terminates with
    each result buffer at the stages' `out` of its own argument and of the first, fourth and fifth arguments, and
    the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v53)
          = RefStages.out (m ((c.tc : Thread nD τ).loc main_arg0)) (m ((c.tc : Thread nD τ).loc main_arg0))
              (m ((c.tc : Thread nD τ).loc main_arg3)) (m ((c.tc : Thread nD τ).loc main_arg4))
        ∧ r.2.mem ((c.tc : Thread nD τ).loc main_v55)
          = RefStages.out (m ((c.tc : Thread nD τ).loc main_arg1)) (m ((c.tc : Thread nD τ).loc main_arg0))
              (m ((c.tc : Thread nD τ).loc main_arg3)) (m ((c.tc : Thread nD τ).loc main_arg4))
        ∧ r.2.mem ((c.tc : Thread nD τ).loc main_v57)
          = RefStages.out (m ((c.tc : Thread nD τ).loc main_arg2)) (m ((c.tc : Thread nD τ).loc main_arg0))
              (m ((c.tc : Thread nD τ).loc main_arg3)) (m ((c.tc : Thread nD τ).loc main_arg4)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))) :=
  (θ_run defs _ _).mono (fun _ h c =>
      ⟨⟨(h c main_v53).trans (after_v53 (launchContents m c)),
        (h c main_v55).trans (after_v55 (launchContents m c)),
        (h c main_v57).trans (after_v57 (launchContents m c))⟩,
       (h c main_arg0).trans (after_arg (launchContents m c) main_arg0 (by decide) (by decide) (by decide) (by decide)),
       (h c main_arg1).trans (after_arg (launchContents m c) main_arg1 (by decide) (by decide) (by decide) (by decide)),
       (h c main_arg2).trans (after_arg (launchContents m c) main_arg2 (by decide) (by decide) (by decide) (by decide)),
       (h c main_arg3).trans (after_arg (launchContents m c) main_arg3 (by decide) (by decide) (by decide) (by decide)),
       (h c main_arg4).trans (after_arg (launchContents m c) main_arg4 (by decide) (by decide) (by decide) (by decide))⟩)
    (run_seq scopedRefs_eq scopedSems_eq defs main (fun _ => ops) main_eq (fun _ => ops_sub) m ρ)

end Cert.ReferenceIdeal.RefRun

end
-- ==== Proof.LibGatherRows3.lean ====
/-
  `stablehlo.gather` picking whole rows `x[i]` of a rank-3 array, read at one index, for any extents and ANY start
  indices (no range is assumed of the words): the operand is `[N, B, C]`, the start indices an `[n, 1]` array, one
  position per result row, the operand's first axis is collapsed and every slice is one whole `[B, C]` row. A gather
  clamps each start position into the operand: the word is read signed, a negative word names row 0 and a word past the
  end names the last row (`clampRow`). The result's entry at `(j, b, c)` is the operand's entry `(b, c)` of the clamped
  row the `j`-th word names. The dimension numbers are written out literally, so a program's own record of them unifies
  with the statement by unfolding.
-/
import Idealize.ShloMosaic.Lib.ValueIdx

noncomputable section

namespace Cert.LibGatherRows3

open Idealize.ShloMosaic Idealize.ShloMosaic.ValueIdx

/-- The dimension numbers of a gather of rows of a rank-3 array: operand `[N, B, C]`, start indices `[n, 1]`, result
    `[n, B, C]`; each slice is one whole row. -/
abbrev gatherRows3Dims (N B C n : Nat)
    (wf : GatherDims.WF ⟨3, ![N, B, C]⟩ ⟨2, ![n, 1]⟩ ⟨3, ![n, B, C]⟩ [1, 2] [0] [] [0] [] 1 ![1, B, C]) :
    GatherDims ⟨3, ![N, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- The row of an `N`-row operand a start word names once clamped: the word read signed, below zero row `0`, past the
    end row `N - 1`. -/
def clampRow {w : Nat} (N : Nat) (hN : 0 < N) (b : BitVec w) : Fin N :=
  ⟨min b.toInt.toNat (N - 1), by have := Nat.min_le_right b.toInt.toNat (N - 1); omega⟩

/-- The clamped row as a number. -/
theorem clampRow_val {w : Nat} (N : Nat) (hN : 0 < N) (b : BitVec w) :
    (clampRow N hN b).val = min b.toInt.toNat (N - 1) := rfl

/-- THE GATHER OF ROWS READ AT `(j, b, c)`, whatever the table holds: the operand's entry `(b, c)` of the clamped row
    the table's `j`-th word names. -/
theorem gather_rows3_clamp_apply {α : Type} {N B C n w : Nat} (hN : 0 < N)
    (wf : GatherDims.WF ⟨3, ![N, B, C]⟩ ⟨2, ![n, 1]⟩ ⟨3, ![n, B, C]⟩ [1, 2] [0] [] [0] [] 1 ![1, B, C])
    (x : (⟨3, ![N, B, C]⟩ : Shape).Idx → α) (idx : IVec ⟨2, ![n, 1]⟩ w) (j : Fin n) (b : Fin B) (c : Fin C) :
    Host.gather (gatherRows3Dims N B C n wf) x idx (ix3 j b c)
      = x (ix3 (clampRow N hN (idx (ix2 j (0 : Fin 1)))) b c) := by
  unfold Host.gather
  congr 1
  funext e
  refine Fin.ext ?_
  show (gatherRows3Dims N B C n wf).start (ix3 j b c) idx e + (gatherRows3Dims N B C n wf).batchCoord (ix3 j b c) e
    + (gatherRows3Dims N B C n wf).offCoord (ix3 j b c) e = _
  rw [GatherDims.batchCoord_eq_zero _ _ _ List.not_mem_nil, Nat.add_zero]
  match e with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 3) ∈ (gatherRows3Dims N B C n wf).startIndexMap from List.mem_singleton.mpr rfl)]
    have hsi : (gatherRows3Dims N B C n wf).siIdx (ix3 j b c)
        ⟨List.idxOf (⟨0, h0⟩ : Fin 3) (gatherRows3Dims N B C n wf).startIndexMap,
          List.idxOf_lt_length_iff.2 (List.mem_singleton.mpr rfl)⟩ = ix2 j (0 : Fin 1) := by
      funext d; refine Fin.ext ?_
      match d with
      | ⟨0, _⟩ => rfl
      | ⟨1, _⟩ => rfl
    rw [hsi]
    rfl
  | ⟨1, h1⟩ =>
    have hs : (gatherRows3Dims N B C n wf).start (ix3 j b c) idx ⟨1, h1⟩ = 0 := by
      unfold GatherDims.start
      rw [dif_neg (fun h => absurd (congrArg Fin.val (List.mem_singleton.mp h)) Nat.one_ne_zero)]
    rw [hs, Nat.zero_add]
    unfold GatherDims.offCoord
    rw [dif_pos ((GatherDims.mem_sKept _ _).mpr
      ⟨fun h => absurd (congrArg Fin.val (List.mem_singleton.mp h)) Nat.one_ne_zero, List.not_mem_nil⟩)]
    rfl
  | ⟨2, h2⟩ =>
    have hs : (gatherRows3Dims N B C n wf).start (ix3 j b c) idx ⟨2, h2⟩ = 0 := by
      unfold GatherDims.start
      rw [dif_neg (fun h => absurd (congrArg Fin.val (List.mem_singleton.mp h)) (show ¬ (2 : Nat) = 0 by omega))]
    rw [hs, Nat.zero_add]
    unfold GatherDims.offCoord
    rw [dif_pos ((GatherDims.mem_sKept _ _).mpr
      ⟨fun h => absurd (congrArg Fin.val (List.mem_singleton.mp h)) (show ¬ (2 : Nat) = 0 by omega), List.not_mem_nil⟩)]
    rfl

end Cert.LibGatherRows3

end
-- ==== Proof.LibHostSum14.lean ====
/-
  A sum over the second and the last of five axes read at one index, over the extended reals, and the reshape that
  makes the five axes out of three.

  The host's add-reduce of an [a, b, c, d, e] array over axes 1 and 4 reads, at (p, q, r), the initial value plus the
  double sum over k < b and l < e of the entries (p, k, q, r, l): the source indices that drop to (p, q, r) are exactly
  those with first, third and fourth coordinates p, q, r, and they correspond one to one to the pairs (k, l).

  An [M, Q, e] array reshaped to [a, b, c, d, e] (its first axis split into a blocks of b rows, its second into c blocks
  of d columns) reads, at (p, k, q, r, l), the operand at row p·b + k, column q·d + r, entry l.
-/
import Idealize.ShloMosaic.Lib.Pipeline.Value
import Idealize.ShloMosaic.Lib.ValueIdx
import Idealize.ShloMosaic.Lib.IdealHost
import Idealize.ShloMosaic.PureOps.Ideal.Laws

open scoped BigOperators

noncomputable section

namespace Cert.LibHostSum14

open Idealize.ShloMosaic Idealize.ShloMosaic.ValueIdx

/-- Dropping the second and the last coordinate of a rank-5 index keeps the first, third and fourth. -/
theorem drop14_eq {a b c d e : ℕ}
    (h : (⟨5, ![a, b, c, d, e]⟩ : Shape).ReducesTo [1, 4] ⟨3, ![a, c, d]⟩) (i : (⟨5, ![a, b, c, d, e]⟩ : Shape).Idx) :
    h.drop i = ix3 (i 0) (i 2) (i 3) := by
  funext β; apply Fin.ext
  match β with
  | ⟨0, _⟩ => rfl
  | ⟨1, _⟩ => rfl
  | ⟨2, _⟩ => rfl

/-- THE SUM OVER AXES 1 AND 4 AT `(p, q, r)`, from any initial value: the initial value plus the double sum of the
    entries `(p, ·, q, r, ·)`. -/
theorem hostReduceAdd14_apply {a b c d e : ℕ}
    (h : (⟨5, ![a, b, c, d, e]⟩ : Shape).ReducesTo [1, 4] ⟨3, ![a, c, d]⟩)
    (x : (⟨5, ![a, b, c, d, e]⟩ : Shape).Idx → EReal) (init : EReal) (p : Fin a) (q : Fin c) (r : Fin d) :
    Ideal.hostReduceAdd h x init (ix3 p q r) = init + ∑ k : Fin b, ∑ l : Fin e, x (ix5 p k q r l) := by
  unfold Ideal.hostReduceAdd
  refine congrArg (init + ·) ?_
  rw [← Fintype.sum_prod_type' (f := fun (k : Fin b) (l : Fin e) => x (ix5 p k q r l))]
  have key : ∀ i : (⟨5, ![a, b, c, d, e]⟩ : Shape).Idx, h.drop i = ix3 p q r → ix5 p (i 1) q r (i 4) = i := by
    intro i hi
    rw [drop14_eq] at hi
    have h0 : i 0 = p := congrFun hi 0
    have h2 : i 2 = q := congrFun hi 1
    have h3 : i 3 = r := congrFun hi 2
    funext β
    match β with
    | ⟨0, _⟩ => exact h0.symm
    | ⟨1, _⟩ => rfl
    | ⟨2, _⟩ => exact h2.symm
    | ⟨3, _⟩ => exact h3.symm
    | ⟨4, _⟩ => rfl
  refine Finset.sum_nbij' (fun i => (i 1, i 4)) (fun kl => ix5 p kl.1 q r kl.2) ?_ ?_ ?_ ?_ ?_
  · intro i _; exact Finset.mem_univ _
  · intro kl _
    exact Finset.mem_filter.mpr ⟨Finset.mem_univ _, drop14_eq h _⟩
  · intro i hi; exact key i (Finset.mem_filter.mp hi).2
  · intro kl _; rfl
  · intro i hi
    exact congrArg x (key i (Finset.mem_filter.mp hi).2).symm

/-- The same for the host's reduce operation at the ideal values, whose initial value is the first entry of an array. -/
theorem hostSum14_apply {a b c d e : ℕ} {φ : FTy} {u : Shape}
    (x : FVec Ideal ⟨5, ![a, b, c, d, e]⟩ φ) (init : u.Idx → Ideal φ)
    (h : (⟨5, ![a, b, c, d, e]⟩ : Shape).ReducesTo [1, 4] ⟨3, ![a, c, d]⟩) (hu : 0 < u.numel)
    (p : Fin a) (q : Fin c) (r : Fin d) :
    Host.reduceAdd x init h hu (ix3 p q r)
      = init (Shape.Idx.first hu) + ∑ k : Fin b, ∑ l : Fin e, x (ix5 p k q r l) :=
  hostReduceAdd14_apply h x (init (Shape.Idx.first hu)) p q r

/-- AN `[M, Q, e]` ARRAY RESHAPED TO `[a, b, c, d, e]` reads, at `(p, k, q, r, l)`, the operand at row `m = p·b + k`,
    column `n = q·d + r`, entry `l` (the second axis has `Q = c·d` columns). -/
theorem split5_apply {α : Type} {M Q a b c d e : ℕ} (x : (⟨3, ![M, Q, e]⟩ : Shape).Idx → α)
    (h : (⟨3, ![M, Q, e]⟩ : Shape).ShapeCasts ⟨5, ![a, b, c, d, e]⟩) (hQ : Q = c * d)
    (p : Fin a) (k : Fin b) (q : Fin c) (r : Fin d) (l : Fin e) (m : Fin M) (n : Fin Q)
    (hm : m.val = p.val * b + k.val) (hn : n.val = q.val * d + r.val) :
    shapeCast ⟨5, ![a, b, c, d, e]⟩ x h (ix5 p k q r l) = x (ix3 m n l) :=
  shapeCast_apply x h _ _ (by
    rw [Shape.rowMajor_val_three, Shape.rowMajor_val_five]
    show (m.val * Q + n.val) * e + l.val = ((((p.val * b + k.val) * c + q.val) * d + r.val) * e + l.val)
    rw [hm, hn, hQ, Nat.add_mul ((p.val * b + k.val) * c) q.val d, Nat.mul_assoc (p.val * b + k.val) c d, Nat.add_assoc])

end Cert.LibHostSum14

end
-- ==== Proof.RefBatch.lean ====
/-
  The batch row of each of the 256 samples: the reference divides the sample number by 32 rounding down (the quotient
  rounded toward zero, lowered by one when the signs of dividend and divisor differ and the remainder is not zero) and
  then counts a negative result from the end of the 8 rows. For a sample number below 256 the dividend is not negative,
  so neither correction fires and the word is the sample number divided by 32.
-/
import proofs.«157841_j54580444397811_2_alg».proof.Proof.RefStages
import Idealize.ShloMosaic.Lib.ValueIdx

noncomputable section

namespace Cert.RefBatch

open Idealize.ShloMosaic Idealize.ShloMosaic.ValueIdx
open Cert.ReferenceIdeal Cert.ReferenceIdeal.RefStages

/-- The sign of a word as a word: 0, -1 or 1. -/
def signW (w : BitVec 32) : BitVec 32 := if w = 0 then 0 else if w.msb then -1 else 1

/-- The quotient of two words rounded down, as the reference computes it from the quotient rounded toward zero. -/
def floorDivW (w d : BitVec 32) : BitVec 32 :=
  Scalar.select (IntOp.andi (IntOp.cmpi .ne (signW w) (signW d)) (IntOp.cmpi .ne (IntOp.remsi .host w d) 0#32))
    (IntOp.subi (IntOp.divsi .host w d) 1#32) (IntOp.divsi .host w d)

/-- The batch row of the sample numbered by the word `w`: `w` divided by 32 rounded down, a negative result raised by 8. -/
def batchW (w : BitVec 32) : BitVec 32 :=
  Scalar.select (IntOp.cmpi .slt (floorDivW w 32#32) 0#32) (IntOp.addi (floorDivW w 32#32) 8#32) (floorDivW w 32#32)

/-- For a sample number below 256 the batch row is the number divided by 32. -/
theorem batchW_small : ∀ b : Fin 256, batchW (BitVec.ofNat 32 b.val) = BitVec.ofNat 32 (b.val / 32) := by
  decide

variable [Facts]

/-- The reference's batch-row array read at sample `b` is the word-level computation on the sample's number. -/
theorem batchIdx_word (b : Fin 256) : batchIdx (ix1 b) = batchW (BitVec.ofNat 32 b.val) := rfl

/-- THE BATCH ROW OF SAMPLE `b`: `b / 32`. -/
theorem batchIdx_apply (b : Fin 256) : batchIdx (ix1 b) = BitVec.ofNat 32 (b.val / 32) :=
  (batchIdx_word b).trans (batchW_small b)

end Cert.RefBatch

end
-- ==== Proof.RefValue.lean ====
/-
  The reference's computation read at one index.

  Its block sums are the specification's: the first argument viewed as [8, 32, 8, 128, 128] and summed over the 32
  samples of a sub-batch and the 128 features is, at (s, g, c), the double sum the specification names.

  Its result is the specification's: the subtracted array is constant along the features; at sample b and channel q
  it is the table of means read, through a gather of single entries, at a pair of positions. The pair's first word is
  the group number q / 128 with a negative value raised by 8; its second word is, with a negative value raised by 256,
  the index word the sample's sub-batch row b / 32 holds at (q / 128, q % 128) — that row being itself picked by a
  gather of rows at the sample number divided by 32. Both gathers clamp their positions into the operand, which is what
  the specification's row and column positions say.
-/
import proofs.«157841_j54580444397811_2_alg».proof.Proof.RefStages
import proofs.«157841_j54580444397811_2_alg».proof.Proof.Spec
import proofs.«157841_j54580444397811_2_alg».proof.Proof.LibGatherPoint4
import proofs.«157841_j54580444397811_2_alg».proof.Proof.LibGatherRows3
import proofs.«157841_j54580444397811_2_alg».proof.Proof.LibHostSum14
import proofs.«157841_j54580444397811_2_alg».proof.Proof.RefBatch
import proofs.«157841_j54580444397811_2_alg».proof.Proof.LibStartPairs
import Idealize.ShloMosaic.Lib.Pipeline.Value
import Idealize.ShloMosaic.Lib.ValueIdx
import Idealize.ShloMosaic.PureOps.Ideal.Laws

open scoped BigOperators

noncomputable section

namespace Cert.RefValue

open Idealize.ShloMosaic Idealize.ShloMosaic.ValueIdx
open Cert.ReferenceIdeal Cert.ReferenceIdeal.RefStages
open Cert.LibGatherPoint4 Cert.LibGatherRows3 Cert.LibHostSum14 Cert.LibStartPairs

variable [Facts]
open Facts₀ Facts

/-! ## The block sums -/

/-- THE BLOCK SUMS ARE THE SPECIFICATION'S. -/
theorem value_eq (x : FVec Ideal S256x1024x128 .f32) : RefStages.value x = Cert.Spec.value x := by
  funext i
  obtain ⟨s, g, c, rfl⟩ : ∃ s g c, i = ix3 s g c := ⟨_, _, _, eq_ix3 i⟩
  show Host.reduceAdd (F := Ideal) (xBlocks x) (constant (F := Ideal) S_ .f32 0x00000000#32)
    reducesTo_S8x32x8x128x128_S8x8x128_d1_4 h_S_ (ix3 s g c) = Cert.Spec.valueAt x s g c
  refine (hostSum14_apply (xBlocks x) _ reducesTo_S8x32x8x128x128_S8x8x128_d1_4 h_S_ s g c).trans ?_
  rw [constant_apply, Ideal.ofBits_zero_f32, zero_add]
  unfold Cert.Spec.valueAt
  refine Finset.sum_congr rfl fun k _ => Finset.sum_congr rfl fun l _ => ?_
  exact split5_apply x shapeCasts_S256x1024x128_S8x32x8x128x128 (by norm_num) s k g c l _ _
    (by show 32 * s.val + k.val = s.val * 32 + k.val; omega)
    (by show 128 * g.val + c.val = g.val * 128 + c.val; omega)

/-! ## The positions of the second gather -/

/-- The row word of group `g`: its number, a negative one raised by 8. -/
theorem rowSel_apply (g : Fin 8) :
    rowSel (ix3 (0 : Fin 1) g (0 : Fin 1)) = Cert.Spec.normW 8#32 (BitVec.ofNat 32 g.val) := rfl

/-- A word below 8 read signed and clamped into 8 rows is itself. -/
theorem clampRow_ofNat (n : Nat) (hn : n < 8) : clampRow 8 (by norm_num) (BitVec.ofNat 32 n) = (⟨n, hn⟩ : Fin 8) := by
  apply Fin.ext
  have ht : (BitVec.ofNat 32 n).toNat = n := by rw [BitVec.toNat_ofNat]; omega
  have h1 : (BitVec.ofNat 32 n).toInt = (n : Int) := by
    rw [BitVec.toInt_eq_toNat_of_lt (by rw [ht]; omega), ht]
  show min (BitVec.ofNat 32 n).toInt.toNat (8 - 1) = n
  rw [h1, Int.toNat_natCast]
  exact Nat.min_eq_left (by omega)

/-- The batch-row column read at sample `b`: `b / 32`. -/
theorem batchIdxCol_apply (b : Fin 256) : batchIdxCol (ix2 b (0 : Fin 1)) = BitVec.ofNat 32 (b.val / 32) := by
  show broadcastInDim (⟨2, ![256, 1]⟩ : Shape) ![0] bcast_S256_S256x1_0 batchIdx (ix2 b (0 : Fin 1)) = _
  exact (colOfVec_apply batchIdx bcast_S256_S256x1_0 b 0).trans (Cert.RefBatch.batchIdx_apply b)

/-- THE INDEX ROW OF SAMPLE `b` is row `b / 32` of the index argument. -/
theorem idxU_apply (idx : IVec S8x8x128 32) (b : Fin 256) (g : Fin 8) (c : Fin 128) :
    idxU idx (ix3 b g c) = idx (ix3 (⟨b.val / 32, by omega⟩ : Fin 8) g c) := by
  show Host.gather (gatherRows3Dims 8 8 128 256 gather_S8x8x128_S256x1_S256x8x128_12_0_n_n_0_1_18128_wf)
    idx batchIdxCol (ix3 b g c) = _
  refine (gather_rows3_clamp_apply (by norm_num) _ idx batchIdxCol b g c).trans ?_
  rw [batchIdxCol_apply, clampRow_ofNat (b.val / 32) (by omega)]

/-- The column word at sample `b`, group `g`, channel `c`: the index word of row `b / 32`, a negative one raised by 256. -/
theorem colSel_apply (idx : IVec S8x8x128 32) (b : Fin 256) (g : Fin 8) (c : Fin 128) :
    colSel idx (ix3 b g c) = Cert.Spec.normW 256#32 (idx (ix3 (⟨b.val / 32, by omega⟩ : Fin 8) g c)) := by
  show Cert.Spec.normW 256#32 (idxU idx (ix3 b g c)) = _
  rw [idxU_apply]

/-- The reference's start indices are the pairs (row word of the group, column word of the entry). -/
theorem startIdx_eq (idx : IVec S8x8x128 32) :
    startIdx idx = startPairs rowSel (colSel idx) bcast_S1x8x1_S256x8x128_0_1_2 bcast_S256x8x128_S256x8x128x1_0_1_2
      bcast_S256x8x128_S256x8x128x1_0_1_2 concatenates_S256x8x128x1_S256x8x128x1_S256x8x128x2_d3 := rfl

/-! ## The table read at the pairs, and the result -/

/-- THE GATHERED MEAN at sample `b`, group `g`, channel `c` is the specification's table entry. -/
theorem meanX_apply (x : FVec Ideal S256x1024x128 .f32) (idx : IVec S8x8x128 32) (bias : FVec Ideal S2048 .f32)
    (b : Fin 256) (g : Fin 8) (c : Fin 128) :
    meanX x idx bias (ix3 b g c)
      = Cert.Spec.shift (meanTab x idx bias) idx (⟨b.val / 32, by omega⟩ : Fin 8) g c := by
  show Host.gather (gatherPoint4Dims 8 256 256 8 128 gather_S8x256_S256x8x128x2_S256x8x128_n_01_n_n_01_3_11_wf)
    (meanTab x idx bias) (startIdx idx) (ix3 b g c) = _
  rw [startIdx_eq, gather_startPairs_apply (by norm_num) (by norm_num), rowSel_apply, colSel_apply]
  rfl

/-- THE REFERENCE'S RESULT IS THE SPECIFICATION'S, with the table of means as the table. -/
theorem out_eq (y x : FVec Ideal S256x1024x128 .f32) (idx : IVec S8x8x128 32) (bias : FVec Ideal S2048 .f32)
    (b : Fin 256) (q : Fin 1024) (l : Fin 128) :
    RefStages.out y x idx bias (ix3 b q l) = Cert.Spec.out y (meanTab x idx bias) idx b q l := by
  show y (ix3 b q l) - broadcastInDim (⟨3, ![256, 1024, 128]⟩ : Shape) ![0, 1, 2] bcast_S256x1024x1_S256x1024x128_0_1_2
    (meanCol x idx bias) (ix3 b q l) = _
  rw [spreadLast_apply (meanCol x idx bias) bcast_S256x1024x1_S256x1024x128_0_1_2 b q l]
  have h1 : meanCol x idx bias (ix3 b q (0 : Fin 1)) = meanFlat x idx bias (ix2 b q) :=
    trail2_apply (meanFlat x idx bias) bcast_S256x1024_S256x1024x1_0_1 b q 0
  have h2 : meanFlat x idx bias (ix2 b q)
      = meanX x idx bias (ix3 b (⟨q.val / 128, by omega⟩ : Fin 8) (⟨q.val % 128, Nat.mod_lt _ (by norm_num)⟩ : Fin 128)) :=
    merge23_apply (meanX x idx bias) shapeCasts_S256x8x128_S256x1024 (by norm_num) b _ _ q
      (by show q.val = q.val / 128 * 128 + q.val % 128; omega)
  rw [h1, h2, meanX_apply]
  rfl

end Cert.RefValue

end
-- ==== Proof.Bridge.lean ====
/-
  The two programs' results are one function of the arguments. The reference's result, read at an index, is the
  specification's lowered input with the reference's own 8 x 256 table of means; the kernel's is the same with the
  kernel's table. The two tables are the same chain of host operations applied to the array of sums, and the two
  arrays of sums are both the specification's (sums over a finite set taken in two orders).
-/
import proofs.«157841_j54580444397811_2_alg».proof.Proof.Spec
import proofs.«157841_j54580444397811_2_alg».proof.Proof.KValue
import proofs.«157841_j54580444397811_2_alg».proof.Proof.RefValue
import proofs.«157841_j54580444397811_2_alg».proof.Proof.Gen.ReferenceIdeal

noncomputable section

namespace Cert.Bridge

open Idealize.ShloMosaic Idealize.ShloMosaic.ValueIdx

/-- The kernel's and the reference's chains from the array of sums to the 8 x 256 table are the same operations. -/
theorem meanTab_eq (x : FVec Ideal Cert.ReferenceIdeal.S256x1024x128 .f32) (idx : IVec Cert.ReferenceIdeal.S8x8x128 32)
    (bias : FVec Ideal Cert.ReferenceIdeal.S2048 .f32) :
    Cert.ReferenceIdeal.RefStages.meanTab x idx bias = Cert.KernelIdeal.KStages.meanTab (Cert.Spec.value x) idx bias := by
  unfold Cert.ReferenceIdeal.RefStages.meanTab
  rw [Cert.RefValue.value_eq]
  rfl

/-- The reference's result array is the kernel's function of the arguments. -/
theorem out_eq (y x : FVec Ideal Cert.ReferenceIdeal.S256x1024x128 .f32) (idx : IVec Cert.ReferenceIdeal.S8x8x128 32)
    (bias : FVec Ideal Cert.ReferenceIdeal.S2048 .f32) :
    Cert.ReferenceIdeal.RefStages.out y x idx bias = Cert.KernelIdeal.KValue.G y x idx bias := by
  funext i
  obtain ⟨b, q, l, rfl⟩ : ∃ (b : Fin 256) (q : Fin 1024) (l : Fin 128), i = ix3 b q l := ⟨i 0, i 1, i 2, eq_ix3 i⟩
  rw [Cert.RefValue.out_eq, meanTab_eq]
  rfl

end Cert.Bridge

end
-- ==== Proof.lean ====
/-
  The certificate's five claims.

  The kernel program is two pipelined regions with host operations between them. The first region sums the first
  argument x : [256, 1024, 128] over each sub-batch of 32 samples and over the 128 features, one [8, 128] block per
  channel tile; the host operations add those sums into 2048 segments named by the index argument, divide by the
  segment counts (plus a small constant) times 128, subtract the bias, and gather one shift per sub-batch and channel;
  the second region lowers x and the two other inputs by the shift of each sample's sub-batch. The reference computes
  the same sums as one reduction over two axes, the same segment means, gathers the index rows per sample (sample b
  uses row b / 32) and subtracts.

  Over the extended reals the two agree: the two orders of summation give one sum (addition is commutative and
  associative there, infinities included), the segment means are the same chain of operations applied to equal sums,
  and reading the index row of sample b and then the table is reading the table at sub-batch b / 32's index. No
  finiteness is used: the precondition is never opened.

  The frames of the two kernel programs are the generated frame certificates; the reference's frame is its run with the
  results dropped. The ideal pass rewrote nothing, so the preservation claim is trivial.
-/
import proofs.«157841_j54580444397811_2_alg».proof.Defs
import proofs.«157841_j54580444397811_2_alg».proof.Proof.Gen.Kernel
import proofs.«157841_j54580444397811_2_alg».proof.Proof.Gen.Kernel.Frame
import proofs.«157841_j54580444397811_2_alg».proof.Proof.Gen.KernelIdeal
import proofs.«157841_j54580444397811_2_alg».proof.Proof.Gen.KernelIdeal.Frame
import proofs.«157841_j54580444397811_2_alg».proof.Proof.Gen.ReferenceIdeal
import proofs.«157841_j54580444397811_2_alg».proof.Proof.Gen.Pre_finite_inputs
import proofs.«157841_j54580444397811_2_alg».proof.Proof.KValue
import proofs.«157841_j54580444397811_2_alg».proof.Proof.RefRun
import proofs.«157841_j54580444397811_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both idealized programs end with each result at one function of the arguments (`KValue.G`): the kernel's run
    states it, and the reference's run states its own term, which `Bridge.out_eq` identifies with it once the
    arguments' agreement is rewritten. -/
theorem algebraic : Cert.algebraic_KernelIdeal_ReferenceIdeal := by
  intro m ρ m' ρ' _ hagree
  refine ⟨fun c => Cert.KernelIdeal.KValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.KValue.G (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.KValue.G (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    ?_, ?_⟩
  · exact (θ_run Cert.KernelIdeal.defs _ _).mono
      (fun r h c => ⟨(h c).1.1, (h c).1.2.1, (h c).1.2.2, (h c).2⟩) (Cert.KernelIdeal.KValue.run m ρ)
  · refine (θ_run Cert.ReferenceIdeal.defs _ _).mono (fun r h c => ?_) (Cert.ReferenceIdeal.RefRun.run m' ρ')
    obtain ⟨⟨h0, h1, h2⟩, hargs⟩ := h c
    obtain ⟨e0, e1, e2, e3, e4⟩ := hagree c
    refine ⟨h0.trans ?_, h1.trans ?_, h2.trans ?_, hargs⟩
    · rw [e0, e3, e4]; exact Cert.Bridge.out_eq _ _ _ _
    · rw [e0, e1, e3, e4]; exact Cert.Bridge.out_eq _ _ _ _
    · rw [e0, e2, e3, e4]; exact Cert.Bridge.out_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
